-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x160000 : Shape := ⟨2, ![2, 160000]⟩
abbrev S128x1024 : Shape := ⟨2, ![128, 1024]⟩
abbrev S1024 : Shape := ⟨1, ![1024]⟩
abbrev S1024x512 : Shape := ⟨2, ![1024, 512]⟩
abbrev S512 : Shape := ⟨1, ![512]⟩
abbrev S512x8 : Shape := ⟨2, ![512, 8]⟩
abbrev S8 : Shape := ⟨1, ![8]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x8 : S_.BroadcastsInDim S512x8 (![] : Fin 0 → Fin S512x8.rank)
  reducesTo_S512x8_S_d0_1 : S512x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_arg12 : FVec F S8 .f32) (main_arg13 : FVec F S512x8 .f32) (main_v48 : IVec S_ 1) (main_v49 : FVec F S512x8 .f32) (main_v50 : FVec F S512x8 .f32) : IVec S_ 1 :=
  let main_v51 : IVec S512x8 1 := cmpf .olt main_v49 main_v50
  let main_c_19 : IVec S_ 1 := constantI S_ 1 1#1
  let main_v52 : IVec S_ 1 := (fun x v => Host.reduce IntOp.andi x v reducesTo_S512x8_S_d0_1 h_S_) main_v51 main_c_19
  let main_v53 : IVec S_ 1 := andi main_v48 main_v52
  let main_v54 : FVec F S8 .f32 := Host.absf main_arg12
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S512x8 .f32 := Host.absf main_arg13
  let main_cst_22 : FVec F S_ .f32 := constant S_ .f32 0x7F800000#32
  let main_v60 : FVec F S512x8 .f32 := broadcastInDim S512x8 ![] bcast_S_S512x8 main_cst_22
  let main_v61 : IVec S512x8 1 := cmpf .olt main_v59 main_v60
  let main_c_23 : IVec S_ 1 := constantI S_ 1 1#1
  let main_v62 : IVec S_ 1 := (fun x v => Host.reduce IntOp.andi x v reducesTo_S512x8_S_d0_1 h_S_) main_v61 main_c_23
  let main_v63 : IVec S_ 1 := andi main_v58 main_v62
  main_v63

def fn_part2 {F : FTy → Type} [FloatOps F] (main_arg8 : FVec F S512x8 .f32) (main_arg9 : FVec F S8 .f32) (main_arg10 : FVec F S512x8 .f32) (main_arg11 : FVec F S512x8 .f32) (main_arg12 : FVec F S8 .f32) (main_arg13 : FVec F S512x8 .f32) (main_v33 : IVec S_ 1) : IVec S_ 1 :=
  let main_v34 : FVec F S512x8 .f32 := Host.absf main_arg8
  let main_cst_12 : FVec F S_ .f32 := constant S_ .f32 0x7F800000#32
  let main_v35 : FVec F S512x8 .f32 := broadcastInDim S512x8 ![] bcast_S_S512x8 main_cst_12
  let main_v36 : IVec S512x8 1 := cmpf .olt main_v34 main_v35
  let main_c_13 : IVec S_ 1 := constantI S_ 1 1#1
  let main_v37 : IVec S_ 1 := (fun x v => Host.reduce IntOp.andi x v reducesTo_S512x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S512x8 .f32 := Host.absf main_arg10
  let main_cst_16 : FVec F S_ .f32 := constant S_ .f32 0x7F800000#32
  let main_v45 : FVec F S512x8 .f32 := broadcastInDim S512x8 ![] bcast_S_S512x8 main_cst_16
  let main_v46 : IVec S512x8 1 := cmpf .olt main_v44 main_v45
  let main_c_17 : IVec S_ 1 := constantI S_ 1 1#1
  let main_v47 : IVec S_ 1 := (fun x v => Host.reduce IntOp.andi x v reducesTo_S512x8_S_d0_1 h_S_) main_v46 main_c_17
  let main_v48 : IVec S_ 1 := andi main_v43 main_v47
  let main_v49 : FVec F S512x8 .f32 := Host.absf main_arg11
  let main_cst_18 : FVec F S_ .f32 := constant S_ .f32 0x7F800000#32
  let main_v50 : FVec F S512x8 .f32 := broadcastInDim S512x8 ![] bcast_S_S512x8 main_cst_18
  fn_part3 (F := F) main_arg12 main_arg13 main_v48 main_v49 main_v50

def fn_part1 {F : FTy → Type} [FloatOps F] (main_arg5 : FVec F S1024x512 .f32) (main_arg6 : FVec F S512 .f32) (main_arg7 : FVec F S1024x512 .f32) (main_arg8 : FVec F S512x8 .f32) (main_arg9 : FVec F S8 .f32) (main_arg10 : FVec F S512x8 .f32) (main_arg11 : FVec F S512x8 .f32) (main_arg12 : FVec F S8 .f32) (main_arg13 : FVec F S512x8 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S1024x512 .f32 := Host.absf main_arg5
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x512 .f32 := Host.absf main_arg7
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S20000x128 .f32) (main_arg1 : IVec S2x160000 32) (main_arg2 : FVec F S128x1024 .f32) (main_arg3 : FVec F S1024 .f32) (main_arg4 : FVec F S128x1024 .f32) (main_arg5 : FVec F S1024x512 .f32) (main_arg6 : FVec F S512 .f32) (main_arg7 : FVec F S1024x512 .f32) (main_arg8 : FVec F S512x8 .f32) (main_arg9 : FVec F S8 .f32) (main_arg10 : FVec F S512x8 .f32) (main_arg11 : FVec F S512x8 .f32) (main_arg12 : FVec F S8 .f32) (main_arg13 : FVec F S512x8 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x1024 .f32 := Host.absf main_arg2
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S128x1024 .f32 := Host.absf main_arg4
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg5 main_arg6 main_arg7 main_arg8 main_arg9 main_arg10 main_arg11 main_arg12 main_arg13 main_v13 main_v16
-- ==== Kernel.lean ====
abbrev S20000x128 : Shape := ⟨2, ![20000, 128]⟩
abbrev S2x160000 : Shape := ⟨2, ![2, 160000]⟩
abbrev S128x1024 : Shape := ⟨2, ![128, 1024]⟩
abbrev S1024 : Shape := ⟨1, ![1024]⟩
abbrev S1024x512 : Shape := ⟨2, ![1024, 512]⟩
abbrev S512 : Shape := ⟨1, ![512]⟩
abbrev S512x8 : Shape := ⟨2, ![512, 8]⟩
abbrev S8 : Shape := ⟨1, ![8]⟩
abbrev S1x160000 : Shape := ⟨2, ![1, 160000]⟩
abbrev S160000 : Shape := ⟨1, ![160000]⟩
abbrev S_ : Shape := ⟨0, ![]⟩
abbrev S20000 : Shape := ⟨1, ![20000]⟩
abbrev S160000x1 : Shape := ⟨2, ![160000, 1]⟩
abbrev S20000x1 : Shape := ⟨2, ![20000, 1]⟩
abbrev S160000x128 : Shape := ⟨2, ![160000, 128]⟩
abbrev S1x1024 : Shape := ⟨2, ![1, 1024]⟩
abbrev S20000x1024 : Shape := ⟨2, ![20000, 1024]⟩
abbrev S1000x128 : Shape := ⟨2, ![1000, 128]⟩
abbrev S1000x1024 : Shape := ⟨2, ![1000, 1024]⟩
abbrev S20000x512 : Shape := ⟨2, ![20000, 512]⟩
abbrev S1000x512 : Shape := ⟨2, ![1000, 512]⟩
abbrev S160000x512 : Shape := ⟨2, ![160000, 512]⟩
abbrev S1x512 : Shape := ⟨2, ![1, 512]⟩
abbrev S512x16 : Shape := ⟨2, ![512, 16]⟩
abbrev S16 : Shape := ⟨1, ![16]⟩
abbrev S20000x16 : Shape := ⟨2, ![20000, 16]⟩
abbrev S1000x16 : Shape := ⟨2, ![1000, 16]⟩
abbrev S160000x16 : Shape := ⟨2, ![160000, 16]⟩
abbrev S1x16 : Shape := ⟨2, ![1, 16]⟩
abbrev S20000x8 : Shape := ⟨2, ![20000, 8]⟩

abbrev nBuf : Space → Nat
  | .hbm => 89
  | .vmem => 35
  | .smem => 0
  | _ => 0

abbrev bufTy : (tb : Table) → Fin (tcTables nBuf tb) → BufTy
  | .hbm, ⟨0, _⟩ => ⟨S20000x128, .f32⟩
  | .hbm, ⟨1, _⟩ => ⟨S2x160000, .i32⟩
  | .hbm, ⟨2, _⟩ => ⟨S128x1024, .f32⟩
  | .hbm, ⟨3, _⟩ => ⟨S1024, .f32⟩
  | .hbm, ⟨4, _⟩ => ⟨S128x1024, .f32⟩
  | .hbm, ⟨5, _⟩ => ⟨S1024x512, .f32⟩
  | .hbm, ⟨6, _⟩ => ⟨S512, .f32⟩
  | .hbm, ⟨7, _⟩ => ⟨S1024x512, .f32⟩
  | .hbm, ⟨8, _⟩ => ⟨S512x8, .f32⟩
  | .hbm, ⟨9, _⟩ => ⟨S8, .f32⟩
  | .hbm, ⟨10, _⟩ => ⟨S512x8, .f32⟩
  | .hbm, ⟨11, _⟩ => ⟨S512x8, .f32⟩
  | .hbm, ⟨12, _⟩ => ⟨S8, .f32⟩
  | .hbm, ⟨13, _⟩ => ⟨S512x8, .f32⟩
  | .hbm, ⟨14, _⟩ => ⟨S1x160000, .i32⟩
  | .hbm, ⟨15, _⟩ => ⟨S160000, .i32⟩
  | .hbm, ⟨16, _⟩ => ⟨S1x160000, .i32⟩
  | .hbm, ⟨17, _⟩ => ⟨S160000, .i32⟩
  | .hbm, ⟨18, _⟩ => ⟨S_, .f32⟩
  | .hbm, ⟨19, _⟩ => ⟨S160000, .f32⟩
  | .hbm, ⟨20, _⟩ => ⟨S_, .f32⟩
  | .hbm, ⟨21, _⟩ => ⟨S20000, .f32⟩
  | .hbm, ⟨22, _⟩ => ⟨S160000x1, .i32⟩
  | .hbm, ⟨23, _⟩ => ⟨S20000, .f32⟩
  | .hbm, ⟨24, _⟩ => ⟨S_, .f32⟩
  | .hbm, ⟨25, _⟩ => ⟨S20000, .f32⟩
  | .hbm, ⟨26, _⟩ => ⟨S20000, .f32⟩
  | .hbm, ⟨27, _⟩ => ⟨S_, .f32⟩
  | .hbm, ⟨28, _⟩ => ⟨S20000, .f32⟩
  | .hbm, ⟨29, _⟩ => ⟨S20000, .f32⟩
  | .hbm, ⟨30, _⟩ => ⟨S20000x1, .f32⟩
  | .hbm, ⟨31, _⟩ => ⟨S_, .i32⟩
  | .hbm, ⟨32, _⟩ => ⟨S160000, .i32⟩
  | .hbm, ⟨33, _⟩ => ⟨S160000, .i1⟩
  | .hbm, ⟨34, _⟩ => ⟨S_, .i32⟩
  | .hbm, ⟨35, _⟩ => ⟨S160000, .i32⟩
  | .hbm, ⟨36, _⟩ => ⟨S160000, .i32⟩
  | .hbm, ⟨37, _⟩ => ⟨S160000, .i32⟩
  | .hbm, ⟨38, _⟩ => ⟨S160000x1, .i32⟩
  | .hbm, ⟨39, _⟩ => ⟨S160000x128, .f32⟩
  | .hbm, ⟨40, _⟩ => ⟨S_, .f32⟩
  | .hbm, ⟨41, _⟩ => ⟨S20000x128, .f32⟩
  | .hbm, ⟨42, _⟩ => ⟨S160000x1, .i32⟩
  | .hbm, ⟨43, _⟩ => ⟨S20000x128, .f32⟩
  | .hbm, ⟨44, _⟩ => ⟨S20000x128, .f32⟩
  | .hbm, ⟨45, _⟩ => ⟨S20000x128, .f32⟩
  | .hbm, ⟨46, _⟩ => ⟨S1x1024, .f32⟩
  | .hbm, ⟨47, _⟩ => ⟨S20000x1024, .f32⟩
  | .hbm, ⟨48, _⟩ => ⟨S20000x512, .f32⟩
  | .hbm, ⟨49, _⟩ => ⟨S_, .i32⟩
  | .hbm, ⟨50, _⟩ => ⟨S160000, .i32⟩
  | .hbm, ⟨51, _⟩ => ⟨S160000, .i1⟩
  | .hbm, ⟨52, _⟩ => ⟨S_, .i32⟩
  | .hbm, ⟨53, _⟩ => ⟨S160000, .i32⟩
  | .hbm, ⟨54, _⟩ => ⟨S160000, .i32⟩
  | .hbm, ⟨55, _⟩ => ⟨S160000, .i32⟩
  | .hbm, ⟨56, _⟩ => ⟨S160000x1, .i32⟩
  | .hbm, ⟨57, _⟩ => ⟨S160000x512, .f32⟩
  | .hbm, ⟨58, _⟩ => ⟨S_, .f32⟩
  | .hbm, ⟨59, _⟩ => ⟨S20000x512, .f32⟩
  | .hbm, ⟨60, _⟩ => ⟨S160000x1, .i32⟩
  | .hbm, ⟨61, _⟩ => ⟨S20000x512, .f32⟩
  | .hbm, ⟨62, _⟩ => ⟨S20000x512, .f32⟩
  | .hbm, ⟨63, _⟩ => ⟨S20000x512, .f32⟩
  | .hbm, ⟨64, _⟩ => ⟨S1x512, .f32⟩
  | .hbm, ⟨65, _⟩ => ⟨S20000x512, .f32⟩
  | .hbm, ⟨66, _⟩ => ⟨S512x16, .f32⟩
  | .hbm, ⟨67, _⟩ => ⟨S512x16, .f32⟩
  | .hbm, ⟨68, _⟩ => ⟨S16, .f32⟩
  | .hbm, ⟨69, _⟩ => ⟨S20000x16, .f32⟩
  | .hbm, ⟨70, _⟩ => ⟨S_, .i32⟩
  | .hbm, ⟨71, _⟩ => ⟨S160000, .i32⟩
  | .hbm, ⟨72, _⟩ => ⟨S160000, .i1⟩
  | .hbm, ⟨73, _⟩ => ⟨S_, .i32⟩
  | .hbm, ⟨74, _⟩ => ⟨S160000, .i32⟩
  | .hbm, ⟨75, _⟩ => ⟨S160000, .i32⟩
  | .hbm, ⟨76, _⟩ => ⟨S160000, .i32⟩
  | .hbm, ⟨77, _⟩ => ⟨S160000x1, .i32⟩
  | .hbm, ⟨78, _⟩ => ⟨S160000x16, .f32⟩
  | .hbm, ⟨79, _⟩ => ⟨S_, .f32⟩
  | .hbm, ⟨80, _⟩ => ⟨S20000x16, .f32⟩
  | .hbm, ⟨81, _⟩ => ⟨S160000x1, .i32⟩
  | .hbm, ⟨82, _⟩ => ⟨S20000x16, .f32⟩
  | .hbm, ⟨83, _⟩ => ⟨S20000x16, .f32⟩
  | .hbm, ⟨84, _⟩ => ⟨S20000x16, .f32⟩
  | .hbm, ⟨85, _⟩ => ⟨S1x16, .f32⟩
  | .hbm, ⟨86, _⟩ => ⟨S20000x16, .f32⟩
  | .hbm, ⟨87, _⟩ => ⟨S20000x8, .f32⟩
  | .hbm, ⟨88, _⟩ => ⟨S20000x8, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x1024, .f32⟩
  | .local _ .vmem, ⟨5, _⟩ => ⟨S1x1024, .f32⟩
  | .local _ .vmem, ⟨6, _⟩ => ⟨S128x1024, .f32⟩
  | .local _ .vmem, ⟨7, _⟩ => ⟨S1000x1024, .f32⟩
  | .local _ .vmem, ⟨8, _⟩ => ⟨S1000x1024, .f32⟩
  | .local _ .vmem, ⟨9, _⟩ => ⟨S1000x1024, .f32⟩
  | .local _ .vmem, ⟨10, _⟩ => ⟨S1000x1024, .f32⟩
  | .local _ .vmem, ⟨11, _⟩ => ⟨S1024x512, .f32⟩
  | .local _ .vmem, ⟨12, _⟩ => ⟨S1000x512, .f32⟩
  | .local _ .vmem, ⟨13, _⟩ => ⟨S1000x512, .f32⟩
  | .local _ .vmem, ⟨14, _⟩ => ⟨S1000x512, .f32⟩
  | .local _ .vmem, ⟨15, _⟩ => ⟨S1000x512, .f32⟩
  | .local _ .vmem, ⟨16, _⟩ => ⟨S1000x1024, .f32⟩
  | .local _ .vmem, ⟨17, _⟩ => ⟨S1000x1024, .f32⟩
  | .local _ .vmem, ⟨18, _⟩ => ⟨S1024x512, .f32⟩
  | .local _ .vmem, ⟨19, _⟩ => ⟨S1x512, .f32⟩
  | .local _ .vmem, ⟨20, _⟩ => ⟨S1000x512, .f32⟩
  | .local _ .vmem, ⟨21, _⟩ => ⟨S1000x512, .f32⟩
  | .local _ .vmem, ⟨22, _⟩ => ⟨S1000x512, .f32⟩
  | .local _ .vmem, ⟨23, _⟩ => ⟨S1000x512, .f32⟩
  | .local _ .vmem, ⟨24, _⟩ => ⟨S512x16, .f32⟩
  | .local _ .vmem, ⟨25, _⟩ => ⟨S1000x16, .f32⟩
  | .local _ .vmem, ⟨26, _⟩ => ⟨S1000x16, .f32⟩
  | .local _ .vmem, ⟨27, _⟩ => ⟨S1000x16, .f32⟩
  | .local _ .vmem, ⟨28, _⟩ => ⟨S1000x16, .f32⟩
  | .local _ .vmem, ⟨29, _⟩ => ⟨S1000x512, .f32⟩
  | .local _ .vmem, ⟨30, _⟩ => ⟨S1000x512, .f32⟩
  | .local _ .vmem, ⟨31, _⟩ => ⟨S512x16, .f32⟩
  | .local _ .vmem, ⟨32, _⟩ => ⟨S1x16, .f32⟩
  | .local _ .vmem, ⟨33, _⟩ => ⟨S1000x16, .f32⟩
  | .local _ .vmem, ⟨34, _⟩ => ⟨S1000x16, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg4_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem4_0 : DmaSem sig := 33
abbrev cc4_sem4_1 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S512x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1000x16 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S20000 : S_.BroadcastsInDim S20000 (![] : Fin 0 → Fin S20000.rank)
  bcast_S160000_S160000x1_0 : S160000.BroadcastsInDim S160000x1 (![0] : Fin 1 → Fin S160000x1.rank)
  bcast_S20000_S20000x1_0 : S20000.BroadcastsInDim S20000x1 (![0] : Fin 1 → Fin S20000x1.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  shapeCasts_S1024_S1x1024 : S1024.ShapeCasts S1x1024
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1024x512_S1024x512_0_0 : ∀ a, (![0, 0] : Fin 2 → Nat) a + S1024x512.size a ≤ S1024x512.size a
  h_S1024x512 : 0 < S1024x512.numel
  inb_S1000x512_S1000x512_0_0 : ∀ a, (![0, 0] : Fin 2 → Nat) a + S1000x512.size a ≤ S1000x512.size a
  h_S1000x512 : 0 < S1000x512.numel
  bcast_S_S20000x512 : S_.BroadcastsInDim S20000x512 (![] : Fin 0 → Fin S20000x512.rank)
  bcast_S20000x1_S20000x512_0_1 : S20000x1.BroadcastsInDim S20000x512 (![0, 1] : Fin 2 → Fin S20000x512.rank)
  shapeCasts_S512_S1x512 : S512.ShapeCasts S1x512
  shapeCasts_S1000x512_S1000x512 : S1000x512.ShapeCasts S1000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  concatenates_S512x8_S512x8_S512x16_d1 : Shape.Concatenates [S512x8, S512x8] S512x16 1
  concatenates_S8_S8_S16_d0 : Shape.Concatenates [S8, S8] S16 0
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S1000x16_S1000x16_0_0 : ∀ a, (![0, 0] : Fin 2 → Nat) a + S1000x16.size a ≤ S1000x16.size a
  h_S1000x16 : 0 < S1000x16.numel
  bcast_S_S20000x16 : S_.BroadcastsInDim S20000x16 (![] : Fin 0 → Fin S20000x16.rank)
  bcast_S20000x1_S20000x16_0_1 : S20000x1.BroadcastsInDim S20000x16 (![0, 1] : Fin 2 → Fin S20000x16.rank)
  shapeCasts_S16_S1x16 : S16.ShapeCasts S1x16
  shapeCasts_S1000x16_S1000x16 : S1000x16.ShapeCasts S1000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1000x16 : S1x16.Broadcasts S1000x16
  slices_S20000x16_S20000x8_0_0 : S20000x16.Slices ![0, 0] S20000x8
  slices_S20000x16_S20000x8_0_8 : S20000x16.Slices ![0, 8] S20000x8
  scatter_S20000_S160000x1_S160000_n_0_0_1_wf : ScatterDims.WF S20000 S160000x1 S160000 [] [0] [0] 1
  gather_S20000x128_S160000x1_S160000x128_1_0_n_n_0_1_1128_wf : GatherDims.WF S20000x128 S160000x1 S160000x128 [1] [0] [] [0] [] 1 ![1, 128]
  scatter_S20000x128_S160000x1_S160000x128_1_0_0_1_wf : ScatterDims.WF S20000x128 S160000x1 S160000x128 [1] [0] [0] 1
  dot_S1000x128_S128x1024_S1000x1024_1_0_0_1_n_n_wf : DotDims.WF S1000x128 S128x1024 S1000x1024 [1] [0] [0] [1] [] []
  dot_S1000x1024_S1024x512_S1000x512_1_0_0_1_n_n_wf : DotDims.WF S1000x1024 S1024x512 S1000x512 [1] [0] [0] [1] [] []
  gather_S20000x512_S160000x1_S160000x512_1_0_n_n_0_1_1512_wf : GatherDims.WF S20000x512 S160000x1 S160000x512 [1] [0] [] [0] [] 1 ![1, 512]
  scatter_S20000x512_S160000x1_S160000x512_1_0_0_1_wf : ScatterDims.WF S20000x512 S160000x1 S160000x512 [1] [0] [0] 1
  dot_S1000x512_S512x16_S1000x16_1_0_0_1_n_n_wf : DotDims.WF S1000x512 S512x16 S1000x16 [1] [0] [0] [1] [] []
  gather_S20000x16_S160000x1_S160000x16_1_0_n_n_0_1_116_wf : GatherDims.WF S20000x16 S160000x1 S160000x16 [1] [0] [] [0] [] 1 ![1, 16]
  scatter_S20000x16_S160000x1_S160000x16_1_0_0_1_wf : ScatterDims.WF S20000x16 S160000x1 S160000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S20000x128.size a
  hwx0_0 : ∀ i : grid0.Coords, EltTy.bits .f32 = 32 ∨ (Rect.block (s := S20000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S20000x128.size a
  hwx0_1 : ∀ i : grid0.Coords, EltTy.bits .f32 = 32 ∨ (Rect.block (s := S20000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .f32 = 32 ∨ (Rect.block (s := S128x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S128x1024.size a
  hwx0_4 : ∀ i : grid0.Coords, EltTy.bits .f32 = 32 ∨ (Rect.block (s := S128x1024) S128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x1024.size a ≤ S20000x1024.size a
  hwx0_5 : ∀ i : grid0.Coords, EltTy.bits .f32 = 32 ∨ (Rect.block (s := S20000x1024) S1000x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1024.size a ≤ S20000x1024.size a
  hwx1_0 : ∀ i : grid1.Coords, EltTy.bits .f32 = 32 ∨ (Rect.block (s := S20000x1024) S1000x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x512.size a ≤ S20000x512.size a
  hwx1_2 : ∀ i : grid1.Coords, EltTy.bits .f32 = 32 ∨ (Rect.block (s := S20000x512) S1000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S20000x512.size a
  hwx2_0 : ∀ i : grid2.Coords, EltTy.bits .f32 = 32 ∨ (Rect.block (s := S20000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1024.size a ≤ S20000x1024.size a
  hwx2_1 : ∀ i : grid2.Coords, EltTy.bits .f32 = 32 ∨ (Rect.block (s := S20000x1024) S1000x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S1024x512.size a
  hwx2_2 : ∀ i : grid2.Coords, EltTy.bits .f32 = 32 ∨ (Rect.block (s := S1024x512) S1024x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x512.size a ≤ S20000x512.size a
  hwx2_4 : ∀ i : grid2.Coords, EltTy.bits .f32 = 32 ∨ (Rect.block (s := S20000x512) S1000x512.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S20000x512.size a
  hwx3_0 : ∀ i : grid3.Coords, EltTy.bits .f32 = 32 ∨ (Rect.block (s := S20000x512) S1000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x16.size a ≤ S512x16.size a
  hwx3_1 : ∀ i : grid3.Coords, EltTy.bits .f32 = 32 ∨ (Rect.block (s := S512x16) S512x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x16.size a ≤ S20000x16.size a
  hwx3_2 : ∀ i : grid3.Coords, EltTy.bits .f32 = 32 ∨ (Rect.block (s := S20000x16) S1000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x16.size a ≤ S20000x16.size a
  hwx4_0 : ∀ i : grid4.Coords, EltTy.bits .f32 = 32 ∨ (Rect.block (s := S20000x16) S1000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x512.size a ≤ S20000x512.size a
  hwx4_1 : ∀ i : grid4.Coords, EltTy.bits .f32 = 32 ∨ (Rect.block (s := S20000x512) S1000x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x16.size a ≤ S512x16.size a
  hwx4_2 : ∀ i : grid4.Coords, EltTy.bits .f32 = 32 ∨ (Rect.block (s := S512x16) S512x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x16.size a ≤ S1x16.size a
  hwx4_3 : ∀ i : grid4.Coords, EltTy.bits .f32 = 32 ∨ (Rect.block (s := S1x16) S1x16.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1000x16.size a ≤ S20000x16.size a
  hwx4_4 : ∀ i : grid4.Coords, EltTy.bits .f32 = 32 ∨ (Rect.block (s := S20000x16) S1000x16.size (cc4_transform_4 i) (hinb4_4 i)).WholeWords (EltTy.packing .f32)

variable [Facts₀]

def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def gather_S20000x128_S160000x1_S160000x128_1_0_n_n_0_1_1128 : GatherDims S20000x128 S160000x1 S160000x128 where
  offsetDims := [1]
  collapsedSliceDims := [0]
  operandBatchingDims := []
  startIndicesBatchingDims := []
  startIndexMap := [0]
  indexVectorDim := 1
  sliceSizes := ![1, 128]
  wf := gather_S20000x128_S160000x1_S160000x128_1_0_n_n_0_1_1128_wf
def scatter_S20000x128_S160000x1_S160000x128_1_0_0_1 : ScatterDims S20000x128 S160000x1 S160000x128 where
  updateWindowDims := [1]
  insertedWindowDims := [0]
  scatterDimsToOperandDims := [0]
  indexVectorDim := 1
  wf := scatter_S20000x128_S160000x1_S160000x128_1_0_0_1_wf
def dot_S1000x128_S128x1024_S1000x1024_1_0_0_1_n_n : DotDims S1000x128 S128x1024 S1000x1024 where
  lhsContracting := [1]
  rhsContracting := [0]
  lhsNonContracting := [0]
  rhsNonContracting := [1]
  lhsBatch := []
  rhsBatch := []
  wf := dot_S1000x128_S128x1024_S1000x1024_1_0_0_1_n_n_wf
def dot_S1000x1024_S1024x512_S1000x512_1_0_0_1_n_n : DotDims S1000x1024 S1024x512 S1000x512 where
  lhsContracting := [1]
  rhsContracting := [0]
  lhsNonContracting := [0]
  rhsNonContracting := [1]
  lhsBatch := []
  rhsBatch := []
  wf := dot_S1000x1024_S1024x512_S1000x512_1_0_0_1_n_n_wf
def gather_S20000x512_S160000x1_S160000x512_1_0_n_n_0_1_1512 : GatherDims S20000x512 S160000x1 S160000x512 where
  offsetDims := [1]
  collapsedSliceDims := [0]
  operandBatchingDims := []
  startIndicesBatchingDims := []
  startIndexMap := [0]
  indexVectorDim := 1
  sliceSizes := ![1, 512]
  wf := gather_S20000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def dot_S1000x512_S512x16_S1000x16_1_0_0_1_n_n : DotDims S1000x512 S512x16 S1000x16 where
  lhsContracting := [1]
  rhsContracting := [0]
  lhsNonContracting := [0]
  rhsNonContracting := [1]
  lhsBatch := []
  rhsBatch := []
  wf := dot_S1000x512_S512x16_S1000x16_1_0_0_1_n_n_wf
def gather_S20000x16_S160000x1_S160000x16_1_0_n_n_0_1_116 : GatherDims S20000x16 S160000x1 S160000x16 where
  offsetDims := [1]
  collapsedSliceDims := [0]
  operandBatchingDims := []
  startIndicesBatchingDims := []
  startIndexMap := [0]
  indexVectorDim := 1
  sliceSizes := ![1, 16]
  wf := gather_S20000x16_S160000x1_S160000x16_1_0_n_n_0_1_116_wf
def scatter_S20000x16_S160000x1_S160000x16_1_0_0_1 : ScatterDims S20000x16 S160000x1 S160000x16 where
  updateWindowDims := [1]
  insertedWindowDims := [0]
  scatterDimsToOperandDims := [0]
  indexVectorDim := 1
  wf := scatter_S20000x16_S160000x1_S160000x16_1_0_0_1_wf

abbrev win0_0 : Pipeline.Window sig grid0 :=
  Pipeline.Window.ofSpec (Memref.whole main_v24) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1000x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S1000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S1000x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S1024x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1000x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v41) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S512x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v57) S1000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S1000x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v43) S512x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S1x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v59) S1000x16.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S20000x128 : Shape := ⟨2, ![20000, 128]⟩
abbrev S2x160000 : Shape := ⟨2, ![2, 160000]⟩
abbrev S128x1024 : Shape := ⟨2, ![128, 1024]⟩
abbrev S1024 : Shape := ⟨1, ![1024]⟩
abbrev S1024x512 : Shape := ⟨2, ![1024, 512]⟩
abbrev S512 : Shape := ⟨1, ![512]⟩
abbrev S512x8 : Shape := ⟨2, ![512, 8]⟩
abbrev S8 : Shape := ⟨1, ![8]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x128 : Shape := ⟨2, ![160000, 128]⟩
abbrev S20000 : Shape := ⟨1, ![20000]⟩
abbrev S20000x1 : Shape := ⟨2, ![20000, 1]⟩
abbrev S20000x1024 : Shape := ⟨2, ![20000, 1024]⟩
abbrev S1x1024 : Shape := ⟨2, ![1, 1024]⟩
abbrev S160000x1024 : Shape := ⟨2, ![160000, 1024]⟩
abbrev S20000x512 : Shape := ⟨2, ![20000, 512]⟩
abbrev S1x512 : Shape := ⟨2, ![1, 512]⟩
abbrev S160000x512 : Shape := ⟨2, ![160000, 512]⟩
abbrev S20000x8 : Shape := ⟨2, ![20000, 8]⟩
abbrev S1x8 : Shape := ⟨2, ![1, 8]⟩

abbrev nBuf : Space → Nat
  | .hbm => 148
  | .vmem => 0
  | .smem => 0
  | _ => 0

abbrev hbmTy0_0 (i : Nat) : BufTy := match i % 128 with
  | 0 => ⟨S20000x128, .f32⟩
  | 1 => ⟨S2x160000, .i32⟩
  | 2 => ⟨S128x1024, .f32⟩
  | 3 => ⟨S1024, .f32⟩
  | 4 => ⟨S128x1024, .f32⟩
  | 5 => ⟨S1024x512, .f32⟩
  | 6 => ⟨S512, .f32⟩
  | 7 => ⟨S1024x512, .f32⟩
  | 8 => ⟨S512x8, .f32⟩
  | 9 => ⟨S8, .f32⟩
  | 10 => ⟨S512x8, .f32⟩
  | 11 => ⟨S512x8, .f32⟩
  | 12 => ⟨S8, .f32⟩
  | 13 => ⟨S512x8, .f32⟩
  | 14 => ⟨S1x160000, .i32⟩
  | 15 => ⟨S160000, .i32⟩
  | 16 => ⟨S1x160000, .i32⟩
  | 17 => ⟨S160000, .i32⟩
  | 18 => ⟨S_, .i32⟩
  | 19 => ⟨S160000, .i32⟩
  | 20 => ⟨S160000, .i1⟩
  | 21 => ⟨S_, .i32⟩
  | 22 => ⟨S160000, .i32⟩
  | 23 => ⟨S160000, .i32⟩
  | 24 => ⟨S160000, .i32⟩
  | 25 => ⟨S160000x1, .i32⟩
  | 26 => ⟨S160000x128, .f32⟩
  | 27 => ⟨S_, .f32⟩
  | 28 => ⟨S20000x128, .f32⟩
  | 29 => ⟨S160000x1, .i32⟩
  | 30 => ⟨S20000x128, .f32⟩
  | 31 => ⟨S_, .f32⟩
  | 32 => ⟨S160000, .f32⟩
  | 33 => ⟨S_, .f32⟩
  | 34 => ⟨S20000, .f32⟩
  | 35 => ⟨S160000x1, .i32⟩
  | 36 => ⟨S20000, .f32⟩
  | 37 => ⟨S_, .f32⟩
  | 38 => ⟨S20000, .f32⟩
  | 39 => ⟨S20000, .f32⟩
  | 40 => ⟨S20000x1, .f32⟩
  | 41 => ⟨S20000x128, .f32⟩
  | 42 => ⟨S20000x128, .f32⟩
  | 43 => ⟨S20000x1024, .f32⟩
  | 44 => ⟨S1x1024, .f32⟩
  | 45 => ⟨S20000x1024, .f32⟩
  | 46 => ⟨S20000x1024, .f32⟩
  | 47 => ⟨S20000x1024, .f32⟩
  | 48 => ⟨S20000x1024, .f32⟩
  | 49 => ⟨S_, .f32⟩
  | 50 => ⟨S20000x1024, .f32⟩
  | 51 => ⟨S20000x1024, .f32⟩
  | 52 => ⟨S_, .i32⟩
  | 53 => ⟨S160000, .i32⟩
  | 54 => ⟨S160000, .i1⟩
  | 55 => ⟨S_, .i32⟩
  | 56 => ⟨S160000, .i32⟩
  | 57 => ⟨S160000, .i32⟩
  | 58 => ⟨S160000, .i32⟩
  | 59 => ⟨S160000x1, .i32⟩
  | 60 => ⟨S160000x1024, .f32⟩
  | 61 => ⟨S_, .f32⟩
  | 62 => ⟨S20000x1024, .f32⟩
  | 63 => ⟨S160000x1, .i32⟩
  | 64 => ⟨S20000x1024, .f32⟩
  | 65 => ⟨S_, .f32⟩
  | 66 => ⟨S160000, .f32⟩
  | 67 => ⟨S_, .f32⟩
  | 68 => ⟨S20000, .f32⟩
  | 69 => ⟨S160000x1, .i32⟩
  | 70 => ⟨S20000, .f32⟩
  | 71 => ⟨S_, .f32⟩
  | 72 => ⟨S20000, .f32⟩
  | 73 => ⟨S20000, .f32⟩
  | 74 => ⟨S20000x1, .f32⟩
  | 75 => ⟨S20000x1024, .f32⟩
  | 76 => ⟨S20000x1024, .f32⟩
  | 77 => ⟨S20000x512, .f32⟩
  | 78 => ⟨S1x512, .f32⟩
  | 79 => ⟨S20000x512, .f32⟩
  | 80 => ⟨S20000x512, .f32⟩
  | 81 => ⟨S20000x512, .f32⟩
  | 82 => ⟨S20000x512, .f32⟩
  | 83 => ⟨S_, .f32⟩
  | 84 => ⟨S20000x512, .f32⟩
  | 85 => ⟨S20000x512, .f32⟩
  | 86 => ⟨S_, .i32⟩
  | 87 => ⟨S160000, .i32⟩
  | 88 => ⟨S160000, .i1⟩
  | 89 => ⟨S_, .i32⟩
  | 90 => ⟨S160000, .i32⟩
  | 91 => ⟨S160000, .i32⟩
  | 92 => ⟨S160000, .i32⟩
  | 93 => ⟨S160000x1, .i32⟩
  | 94 => ⟨S160000x512, .f32⟩
  | 95 => ⟨S_, .f32⟩
  | 96 => ⟨S20000x512, .f32⟩
  | 97 => ⟨S160000x1, .i32⟩
  | 98 => ⟨S20000x512, .f32⟩
  | 99 => ⟨S_, .f32⟩
  | 100 => ⟨S160000, .f32⟩
  | 101 => ⟨S_, .f32⟩
  | 102 => ⟨S20000, .f32⟩
  | 103 => ⟨S160000x1, .i32⟩
  | 104 => ⟨S20000, .f32⟩
  | 105 => ⟨S_, .f32⟩
  | 106 => ⟨S20000, .f32⟩
  | 107 => ⟨S20000, .f32⟩
  | 108 => ⟨S20000x1, .f32⟩
  | 109 => ⟨S20000x512, .f32⟩
  | 110 => ⟨S20000x512, .f32⟩
  | 111 => ⟨S20000x8, .f32⟩
  | 112 => ⟨S1x8, .f32⟩
  | 113 => ⟨S20000x8, .f32⟩
  | 114 => ⟨S20000x8, .f32⟩
  | 115 => ⟨S20000x8, .f32⟩
  | 116 => ⟨S20000x8, .f32⟩
  | 117 => ⟨S_, .i32⟩
  | 118 => ⟨S160000, .i32⟩
  | 119 => ⟨S160000, .i1⟩
  | 120 => ⟨S_, .i32⟩
  | 121 => ⟨S160000, .i32⟩
  | 122 => ⟨S160000, .i32⟩
  | 123 => ⟨S160000, .i32⟩
  | 124 => ⟨S160000x1, .i32⟩
  | 125 => ⟨S160000x512, .f32⟩
  | 126 => ⟨S_, .f32⟩
  | 127 => ⟨S20000x512, .f32⟩
  | _ => ⟨S20000x128, .f32⟩

abbrev hbmTy0_1 (i : Nat) : BufTy := match i % 128 with
  | 0 => ⟨S160000x1, .i32⟩
  | 1 => ⟨S20000x512, .f32⟩
  | 2 => ⟨S_, .f32⟩
  | 3 => ⟨S160000, .f32⟩
  | 4 => ⟨S_, .f32⟩
  | 5 => ⟨S20000, .f32⟩
  | 6 => ⟨S160000x1, .i32⟩
  | 7 => ⟨S20000, .f32⟩
  | 8 => ⟨S_, .f32⟩
  | 9 => ⟨S20000, .f32⟩
  | 10 => ⟨S20000, .f32⟩
  | 11 => ⟨S20000x1, .f32⟩
  | 12 => ⟨S20000x512, .f32⟩
  | 13 => ⟨S20000x512, .f32⟩
  | 14 => ⟨S20000x8, .f32⟩
  | 15 => ⟨S1x8, .f32⟩
  | 16 => ⟨S20000x8, .f32⟩
  | 17 => ⟨S20000x8, .f32⟩
  | 18 => ⟨S20000x8, .f32⟩
  | 19 => ⟨S20000x8, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call1_cst : Ref sig .tc := ⟨.hbm, 83, rfl⟩
abbrev main_call1_v0 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_16 : Ref sig .tc := ⟨.hbm, 117, rfl⟩
abbrev main_v81 : Ref sig .tc := ⟨.hbm, 118, rfl⟩
abbrev main_v82 : Ref sig .tc := ⟨.hbm, 119, rfl⟩
abbrev main_c_17 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_18 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_19 : Ref sig .tc := ⟨.hbm, 130, rfl⟩
abbrev main_v91 : Ref sig .tc := ⟨.hbm, 131, rfl⟩
abbrev main_cst_20 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_21 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S1024_S1x1024_1 : S1024.BroadcastsInDim S1x1024 (![1] : Fin 1 → Fin S1x1024.rank)
  bcast_S1x1024_S20000x1024_0_1 : S1x1024.BroadcastsInDim S20000x1024 (![0, 1] : Fin 2 → Fin S20000x1024.rank)
  bcast_S_S20000x1024 : S_.BroadcastsInDim S20000x1024 (![] : Fin 0 → Fin S20000x1024.rank)
  bcast_S20000x1_S20000x1024_0_1 : S20000x1.BroadcastsInDim S20000x1024 (![0, 1] : Fin 2 → Fin S20000x1024.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S20000x512 : S_.BroadcastsInDim S20000x512 (![] : Fin 0 → Fin S20000x512.rank)
  bcast_S20000x1_S20000x512_0_1 : S20000x1.BroadcastsInDim S20000x512 (![0, 1] : Fin 2 → Fin S20000x512.rank)
  bcast_S8_S1x8_1 : S8.BroadcastsInDim S1x8 (![1] : Fin 1 → Fin S1x8.rank)
  bcast_S1x8_S20000x8_0_1 : S1x8.BroadcastsInDim S20000x8 (![0, 1] : Fin 2 → Fin S20000x8.rank)
  gather_S20000x128_S160000x1_S160000x128_1_0_n_n_0_1_1128_wf : GatherDims.WF S20000x128 S160000x1 S160000x128 [1] [0] [] [0] [] 1 ![1, 128]
  scatter_S20000x128_S160000x1_S160000x128_1_0_0_1_wf : ScatterDims.WF S20000x128 S160000x1 S160000x128 [1] [0] [0] 1
  scatter_S20000_S160000x1_S160000_n_0_0_1_wf : ScatterDims.WF S20000 S160000x1 S160000 [] [0] [0] 1
  dot_S20000x128_S128x1024_S20000x1024_1_0_0_1_n_n_wf : DotDims.WF S20000x128 S128x1024 S20000x1024 [1] [0] [0] [1] [] []
  gather_S20000x1024_S160000x1_S160000x1024_1_0_n_n_0_1_11024_wf : GatherDims.WF S20000x1024 S160000x1 S160000x1024 [1] [0] [] [0] [] 1 ![1, 1024]
  scatter_S20000x1024_S160000x1_S160000x1024_1_0_0_1_wf : ScatterDims.WF S20000x1024 S160000x1 S160000x1024 [1] [0] [0] 1
  dot_S20000x1024_S1024x512_S20000x512_1_0_0_1_n_n_wf : DotDims.WF S20000x1024 S1024x512 S20000x512 [1] [0] [0] [1] [] []
  gather_S20000x512_S160000x1_S160000x512_1_0_n_n_0_1_1512_wf : GatherDims.WF S20000x512 S160000x1 S160000x512 [1] [0] [] [0] [] 1 ![1, 512]
  scatter_S20000x512_S160000x1_S160000x512_1_0_0_1_wf : ScatterDims.WF S20000x512 S160000x1 S160000x512 [1] [0] [0] 1
  dot_S20000x512_S512x8_S20000x8_1_0_0_1_n_n_wf : DotDims.WF S20000x512 S512x8 S20000x8 [1] [0] [0] [1] [] []

variable [Facts₀]

def gather_S20000x128_S160000x1_S160000x128_1_0_n_n_0_1_1128 : GatherDims S20000x128 S160000x1 S160000x128 where
  offsetDims := [1]
  collapsedSliceDims := [0]
  operandBatchingDims := []
  startIndicesBatchingDims := []
  startIndexMap := [0]
  indexVectorDim := 1
  sliceSizes := ![1, 128]
  wf := gather_S20000x128_S160000x1_S160000x128_1_0_n_n_0_1_1128_wf
def scatter_S20000x128_S160000x1_S160000x128_1_0_0_1 : ScatterDims S20000x128 S160000x1 S160000x128 where
  updateWindowDims := [1]
  insertedWindowDims := [0]
  scatterDimsToOperandDims := [0]
  indexVectorDim := 1
  wf := scatter_S20000x128_S160000x1_S160000x128_1_0_0_1_wf
def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def dot_S20000x128_S128x1024_S20000x1024_1_0_0_1_n_n : DotDims S20000x128 S128x1024 S20000x1024 where
  lhsContracting := [1]
  rhsContracting := [0]
  lhsNonContracting := [0]
  rhsNonContracting := [1]
  lhsBatch := []
  rhsBatch := []
  wf := dot_S20000x128_S128x1024_S20000x1024_1_0_0_1_n_n_wf
def gather_S20000x1024_S160000x1_S160000x1024_1_0_n_n_0_1_11024 : GatherDims S20000x1024 S160000x1 S160000x1024 where
  offsetDims := [1]
  collapsedSliceDims := [0]
  operandBatchingDims := []
  startIndicesBatchingDims := []
  startIndexMap := [0]
  indexVectorDim := 1
  sliceSizes := ![1, 1024]
  wf := gather_S20000x1024_S160000x1_S160000x1024_1_0_n_n_0_1_11024_wf
def scatter_S20000x1024_S160000x1_S160000x1024_1_0_0_1 : ScatterDims S20000x1024 S160000x1 S160000x1024 where
  updateWindowDims := [1]
  insertedWindowDims := [0]
  scatterDimsToOperandDims := [0]
  indexVectorDim := 1
  wf := scatter_S20000x1024_S160000x1_S160000x1024_1_0_0_1_wf
def dot_S20000x1024_S1024x512_S20000x512_1_0_0_1_n_n : DotDims S20000x1024 S1024x512 S20000x512 where
  lhsContracting := [1]
  rhsContracting := [0]
  lhsNonContracting := [0]
  rhsNonContracting := [1]
  lhsBatch := []
  rhsBatch := []
  wf := dot_S20000x1024_S1024x512_S20000x512_1_0_0_1_n_n_wf
def gather_S20000x512_S160000x1_S160000x512_1_0_n_n_0_1_1512 : GatherDims S20000x512 S160000x1 S160000x512 where
  offsetDims := [1]
  collapsedSliceDims := [0]
  operandBatchingDims := []
  startIndicesBatchingDims := []
  startIndexMap := [0]
  indexVectorDim := 1
  sliceSizes := ![1, 512]
  wf := gather_S20000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def dot_S20000x512_S512x8_S20000x8_1_0_0_1_n_n : DotDims S20000x512 S512x8 S20000x8 where
  lhsContracting := [1]
  rhsContracting := [0]
  lhsNonContracting := [0]
  rhsNonContracting := [1]
  lhsBatch := []
  rhsBatch := []
  wf := dot_S20000x512_S512x8_S20000x8_1_0_0_1_n_n_wf

class Facts : Prop extends Facts₀ where

variable [Facts]
-- ==== Proof.KernelHostDefs.lean ====
/-
  The kernel's host operations, as functions of arrays.

  Between its five pallas_call regions the kernel computes, on the host: the two rows of the edge list (sources
  `srcRaw`, destinations `dstRaw`); the reciprocal degree column `dcol` — one over the larger of one and the number of
  edges ending at each node, as a `[20000, 1]` column —; for a feature array `X` of width 128, 512 or 16 its mean over
  each node's incoming edges (`mean128`, `mean512`, `mean16`: gather the source rows — a negative id wrapped by the node
  count —, scatter-add them at the destination rows, scale by `dcol`); the biases as one-row arrays; the two heads'
  weights and biases side by side; and at the end the two halves of the fused result. Each is named here as the
  literal composition the program prints, so that a boundary's contents can be stated in a line.

  Second part: for each host stretch, the list of references it writes (`wrK`), that its operations write nothing else
  (`writtenK`), and hence that any other reference keeps its contents across the stretch (`passK`).
-/
import proofs.«122720_j47107201302764_2_alg».proof.Proof.Gen.KernelIdeal.Frame
import Idealize.ShloMosaic.PureOps.Ideal
import Idealize.ShloMosaic.Lib.StableHlo.Run

set_option maxRecDepth 16384

noncomputable section

namespace Cert.KernelIdeal.HostValue

open Idealize.ShloMosaic Idealize.ShloMosaic.TcCoe Idealize.SL.Sem
open Cert.KernelIdeal Cert.KernelIdeal.Gen

/-! ## The arrays the host computes -/

/-- The edges' source ids: row 0 of the edge list. -/
def srcRaw (a1 : IVec S2x160000 32) : IVec S160000 32 := fun i =>
  shapeCast S160000 (extractStridedSlice S1x160000 ![0, 0] a1 slices_S2x160000_S1x160000_0_0) shapeCasts_S1x160000_S160000 i

/-- The edges' destination ids: row 1 of the edge list. -/
def dstRaw (a1 : IVec S2x160000 32) : IVec S160000 32 := fun i =>
  shapeCast S160000 (extractStridedSlice S1x160000 ![1, 0] a1 slices_S2x160000_S1x160000_1_0) shapeCasts_S1x160000_S160000 i

/-- The source ids as start indices of a row gather: a negative id wrapped by the node count, as a `[160000, 1]` column. -/
def srcWrap (src : IVec S160000 32) : IVec S160000x1 32 :=
  broadcastInDim S160000x1 ![0] bcast_S160000_S160000x1_0
    (select (cmpi CmpIPredicate.slt src (broadcastInDim S160000 ![] bcast_S_S160000 (constantI S_ 32 0#32)))
      (addi src (broadcastInDim S160000 ![] bcast_S_S160000 (constantI S_ 32 20000#32))) src)

/-- The larger of one and the number of edges ending at each node. -/
def dmax (dst : IVec S160000 32) : FVec Ideal S20000 .f32 :=
  maximumf
    (Host.scatterAdd scatter_S20000_S160000x1_S160000_n_0_0_1
      (broadcastInDim S20000 ![] bcast_S_S20000 (constant S_ .f32 0x00000000#32))
      (broadcastInDim S160000x1 ![0] bcast_S160000_S160000x1_0 dst)
      (broadcastInDim S160000 ![] bcast_S_S160000 (constant S_ .f32 0x3F800000#32)))
    (broadcastInDim S20000 ![] bcast_S_S20000 (constant S_ .f32 0x3F800000#32))

/-- One over that, as a column. -/
def dcol (dst : IVec S160000 32) : FVec Ideal S20000x1 .f32 :=
  broadcastInDim S20000x1 ![0] bcast_S20000_S20000x1_0
    (Host.divf (broadcastInDim S20000 ![] bcast_S_S20000 (constant S_ .f32 0x3F800000#32)) (dmax dst))

/-- The mean of the rows of `X` (`128` columns) over each node's incoming edges, as the kernel's host operations compute
    it: gather the source rows, add them up at the destination rows (onto zeros), scale row by row by `dc`. -/
def mean128 (dst src : IVec S160000 32) (dc : FVec Ideal S20000x1 .f32) (X : FVec Ideal S20000x128 .f32) :
    FVec Ideal S20000x128 .f32 :=
  mulf
    (Host.scatterAdd scatter_S20000x128_S160000x1_S160000x128_1_0_0_1
      (broadcastInDim S20000x128 ![] bcast_S_S20000x128 (constant S_ .f32 0x00000000#32))
      (broadcastInDim S160000x1 ![0] bcast_S160000_S160000x1_0 dst)
      (Host.gather gather_S20000x128_S160000x1_S160000x128_1_0_n_n_0_1_1128 X (srcWrap src)))
    (broadcastInDim S20000x128 ![0, 1] bcast_S20000x1_S20000x128_0_1 dc)

/-- The mean of the rows of `X` (`512` columns) over each node's incoming edges, as the kernel's host operations compute
    it: gather the source rows, add them up at the destination rows (onto zeros), scale row by row by `dc`. -/
def mean512 (dst src : IVec S160000 32) (dc : FVec Ideal S20000x1 .f32) (X : FVec Ideal S20000x512 .f32) :
    FVec Ideal S20000x512 .f32 :=
  mulf
    (Host.scatterAdd scatter_S20000x512_S160000x1_S160000x512_1_0_0_1
      (broadcastInDim S20000x512 ![] bcast_S_S20000x512 (constant S_ .f32 0x00000000#32))
      (broadcastInDim S160000x1 ![0] bcast_S160000_S160000x1_0 dst)
      (Host.gather gather_S20000x512_S160000x1_S160000x512_1_0_n_n_0_1_1512 X (srcWrap src)))
    (broadcastInDim S20000x512 ![0, 1] bcast_S20000x1_S20000x512_0_1 dc)

/-- The mean of the rows of `X` (`16` columns) over each node's incoming edges, as the kernel's host operations compute
    it: gather the source rows, add them up at the destination rows (onto zeros), scale row by row by `dc`. -/
def mean16 (dst src : IVec S160000 32) (dc : FVec Ideal S20000x1 .f32) (X : FVec Ideal S20000x16 .f32) :
    FVec Ideal S20000x16 .f32 :=
  mulf
    (Host.scatterAdd scatter_S20000x16_S160000x1_S160000x16_1_0_0_1
      (broadcastInDim S20000x16 ![] bcast_S_S20000x16 (constant S_ .f32 0x00000000#32))
      (broadcastInDim S160000x1 ![0] bcast_S160000_S160000x1_0 dst)
      (Host.gather gather_S20000x16_S160000x1_S160000x16_1_0_n_n_0_1_116 X (srcWrap src)))
    (broadcastInDim S20000x16 ![0, 1] bcast_S20000x1_S20000x16_0_1 dc)

/-- A bias of 1024 entries as a one-row array. -/
def biasRow1024 (b : FVec Ideal S1024 .f32) : FVec Ideal S1x1024 .f32 := fun i => shapeCast S1x1024 b shapeCasts_S1024_S1x1024 i
/-- A bias of 512 entries as a one-row array. -/
def biasRow512 (b : FVec Ideal S512 .f32) : FVec Ideal S1x512 .f32 := fun i => shapeCast S1x512 b shapeCasts_S512_S1x512 i
/-- A bias of 16 entries as a one-row array. -/
def biasRow16 (b : FVec Ideal S16 .f32) : FVec Ideal S1x16 .f32 := fun i => shapeCast S1x16 b shapeCasts_S16_S1x16 i

/-- Two `[512, 8]` weight arrays side by side. -/
def cat2 (a b : FVec Ideal S512x8 .f32) : FVec Ideal S512x16 .f32 :=
  concatenate S512x16 1 [⟨S512x8, a⟩, ⟨S512x8, b⟩] concatenates_S512x8_S512x8_S512x16_d1
/-- Two biases of 8 entries end to end. -/
def cat1 (a b : FVec Ideal S8 .f32) : FVec Ideal S16 .f32 :=
  concatenate S16 0 [⟨S8, a⟩, ⟨S8, b⟩] concatenates_S8_S8_S16_d0

/-- Columns 0–7 of a `[20000, 16]` array. -/
def leftHalf (y : FVec Ideal S20000x16 .f32) : FVec Ideal S20000x8 .f32 := extractStridedSlice S20000x8 ![0, 0] y slices_S20000x16_S20000x8_0_0
/-- Columns 8–15 of a `[20000, 16]` array. -/
def rightHalf (y : FVec Ideal S20000x16 .f32) : FVec Ideal S20000x8 .f32 := extractStridedSlice S20000x8 ![0, 8] y slices_S20000x16_S20000x8_0_8

/-! ## What each host stretch writes, and what it leaves alone -/

section Pass
variable {F : FTy → Type} [FloatOps F]

/-- The references the host stretch `hostOps0` writes. -/
def wr0 : List (Ref sig .tc) := [main_v0, main_v1, main_v2, main_v3, main_cst, main_v4, main_cst_0, main_v5, main_v6, main_v7, main_cst_1, main_v8, main_v9, main_cst_2, main_v10, main_v11, main_v12, main_c, main_v13, main_v14, main_c_3, main_v15, main_v16, main_v17, main_v18, main_v19, main_cst_4, main_v20, main_v21, main_v22, main_v23, main_v24, main_v25]

theorem written0 : (hostOps0 : List (HloOp τ sig (Elt F))).Forall fun op =>
    op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩

/-- A reference `hostOps0` does not write keeps its contents across the stretch. -/
theorem pass0 (Wv : Valuation τ sig (Elt F)) (r : Ref sig .tc) (h : r ∉ wr0) :
    StableHlo.after hostOps0 Wv (Proc.devRef .tc r) = Wv (Proc.devRef .tc r) :=
  StableHlo.after_of_writes_sub hostOps0 Wv written0 h

/-- The references the host stretch `hostOps2` writes. -/
def wr2 : List (Ref sig .tc) := [main_c_5, main_v28, main_v29, main_c_6, main_v30, main_v31, main_v32, main_v33, main_v34, main_cst_7, main_v35, main_v36, main_v37, main_v38, main_v39, main_v40]

theorem written2 : (hostOps2 : List (HloOp τ sig (Elt F))).Forall fun op =>
    op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩

/-- A reference `hostOps2` does not write keeps its contents across the stretch. -/
theorem pass2 (Wv : Valuation τ sig (Elt F)) (r : Ref sig .tc) (h : r ∉ wr2) :
    StableHlo.after hostOps2 Wv (Proc.devRef .tc r) = Wv (Proc.devRef .tc r) :=
  StableHlo.after_of_writes_sub hostOps2 Wv written2 h

/-- The references the host stretch `hostOps3` writes. -/
def wr3 : List (Ref sig .tc) := [main_v42, main_v43, main_v44]

theorem written3 : (hostOps3 : List (HloOp τ sig (Elt F))).Forall fun op =>
    op.writes ⊆ (wr3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩

/-- A reference `hostOps3` does not write keeps its contents across the stretch. -/
theorem pass3 (Wv : Valuation τ sig (Elt F)) (r : Ref sig .tc) (h : r ∉ wr3) :
    StableHlo.after hostOps3 Wv (Proc.devRef .tc r) = Wv (Proc.devRef .tc r) :=
  StableHlo.after_of_writes_sub hostOps3 Wv written3 h

/-- The references the host stretch `hostOps4` writes. -/
def wr4 : List (Ref sig .tc) := [main_c_8, main_v46, main_v47, main_c_9, main_v48, main_v49, main_v50, main_v51, main_v52, main_cst_10, main_v53, main_v54, main_v55, main_v56, main_v57, main_v58]

theorem written4 : (hostOps4 : List (HloOp τ sig (Elt F))).Forall fun op =>
    op.writes ⊆ (wr4.map (Proc.devRef (τ := τ) .tc)).toFinset := by
  simp only [hostOps4, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩

/-- A reference `hostOps4` does not write keeps its contents across the stretch. -/
theorem pass4 (Wv : Valuation τ sig (Elt F)) (r : Ref sig .tc) (h : r ∉ wr4) :
    StableHlo.after hostOps4 Wv (Proc.devRef .tc r) = Wv (Proc.devRef .tc r) :=
  StableHlo.after_of_writes_sub hostOps4 Wv written4 h

/-- The references the host stretch `hostOps5` writes. -/
def wr5 : List (Ref sig .tc) := [main_v60, main_v61]

theorem written5 : (hostOps5 : List (HloOp τ sig (Elt F))).Forall fun op =>
    op.writes ⊆ (wr5.map (Proc.devRef (τ := τ) .tc)).toFinset := by
  simp only [hostOps5, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩

/-- A reference `hostOps5` does not write keeps its contents across the stretch. -/
theorem pass5 (Wv : Valuation τ sig (Elt F)) (r : Ref sig .tc) (h : r ∉ wr5) :
    StableHlo.after hostOps5 Wv (Proc.devRef .tc r) = Wv (Proc.devRef .tc r) :=
  StableHlo.after_of_writes_sub hostOps5 Wv written5 h

end Pass

end Cert.KernelIdeal.HostValue

end
-- ==== Proof.KernelHostReads.lean ====
/-
  What the kernel's host stretches leave in the buffers the regions and the later stretches read, each as one of the
  named host functions (`mean128`, `dcol`, `biasRow512`, `cat2`, `leftHalf`, …) of the contents the stretch found.
  A stretch is a literal list of operations; each fact here is that list folded and read at one result buffer.
-/
import proofs.«122720_j47107201302764_2_alg».proof.Proof.KernelHostDefs

set_option maxRecDepth 16384

noncomputable section

namespace Cert.KernelIdeal.HostValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## The first stretch, from the launch memory -/

set_option maxHeartbeats 4000000 in
theorem w1_v1 : W1 m ρ c (Proc.devRef .tc main_v1) = srcRaw (m ((c : Thread nD τ).loc main_arg1)) := by
  show StableHlo.after hostOps0 (W0 m ρ c) (Proc.devRef .tc main_v1) = _
  unfold hostOps0
  after_results_simp
  rfl

set_option maxHeartbeats 4000000 in
theorem w1_v3 : W1 m ρ c (Proc.devRef .tc main_v3) = dstRaw (m ((c : Thread nD τ).loc main_arg1)) := by
  show StableHlo.after hostOps0 (W0 m ρ c) (Proc.devRef .tc main_v3) = _
  unfold hostOps0
  after_results_simp
  rfl

set_option maxHeartbeats 4000000 in
theorem w1_v12 : W1 m ρ c (Proc.devRef .tc main_v12) = dcol (dstRaw (m ((c : Thread nD τ).loc main_arg1))) := by
  show StableHlo.after hostOps0 (W0 m ρ c) (Proc.devRef .tc main_v12) = _
  unfold hostOps0
  after_results_simp
  rfl

set_option maxHeartbeats 4000000 in
theorem w1_v24 : W1 m ρ c (Proc.devRef .tc main_v24)
    = mean128 (dstRaw (m ((c : Thread nD τ).loc main_arg1))) (srcRaw (m ((c : Thread nD τ).loc main_arg1))) (dcol (dstRaw (m ((c : Thread nD τ).loc main_arg1)))) (m ((c : Thread nD τ).loc main_arg0)) := by
  show StableHlo.after hostOps0 (W0 m ρ c) (Proc.devRef .tc main_v24) = _
  unfold hostOps0
  after_results_simp
  rfl

set_option maxHeartbeats 4000000 in
theorem w1_v25 : W1 m ρ c (Proc.devRef .tc main_v25) = biasRow1024 (m ((c : Thread nD τ).loc main_arg3)) := by
  show StableHlo.after hostOps0 (W0 m ρ c) (Proc.devRef .tc main_v25) = _
  unfold hostOps0
  after_results_simp
  rfl

/-! ## The stretch between regions 1 and 2, from the contents `W3` -/

set_option maxHeartbeats 4000000 in
theorem w4_v39 : W4 m ρ c (Proc.devRef .tc main_v39)
    = mean512 (W3 m ρ c (Proc.devRef .tc main_v3)) (W3 m ρ c (Proc.devRef .tc main_v1))
        (W3 m ρ c (Proc.devRef .tc main_v12)) (W3 m ρ c (Proc.devRef .tc main_v27)) := by
  show StableHlo.after hostOps2 (W3 m ρ c) (Proc.devRef .tc main_v39) = _
  unfold hostOps2
  after_results_simp
  rfl

set_option maxHeartbeats 4000000 in
theorem w4_v40 : W4 m ρ c (Proc.devRef .tc main_v40) = biasRow512 (W3 m ρ c (Proc.devRef .tc main_arg6)) := by
  show StableHlo.after hostOps2 (W3 m ρ c) (Proc.devRef .tc main_v40) = _
  unfold hostOps2
  after_results_simp
  rfl

/-! ## The stretch between regions 2 and 3, from `W5` -/

theorem w6_v42 : W6 m ρ c (Proc.devRef .tc main_v42)
    = cat2 (W5 m ρ c (Proc.devRef .tc main_arg8)) (W5 m ρ c (Proc.devRef .tc main_arg11)) := by
  show StableHlo.after hostOps3 (W5 m ρ c) (Proc.devRef .tc main_v42) = _
  unfold hostOps3
  after_results_simp
  rfl

theorem w6_v43 : W6 m ρ c (Proc.devRef .tc main_v43)
    = cat2 (W5 m ρ c (Proc.devRef .tc main_arg10)) (W5 m ρ c (Proc.devRef .tc main_arg13)) := by
  show StableHlo.after hostOps3 (W5 m ρ c) (Proc.devRef .tc main_v43) = _
  unfold hostOps3
  after_results_simp
  rfl

theorem w6_v44 : W6 m ρ c (Proc.devRef .tc main_v44)
    = cat1 (W5 m ρ c (Proc.devRef .tc main_arg9)) (W5 m ρ c (Proc.devRef .tc main_arg12)) := by
  show StableHlo.after hostOps3 (W5 m ρ c) (Proc.devRef .tc main_v44) = _
  unfold hostOps3
  after_results_simp
  rfl

/-! ## The stretch between regions 3 and 4, from `W7` -/

set_option maxHeartbeats 4000000 in
theorem w8_v57 : W8 m ρ c (Proc.devRef .tc main_v57)
    = mean16 (W7 m ρ c (Proc.devRef .tc main_v3)) (W7 m ρ c (Proc.devRef .tc main_v1))
        (W7 m ρ c (Proc.devRef .tc main_v12)) (W7 m ρ c (Proc.devRef .tc main_v45)) := by
  show StableHlo.after hostOps4 (W7 m ρ c) (Proc.devRef .tc main_v57) = _
  unfold hostOps4
  after_results_simp
  rfl

set_option maxHeartbeats 4000000 in
theorem w8_v58 : W8 m ρ c (Proc.devRef .tc main_v58) = biasRow16 (W7 m ρ c (Proc.devRef .tc main_v44)) := by
  show StableHlo.after hostOps4 (W7 m ρ c) (Proc.devRef .tc main_v58) = _
  unfold hostOps4
  after_results_simp
  rfl

/-! ## The last stretch, from `W9` -/

theorem w10_v60 : W10 m ρ c (Proc.devRef .tc main_v60) = leftHalf (W9 m ρ c (Proc.devRef .tc main_v59)) := by
  show StableHlo.after hostOps5 (W9 m ρ c) (Proc.devRef .tc main_v60) = _
  unfold hostOps5
  after_results_simp
  rfl

theorem w10_v61 : W10 m ρ c (Proc.devRef .tc main_v61) = rightHalf (W9 m ρ c (Proc.devRef .tc main_v59)) := by
  show StableHlo.after hostOps5 (W9 m ρ c) (Proc.devRef .tc main_v61) = _
  unfold hostOps5
  after_results_simp
  rfl

end Cert.KernelIdeal.HostValue

end
-- ==== Proof.KernelRun.lean ====
/-
  The idealized kernel's run, with EVERY buffer the thread holds named at the end.

  @main of the kernel is ten segments: stretches of host operations and five pallas_call regions in turn. The generated
  frame folds the buffers' contents through them — `W0` is the launch memory, a stretch of host operations takes `W` to
  `StableHlo.after ops W`, a region takes `W` to `W` with the region's arrays replaced by what its write-backs leave, and
  `W10` is the contents at the return — and reads only the fourteen arguments back out of `W10`. Here the same segments
  are launched again and the last thread state is read at every buffer it holds: every weakly fair execution
  terminates without a fault and each unscoped buffer ends at `W10`. The modules that follow walk `W10` backwards at the
  two results.

  The four things the launch asks for beyond the segments: the launch element gives the pipelines' cells and nothing
  else (`launch_elt`); each segment is entered from exactly what the one before it left, and the last one leaves the
  buffers at `W10` beside the generator register and a core that owes nothing (`chain`); the first thread state is what
  the launch deals each core; and buffers held at `W10` read as `W10` in any final state (`last_read`).
-/
import proofs.«122720_j47107201302764_2_alg».proof.Proof.Gen.KernelIdeal.Frame

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipelines' launch element. -/
abbrev elt₀ : UR sig nD τ := initOf (Pipeline.cells cfgs cellOf_inj) (Pipeline.launchToks cfgs cellOf_inj)

/-- What a core's thread holds when @main starts: its unscoped buffers at the launch memory, the generator register,
    nothing owed. -/
abbrev first (c : Dev nD) : sProp 𝕄 :=
  iprop(StableHlo.held (c : Thread nD τ) (Pipeline.ucRefs τ sig) (W0 m ρ c) ∗ R c)

/-- What the buffers read as in a final memory. -/
abbrev Reads (c : Dev nD) (s : MemSt nD τ sig (Elt F)) : Prop :=
  ∀ b ∈ Pipeline.ucRefs τ sig, s.mem (((c : Thread nD τ)).1, b) = W10 m ρ c b

/-- The launch element is the pipelines' own, and no core gets a ghost resource beside it. -/
theorem launch_elt : (ownU (elt₀ : UR sig nD τ) : sProp 𝕄)
    ⊢ |={Set.univ}=> iprop(BI.own (emb₁ (elt₀ : UR sig nD τ)) ∗ bigSep Finset.univ (fun _ : Dev nD => (BI.emp : sProp 𝕄))) := by
  rw [BI.bigSep_emp_const]
  iintro H
  imodintro
  isplitl [H]
  · iapply (show (ownU (elt₀ : UR sig nD τ) : sProp 𝕄) ⊢ BI.own (emb₁ (elt₀ : UR sig nD τ)) from .rfl)
    iexact H
  · iempintro

/-- The last host stretch leaves the buffers at `W10`, the register and the empty debt: regrouped, that is the last
    thread state beside a core that owes nothing. -/
theorem last_link (c : Dev nD) :
    iprop(StableHlo.held (c : Thread nD τ) (Pipeline.ucRefs τ sig) (W10 m ρ c) ∗ R c)
      ⊢ iprop(Tₙ m ρ c ∗ ∃ W, owes (c : Thread nD τ) (0 : CellTallies nD τ sig Unit) W) := by
  iintro ⟨Hbuf, Hreg, Hdebt⟩
  isplitr [Hdebt]
  · isplitl [Hbuf]
    · iexact Hbuf
    · iexact Hreg
  · iexact Hdebt

/-- Each of the ten segments is entered from what the one before it left (the generated segments are stated over the
    boundary contents by name, so every link is an identity), and the last leaves `last_link`'s left-hand side. -/
theorem chain : Pipeline.Seg.Chains (first m ρ) (segs m ρ)
    (fun c => iprop(Tₙ m ρ c ∗ ∃ W, owes (c : Thread nD τ) (0 : CellTallies nD τ sig Unit) W)) :=
  ⟨fun _ => .rfl, fun _ => .rfl, fun _ => .rfl, fun _ => .rfl, fun _ => .rfl, fun _ => .rfl, fun _ => .rfl,
    fun _ => .rfl, fun _ => .rfl, fun _ => .rfl, fun c => last_link m ρ c⟩

/-- Buffers held at `W10` read as `W10` in the final state. -/
theorem last_read (c : Dev nD) (s' : Phys nD τ sig (Elt F)) :
    iprop(Tₙ m ρ c ∗ SI s') ⊢ |={Set.univ}=> iprop(⌜Reads m ρ c s'.mem⌝ ∗ SI s') := by
  iintro ⟨⟨Hbuf, -⟩, Hst⟩
  unfold StableHlo.held
  imodintro
  iapply (pointsTo_read_all (Pipeline.ucRefs τ sig) (fun b => (((c : Thread nD τ)).1, b)) (W10 m ρ c) s')
  isplitl [Hbuf] <;> iassumption

set_option backward.isDefEq.respectTransparency.types false in
/-- Every weakly fair execution of the kernel's @main terminates, nothing faulting, and every unscoped buffer of every
    core ends at the last boundary's contents `W10`. -/
theorem run_bufs : θ_run defs (onTc (τ := τ) (main (F := F))) ⟨m, fun _ => 0, ρ⟩
    (fun r => ∀ c : Dev nD, Reads m ρ c r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := elt₀) (hu₀ := launch_elt)
    (T₀ := first m ρ) (Tₙ := Tₙ m ρ) (hch := chain m ρ)
    (hinit := by
      -- what the launch deals a core — its unscoped buffers at the launch memory, zeroed semaphores, an empty debt,
      -- its register — holds the first thread state
      refine Pipeline.initEach L lv fun c => ?_
      rw [Pipeline.unscopedBufs_held c (W0 m ρ c)]
      iintro ⟨⟨Hbuf, -, Hdebt, -, Hreg, -⟩, -⟩
      imodintro
      isplitl [Hbuf]
      · iexact Hbuf
      isplitl [Hreg]
      · iexists _; iexact Hreg
      · iexists ∅; iexact Hdebt)
    (QY := Reads m ρ) (hfin := last_read m ρ) (hQ := fun s h => h)

end Cert.KernelIdeal.KernelRun

end
-- ==== Proof.GraphSpec.lean ====
/-
  The mathematics of a stacked mean-aggregation graph convolution, stated once over plain matrices (functions of a row
  and a column index into the extended reals), with no program in sight.

  A graph on the nodes `n` is given by its edges `e`: edge `a` ends at node `r` when `sel a r` holds and starts at node
  `g a`. For a feature matrix `X` (a row per node), `agg X` is, row by row, the sum of the rows of `X` at the sources of the
  edges that end at that row's node. The MEAN scales row `r` of `agg X` by the reciprocal of `dmax r`, the number of
  edges ending at `r` raised to at least one — written in the two ways the two programs compute it: the quotient by
  `dmax r` (`meanQ`), and the product with the quotient of one by `dmax r` (`meanP`).

  One layer is `mean X · W_rel + b + X · W_root`. The three ways its terms are grouped and ordered are the definitions
  below: `layerQ` (aggregate, then project, the bias added before the root term), `convP` (aggregate, then project, the bias
  added last, then the rectifier), and `combine` / `combineRelu` applied to the mean of an already PROJECTED matrix
  `proj X W_rel` (project, then aggregate).
-/
import Idealize.ShloMosaic.PureOps.Ideal
import Idealize.ShloMosaic.Lib.ValueIdx

noncomputable section

open scoped BigOperators

namespace Cert.GraphSpec

open Idealize.ShloMosaic Idealize.ShloMosaic.ValueIdx

/-! ## Arrays of rank 2 and 1 as matrices and rows -/

/-- A rank-2 array as a matrix. -/
def mat {N D : Nat} (a : (⟨2, ![N, D]⟩ : Shape).Idx → EReal) : Fin N → Fin D → EReal := fun p q => a (ix2 p q)

/-- A matrix as a rank-2 array. -/
def unmat {N D : Nat} (f : Fin N → Fin D → EReal) : (⟨2, ![N, D]⟩ : Shape).Idx → EReal := fun i => f (i 0) (i 1)

theorem mat_unmat {N D : Nat} (f : Fin N → Fin D → EReal) : mat (unmat f) = f := rfl

theorem unmat_mat {N D : Nat} (a : (⟨2, ![N, D]⟩ : Shape).Idx → EReal) : unmat (mat a) = a :=
  funext fun i => congrArg a (eq_ix2 i).symm

theorem unmat_apply {N D : Nat} (f : Fin N → Fin D → EReal) (p : Fin N) (q : Fin D) : unmat f (ix2 p q) = f p q := rfl

/-- The one row of a `[1, D]` array. -/
def row1 {D : Nat} (b : (⟨2, ![1, D]⟩ : Shape).Idx → EReal) : Fin D → EReal := fun q => b (ix2 (0 : Fin 1) q)

/-- A rank-1 array as a row. -/
def vec {D : Nat} (b : (⟨1, ![D]⟩ : Shape).Idx → EReal) : Fin D → EReal := fun q => b (ix1 q)

/-! ## The operations -/

section Ops
variable {n e k j : Type} [Fintype e] [Fintype k]

/-- The matrix product. -/
def proj (X : n → k → EReal) (W : k → j → EReal) : n → j → EReal := fun p q => ∑ x, X p x * W x q

/-- Row `r` of `agg X`: the rows of `X` at the sources of the edges ending at `r`, added up (onto a zero row). -/
def agg (sel : e → n → Prop) [∀ a r, Decidable (sel a r)] (g : e → n) (X : n → k → EReal) : n → k → EReal :=
  fun r q => 0 + ∑ a, if sel a r then X (g a) q else 0

/-- The mean as a quotient: row `r` of the aggregate over `dmax r`. -/
def meanQ (dmax : n → EReal) (A : n → k → EReal) : n → k → EReal := fun r q => Ideal.div (A r q) (dmax r)

/-- The mean as a product: row `r` of the aggregate times `1 / dmax r`. -/
def meanP (dmax : n → EReal) (A : n → k → EReal) : n → k → EReal := fun r q => A r q * Ideal.div 1 (dmax r)

/-- One layer with the terms in the order `(mean · W_rel + b) + X · W_root`. -/
def layerQ (M X : n → k → EReal) (Wrel : k → j → EReal) (b : j → EReal) (Wroot : k → j → EReal) : n → j → EReal :=
  fun p q => (proj M Wrel p q + b q) + proj X Wroot p q

/-- The rectifier. -/
def relu (Y : n → j → EReal) : n → j → EReal := fun p q => max (Y p q) 0

/-- One layer with the terms in the order `(mean · W_rel + X · W_root) + b`, rectified. -/
def convP (M X : n → k → EReal) (Wrel : k → j → EReal) (b : j → EReal) (Wroot : k → j → EReal) : n → j → EReal :=
  fun p q => max ((proj M Wrel p q + proj X Wroot p q) + b q) 0

/-- An aggregate `A` computed elsewhere, the root term and the bias: `(X · W_root + A) + b`. -/
def combine (A : n → j → EReal) (X : n → k → EReal) (Wroot : k → j → EReal) (b : j → EReal) : n → j → EReal :=
  fun p q => (proj X Wroot p q + A p q) + b q

/-- The same, rectified. -/
def combineRelu (A : n → j → EReal) (X : n → k → EReal) (Wroot : k → j → EReal) (b : j → EReal) : n → j → EReal :=
  fun p q => max ((proj X Wroot p q + A p q) + b q) 0

end Ops

end Cert.GraphSpec

end
-- ==== Proof.Region0.lean ====
/-
  Region 0 of the idealized kernel (regions are numbered from 0: the first graph-convolution layer), read as one function of
  whole arrays.

  The region walks the 20000 rows in twenty blocks of a thousand. At block `t` it holds rows `1000 t … 1000 t + 999` of the
  mean `M` and of the features `X` (both [20000, 128]), the whole weights `W_rel` and `W_root` (both [128, 1024]) and the whole
  bias row `b` ([1, 1024]), and stores, at row `p` and column `q` of the block,
      max ((Σ_k M[1000 t + p, k] · W_rel[k, q] + Σ_k X[1000 t + p, k] · W_root[k, q]) + b[0, q]) 0 .
  Over the extended reals the narrowing of the factors is the identity and each product accumulates into zero, so the stored
  element is exactly that expression (`pay_apply`). Each block read is the array at the block's rows (`read0` … `read5`), so what
  point `t` writes back is block `t` of ONE array `G` (`flushed_eq`); the twenty blocks tile the rows (`cover`: row `r` lies in
  block `r / 1000`), hence the output array ends holding `G` (`final0`), which is `convP` of the five arrays as matrices.
-/
import proofs.«122720_j47107201302764_2_alg».proof.Proof.Gen.KernelIdeal.Frame
import proofs.«122720_j47107201302764_2_alg».proof.Proof.GraphSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue0

open Cert.KernelIdeal Cert.KernelIdeal.Gen Idealize.ShloMosaic Idealize.ShloMosaic.TcCoe Idealize.SL.Sem
open Idealize.ShloMosaic.ValueIdx
open Idealize.ShloMosaic.Pipeline (Dat)

/-! ## The stored element -/

/-- The bias row broadcast over the block's rows, at an element: the bias at that column. -/
theorem bias_apply (x3 : Vec Ideal S1x1024 .f32) (p : Fin 1000) (q : Fin 1024) :
    broadcastTo S1000x1024 x3 broadcasts_S1x1024_S1000x1024 (ix2 p q) = x3 (ix2 (0 : Fin 1) q) :=
  broadcastTo_apply x3 broadcasts_S1x1024_S1000x1024 (ix2 p q) (ix2 (0 : Fin 1) q) (fun a => match a with
    | ⟨0, _⟩ => by show (0 : Nat) = if (1 : Nat) = 1 then 0 else _; rw [if_pos rfl]
    | ⟨1, _⟩ => by show q.val = if (1024 : Nat) = 1 then 0 else q.val; rw [if_neg (by decide)])

/-- The operand indices of the product at output index `i` and contraction index `s`: row `i 0` and column `s` on the
    left, row `s` and column `i 1` on the right. -/
theorem lhs_row (i : S1000x1024.Idx) (s : dot_S1000x128_S128x1024_S1000x1024_1_0_0_1_n_n.contr.Idx) : (dot_S1000x128_S128x1024_S1000x1024_1_0_0_1_n_n.lhsIdx i s 0).val = (i 0).val := by
  unfold DotDims.lhsIdx
  rw [dif_neg (show ¬(0 : Fin S1000x128.rank) ∈ dot_S1000x128_S128x1024_S1000x1024_1_0_0_1_n_n.lhsBatch by decide), dif_pos (show (0 : Fin S1000x128.rank) ∈ dot_S1000x128_S128x1024_S1000x1024_1_0_0_1_n_n.lhsNonContracting by decide)]
  rfl
theorem lhs_col (i : S1000x1024.Idx) (s : dot_S1000x128_S128x1024_S1000x1024_1_0_0_1_n_n.contr.Idx) : (dot_S1000x128_S128x1024_S1000x1024_1_0_0_1_n_n.lhsIdx i s 1).val = (s ⟨0, by decide⟩).val :=
  dot_S1000x128_S128x1024_S1000x1024_1_0_0_1_n_n.lhsIdx_val_of_single rfl i s
theorem rhs_row (i : S1000x1024.Idx) (s : dot_S1000x128_S128x1024_S1000x1024_1_0_0_1_n_n.contr.Idx) : (dot_S1000x128_S128x1024_S1000x1024_1_0_0_1_n_n.rhsIdx i s 0).val = (s ⟨0, by decide⟩).val :=
  dot_S1000x128_S128x1024_S1000x1024_1_0_0_1_n_n.rhsIdx_val_of_single rfl i s
theorem rhs_col (i : S1000x1024.Idx) (s : dot_S1000x128_S128x1024_S1000x1024_1_0_0_1_n_n.contr.Idx) : (dot_S1000x128_S128x1024_S1000x1024_1_0_0_1_n_n.rhsIdx i s 1).val = (i 1).val := by
  unfold DotDims.rhsIdx
  rw [dif_neg (show ¬(1 : Fin S128x1024.rank) ∈ dot_S1000x128_S128x1024_S1000x1024_1_0_0_1_n_n.rhsBatch by decide), dif_pos (show (1 : Fin S128x1024.rank) ∈ dot_S1000x128_S128x1024_S1000x1024_1_0_0_1_n_n.rhsNonContracting by decide)]
  rfl

/-- The matrix product into a zero accumulator, at an element: the sum over the contraction index of the products. -/
theorem mm_apply (x0 : Vec Ideal S1000x128 .f32) (x1 : Vec Ideal S128x1024 .f32) (p : Fin 1000) (q : Fin 1024) :
    matmul (F := Ideal) dot_S1000x128_S128x1024_S1000x1024_1_0_0_1_n_n none (truncf FTy.bf16 x0 bitsLt_bf16_f32) (truncf FTy.bf16 x1 bitsLt_bf16_f32) (constant S1000x1024 FTy.f32 0x00000000#32) (ix2 p q)
      = ∑ k : Fin 128, x0 (ix2 p k) * x1 (ix2 k q) := by
  simp only [matmul]
  rw [Ideal.matmul_constant_zero_apply, ← Equiv.sum_comp (contrEquiv1 dot_S1000x128_S128x1024_S1000x1024_1_0_0_1_n_n 128 rfl rfl).symm]
  refine Finset.sum_congr rfl fun k _ => ?_
  have hk := contrEquiv1_symm_val dot_S1000x128_S128x1024_S1000x1024_1_0_0_1_n_n 128 rfl rfl k
  have el : dot_S1000x128_S128x1024_S1000x1024_1_0_0_1_n_n.lhsIdx (ix2 p q) ((contrEquiv1 dot_S1000x128_S128x1024_S1000x1024_1_0_0_1_n_n 128 rfl rfl).symm k) = ix2 p k := funext fun a => Fin.ext (by
    match a with
    | ⟨0, _⟩ => exact lhs_row _ _
    | ⟨1, _⟩ => exact (lhs_col _ _).trans hk)
  have er : dot_S1000x128_S128x1024_S1000x1024_1_0_0_1_n_n.rhsIdx (ix2 p q) ((contrEquiv1 dot_S1000x128_S128x1024_S1000x1024_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-- The element the body stores at row `p`, column `q` of its block, from the five blocks it loads. -/
theorem pay_apply (x0 x1 : Vec Ideal S1000x128 .f32) (x2 x4 : Vec Ideal S128x1024 .f32) (x3 : Vec Ideal S1x1024 .f32)
    (p : Fin 1000) (q : Fin 1024) :
    k0_pay1 (F := Ideal) x0 x1 x2 x4 x3 (ix2 p q)
      = max (((∑ k : Fin 128, x0 (ix2 p k) * x2 (ix2 k q)) + (∑ k : Fin 128, x1 (ix2 p k) * x4 (ix2 k q))) + x3 (ix2 (0 : Fin 1) q)) 0 := by
  unfold k0_pay1
  simp only [shapeCast_self]
  rw [maximumf_apply, addf_apply, addf_apply, broadcast_apply, bias_apply, mm_apply, mm_apply]
  show max _ (Ideal.ofBits .f32 0x00000000#32) = _
  rw [Ideal.ofBits_zero_f32]

/-! ## The blocks -/

-- the contents of the arrays when the region is entered
variable (V : (c : Dev nD) → (b : Ref sig .tc) → Buf (Elt Ideal) ((c : Thread nD τ).loc b))

/-- The zero offsets of a whole-block access. -/
theorem hz : (![0, 0] : Fin 2 → Nat) = fun _ => 0 := funext fun a => by fin_cases a <;> rfl

/-- The index maps over the grid: the row-blocked windows sit at block row `t`, the weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Element (p, q) of window 0's block at point `t` is the array's element at row `1000 t + p`, column `q`. -/
theorem read0 (G : S20000x128.Idx → EReal) (t : Fin cfg0.N) (p : Fin 1000) (q : Fin 128) (r : Fin 20000)
    (hr : r.val = t.val * 1000 + p.val) :
    ((cfg0.win 0).blk t).view.read (Elt Ideal) G (ix2 p q) = G (ix2 r q) := by
  rw [View.read_apply]
  show G _ = G _
  refine congrArg G (funext fun a => Fin.ext ?_)
  have e0 := (idx_facts t).1
  have e1 := (idx_facts t).2.1
  match a with
  | ⟨0, _⟩ => show win0_0.index t (0 : Fin 2) * 1000 + 1 * p.val = r.val; rw [e0, hr]; omega
  | ⟨1, _⟩ => show win0_0.index t (1 : Fin 2) * 128 + 1 * q.val = q.val; rw [e1]; omega

/-- Element (p, q) of window 1's block at point `t` is the array's element at row `1000 t + p`, column `q`. -/
theorem read1 (G : S20000x128.Idx → EReal) (t : Fin cfg0.N) (p : Fin 1000) (q : Fin 128) (r : Fin 20000)
    (hr : r.val = t.val * 1000 + p.val) :
    ((cfg0.win 1).blk t).view.read (Elt Ideal) G (ix2 p q) = G (ix2 r q) := by
  rw [View.read_apply]
  show G _ = G _
  refine congrArg G (funext fun a => Fin.ext ?_)
  have e0 := (idx_facts t).2.2.1
  have e1 := (idx_facts t).2.2.2.1
  match a with
  | ⟨0, _⟩ => show win0_1.index t (0 : Fin 2) * 1000 + 1 * p.val = r.val; rw [e0, hr]; omega
  | ⟨1, _⟩ => show win0_1.index t (1 : Fin 2) * 128 + 1 * q.val = q.val; rw [e1]; omega

/-- Window 2's block is its whole array at every point. -/
theorem read2 (G : S128x1024.Idx → EReal) (t : Fin cfg0.N) (p : Fin 128) (q : Fin 1024) :
    ((cfg0.win 2).blk t).view.read (Elt Ideal) G (ix2 p q) = G (ix2 p q) := by
  rw [View.read_apply]
  show G _ = G _
  refine congrArg G (funext fun a => Fin.ext ?_)
  have e0 := (idx_facts t).2.2.2.2.1
  have e1 := (idx_facts t).2.2.2.2.2.1
  match a with
  | ⟨0, _⟩ => show win0_2.index t (0 : Fin 2) * 128 + 1 * p.val = p.val; rw [e0]; omega
  | ⟨1, _⟩ => show win0_2.index t (1 : Fin 2) * 1024 + 1 * q.val = q.val; rw [e1]; omega

/-- Window 3's block is its whole array at every point. -/
theorem read3 (G : S1x1024.Idx → EReal) (t : Fin cfg0.N) (p : Fin 1) (q : Fin 1024) :
    ((cfg0.win 3).blk t).view.read (Elt Ideal) G (ix2 p q) = G (ix2 p q) := by
  rw [View.read_apply]
  show G _ = G _
  refine congrArg G (funext fun a => Fin.ext ?_)
  have e0 := (idx_facts t).2.2.2.2.2.2.1
  have e1 := (idx_facts t).2.2.2.2.2.2.2.1
  match a with
  | ⟨0, _⟩ => show win0_3.index t (0 : Fin 2) * 1 + 1 * p.val = p.val; rw [e0]; omega
  | ⟨1, _⟩ => show win0_3.index t (1 : Fin 2) * 1024 + 1 * q.val = q.val; rw [e1]; omega

/-- Window 4's block is its whole array at every point. -/
theorem read4 (G : S128x1024.Idx → EReal) (t : Fin cfg0.N) (p : Fin 128) (q : Fin 1024) :
    ((cfg0.win 4).blk t).view.read (Elt Ideal) G (ix2 p q) = G (ix2 p q) := by
  rw [View.read_apply]
  show G _ = G _
  refine congrArg G (funext fun a => Fin.ext ?_)
  have e0 := (idx_facts t).2.2.2.2.2.2.2.2.1
  have e1 := (idx_facts t).2.2.2.2.2.2.2.2.2.1
  match a with
  | ⟨0, _⟩ => show win0_4.index t (0 : Fin 2) * 128 + 1 * p.val = p.val; rw [e0]; omega
  | ⟨1, _⟩ => show win0_4.index t (1 : Fin 2) * 1024 + 1 * q.val = q.val; rw [e1]; omega

/-- Element (p, q) of window 5's block at point `t` is the array's element at row `1000 t + p`, column `q`. -/
theorem read5 (G : S20000x1024.Idx → EReal) (t : Fin cfg0.N) (p : Fin 1000) (q : Fin 1024) (r : Fin 20000)
    (hr : r.val = t.val * 1000 + p.val) :
    ((cfg0.win 5).blk t).view.read (Elt Ideal) G (ix2 p q) = G (ix2 r q) := by
  rw [View.read_apply]
  show G _ = G _
  refine congrArg G (funext fun a => Fin.ext ?_)
  have e0 := (idx_facts t).2.2.2.2.2.2.2.2.2.2.1
  have e1 := (idx_facts t).2.2.2.2.2.2.2.2.2.2.2
  match a with
  | ⟨0, _⟩ => show win0_5.index t (0 : Fin 2) * 1000 + 1 * p.val = r.val; rw [e0, hr]; omega
  | ⟨1, _⟩ => show win0_5.index t (1 : Fin 2) * 1024 + 1 * q.val = q.val; rw [e1]; omega

/-- The array the region leaves in its output: the rectified layer of the mean, the features, the two weights and the bias. -/
abbrev G (M X : S20000x128.Idx → EReal) (Wrel : S128x1024.Idx → EReal) (b : S1x1024.Idx → EReal) (Wroot : S128x1024.Idx → EReal) :
    S20000x1024.Idx → EReal :=
  Cert.GraphSpec.unmat (Cert.GraphSpec.convP (Cert.GraphSpec.mat M) (Cert.GraphSpec.mat X) (Cert.GraphSpec.mat Wrel) (Cert.GraphSpec.row1 b) (Cert.GraphSpec.mat Wroot))

/-- Row `p` of block `t` is a row of the array. -/
theorem row_lt (t : Fin cfg0.N) (p : Fin 1000) : t.val * 1000 + p.val < 20000 := by
  have ht : t.val < 20 := t.isLt
  have hp := p.isLt
  omega

-- the arrays the six windows are over
example : Pipeline.arrRef spec0 0 = main_v24 := rfl
example : Pipeline.arrRef spec0 1 = main_arg0 := rfl
example : Pipeline.arrRef spec0 2 = main_arg2 := rfl
example : Pipeline.arrRef spec0 3 = main_v25 := rfl
example : Pipeline.arrRef spec0 4 = main_arg4 := rfl
example : Pipeline.arrRef spec0 5 = main_v26 := rfl

/-- The five input blocks at point `t`, at an element, as elements of the arrays the region finds. -/
theorem blk0_apply (c : Dev nD) (t : Fin cfg0.N) (p : Fin 1000) (q : Fin 128) (r : Fin 20000) (hr : r.val = t.val * 1000 + p.val) :
    (iblk0 V c 0 t : Vec Ideal S1000x128 .f32) (ix2 p q) = (V c main_v24 : S20000x128.Idx → EReal) (ix2 r q) :=
  read0 (V c main_v24) t p q r hr
theorem blk1_apply (c : Dev nD) (t : Fin cfg0.N) (p : Fin 1000) (q : Fin 128) (r : Fin 20000) (hr : r.val = t.val * 1000 + p.val) :
    (iblk0 V c 1 t : Vec Ideal S1000x128 .f32) (ix2 p q) = (V c main_arg0 : S20000x128.Idx → EReal) (ix2 r q) :=
  read1 (V c main_arg0) t p q r hr
theorem blk2_apply (c : Dev nD) (t : Fin cfg0.N) (p : Fin 128) (q : Fin 1024) :
    (iblk0 V c 2 t : Vec Ideal S128x1024 .f32) (ix2 p q) = (V c main_arg2 : S128x1024.Idx → EReal) (ix2 p q) :=
  read2 (V c main_arg2) t p q
theorem blk3_apply (c : Dev nD) (t : Fin cfg0.N) (p : Fin 1) (q : Fin 1024) :
    (iblk0 V c 3 t : Vec Ideal S1x1024 .f32) (ix2 p q) = (V c main_v25 : S1x1024.Idx → EReal) (ix2 p q) :=
  read3 (V c main_v25) t p q
theorem blk4_apply (c : Dev nD) (t : Fin cfg0.N) (p : Fin 128) (q : Fin 1024) :
    (iblk0 V c 4 t : Vec Ideal S128x1024 .f32) (ix2 p q) = (V c main_arg4 : S128x1024.Idx → EReal) (ix2 p q) :=
  read4 (V c main_arg4) t p q

/-- What point `t` writes back is block `t` of `G` of the arrays the region finds. -/
theorem flushed_eq (c : Dev nD) (t : Fin cfg0.N) :
    (dat0 (F := Ideal) V c).flushed 5 t
      = ((cfg0.win 5).blk t).view.read (Elt Ideal) (G (V c main_v24) (V c main_arg0) (V c main_arg2) (V c main_v25) (V c main_arg4)) := by
  show (cfg0.win 5).cut (grid0.coords t) ((dat0 V c).after 5 t) = _
  rw [after0_5]
  unfold out0_5
  rw [View.canon_unit_zero hz]
  simp only [View.ld_unit_zero (S := S1000x128) hz, View.ld_unit_zero (S := S128x1024) hz, View.ld_unit_zero (S := S1x1024) hz]
  refine funext fun (j : S1000x1024.Idx) => ?_
  obtain ⟨p, q, rfl⟩ : ∃ (p : Fin 1000) (q : Fin 1024), j = ix2 p q := ⟨j 0, j 1, eq_ix2 j⟩
  have hr : t.val * 1000 + p.val < 20000 := row_lt t p
  refine Eq.trans ?_ (read5 _ t p q ⟨t.val * 1000 + p.val, hr⟩ rfl).symm
  show k0_pay1 (F := Ideal) (iblk0 V c 0 t) (iblk0 V c 1 t) (iblk0 V c 2 t) (iblk0 V c 4 t) (iblk0 V c 3 t) (ix2 p q) = _
  rw [pay_apply, blk3_apply V c t 0 q]
  simp only [blk0_apply V c t p _ ⟨t.val * 1000 + p.val, hr⟩ rfl, blk1_apply V c t p _ ⟨t.val * 1000 + p.val, hr⟩ rfl,
    blk2_apply V c t, blk4_apply V c t]
  rfl

/-! ## From blocks to the array -/

/-- An index of the array is in point `t`'s block iff each coordinate is in the block's range on its axis. -/
theorem mem_blk (t : Fin cfg0.N) (i : S20000x1024.Idx) :
    i ∈ ((cfg0.win 5).blk t).view.set ↔ ∀ a : Fin 2, win0_5.index t a * S1000x1024.size a ≤ (i a).val ∧ (i a).val < win0_5.index t a * S1000x1024.size a + S1000x1024.size a := by
  show i ∈ ((View.whole main_v26).slice (win0_5.rect t)).set ↔ _
  rw [View.set_slice_whole, Rect.mem_set_unit]
  exact Iff.rfl

/-- Row `r` of the array lies in the block of point `r / 1000`: the twenty blocks of a thousand rows tile the array. -/
theorem cover (i : S20000x1024.Idx) : ∃ t : Fin cfg0.N, (cfg0.win 5).flush t = true ∧ i ∈ ((cfg0.win 5).blk t).view.set := by
  have hi0 : (i 0).val < 20000 := idx2_lt0 i
  have hi1 : (i 1).val < 1024 := idx2_lt1 i
  obtain ⟨t, ht⟩ : ∃ t : Fin cfg0.N, t.val = (i 0).val / 1000 :=
    ⟨⟨(i 0).val / 1000, by rw [show cfg0.N = 20 from N_0]; omega⟩, rfl⟩
  refine ⟨t, flush0_5 t, ?_⟩
  rw [mem_blk]
  have e0 := (idx_facts t).2.2.2.2.2.2.2.2.2.2.1
  have e1 := (idx_facts t).2.2.2.2.2.2.2.2.2.2.2
  intro a
  match a with
  | ⟨0, _⟩ =>
    show win0_5.index t (0 : Fin 2) * 1000 ≤ (i 0).val ∧ (i 0).val < win0_5.index t (0 : Fin 2) * 1000 + 1000
    rw [e0, ht]; omega
  | ⟨1, _⟩ =>
    show win0_5.index t (1 : Fin 2) * 1024 ≤ (i 1).val ∧ (i 1).val < win0_5.index t (1 : Fin 2) * 1024 + 1024
    rw [e1]; omega

/-- The output array after the region's twenty points: the rectified layer, as one function of the arrays the region finds. -/
theorem final0 (c : Dev nD) :
    ((dat0 (F := Ideal) V c).arrAt 5 cfg0.N : S20000x1024.Idx → EReal)
      = Cert.GraphSpec.unmat (Cert.GraphSpec.convP (Cert.GraphSpec.mat (V c main_v24 : S20000x128.Idx → EReal))
          (Cert.GraphSpec.mat (V c main_arg0 : S20000x128.Idx → EReal)) (Cert.GraphSpec.mat (V c main_arg2 : S128x1024.Idx → EReal))
          (Cert.GraphSpec.row1 (V c main_v25 : S1x1024.Idx → EReal)) (Cert.GraphSpec.mat (V c main_arg4 : S128x1024.Idx → EReal))) :=
  (dat0 (F := Ideal) V c).arrAt_eq_of_cover 5 (G (V c main_v24) (V c main_arg0) (V c main_arg2) (V c main_v25) (V c main_arg4))
    (fun t _ => flushed_eq V c t) cover

end Cert.KernelIdeal.RegionValue0

end
-- ==== Proof.Region1.lean ====
/-
  The second layer's projection, as one matrix product.

  The region multiplies a 20000 × 1024 array by a 1024 × 512 array, twenty blocks of 1000 rows at a time: each grid
  point loads 1000 rows of the left factor and the whole right factor, forms their product over the extended reals
  (a sum of 1024 products per entry, accumulated onto zero) and stores it as the same 1000 rows of the output. Here:
  one point's result entry by entry, the identification of those entries with entries of the whole product, and the
  twenty blocks covering the output, so that after the region the output array IS the product of the input arrays.
-/
import proofs.«122720_j47107201302764_2_alg».proof.Proof.Gen.KernelIdeal.Frame
import proofs.«122720_j47107201302764_2_alg».proof.Proof.GraphSpec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionValue1

open Cert.KernelIdeal Cert.KernelIdeal.Gen Cert.GraphSpec

variable (V : (c : Dev nD) → (b : Ref sig .tc) → Buf (Elt Ideal) ((c : Thread nD τ).loc b))

/-- The zero offsets of a whole block, as the constant function. -/
theorem hz : (![0, 0] : Fin 2 → Nat) = fun _ => 0 := funext fun a => by fin_cases a <;> rfl

/-! ## One block of the product at an entry

The contraction runs over one axis: the second of the left factor, the first of the right factor. The operand indices
of the product at the output entry (p, q) and the contraction coordinate k are therefore (p, k) and (k, q). -/

theorem lhs_0 (i : S1000x512.Idx) (k : dot_S1000x1024_S1024x512_S1000x512_1_0_0_1_n_n.contr.Idx) : (dot_S1000x1024_S1024x512_S1000x512_1_0_0_1_n_n.lhsIdx i k 0).val = (i 0).val := by
  unfold DotDims.lhsIdx
  rw [dif_neg (show ¬(0 : Fin S1000x1024.rank) ∈ dot_S1000x1024_S1024x512_S1000x512_1_0_0_1_n_n.lhsBatch by decide), dif_pos (show (0 : Fin S1000x1024.rank) ∈ dot_S1000x1024_S1024x512_S1000x512_1_0_0_1_n_n.lhsNonContracting by decide)]
  rfl
theorem lhs_1 (i : S1000x512.Idx) (k : dot_S1000x1024_S1024x512_S1000x512_1_0_0_1_n_n.contr.Idx) : (dot_S1000x1024_S1024x512_S1000x512_1_0_0_1_n_n.lhsIdx i k 1).val = (k ⟨0, by decide⟩).val :=
  dot_S1000x1024_S1024x512_S1000x512_1_0_0_1_n_n.lhsIdx_val_of_single rfl i k
theorem rhs_0 (i : S1000x512.Idx) (k : dot_S1000x1024_S1024x512_S1000x512_1_0_0_1_n_n.contr.Idx) : (dot_S1000x1024_S1024x512_S1000x512_1_0_0_1_n_n.rhsIdx i k 0).val = (k ⟨0, by decide⟩).val :=
  dot_S1000x1024_S1024x512_S1000x512_1_0_0_1_n_n.rhsIdx_val_of_single rfl i k
theorem rhs_1 (i : S1000x512.Idx) (k : dot_S1000x1024_S1024x512_S1000x512_1_0_0_1_n_n.contr.Idx) : (dot_S1000x1024_S1024x512_S1000x512_1_0_0_1_n_n.rhsIdx i k 1).val = (i 1).val := by
  unfold DotDims.rhsIdx
  rw [dif_neg (show ¬(1 : Fin S1024x512.rank) ∈ dot_S1000x1024_S1024x512_S1000x512_1_0_0_1_n_n.rhsBatch by decide), dif_pos (show (1 : Fin S1024x512.rank) ∈ dot_S1000x1024_S1024x512_S1000x512_1_0_0_1_n_n.rhsNonContracting by decide)]
  rfl

/-- The product of two blocks accumulated onto zero, at entry (p, q): the sum over the contracted axis of the
    products of row p of the left block with column q of the right block. -/
theorem matmul_apply (a : FVec Ideal S1000x1024 .bf16) (b : FVec Ideal S1024x512 .bf16) (p : Fin 1000) (q : Fin 512) :
    FloatOps.matmul dot_S1000x1024_S1024x512_S1000x512_1_0_0_1_n_n none a b (constant (F := Ideal) S1000x512 .f32 0x00000000#32) (ix2 p q) = ∑ k : Fin 1024, a (ix2 p k) * b (ix2 k q) := by
  rw [Ideal.matmul_constant_zero_apply, ← Equiv.sum_comp (contrEquiv1 dot_S1000x1024_S1024x512_S1000x512_1_0_0_1_n_n 1024 rfl rfl).symm]
  refine Finset.sum_congr rfl fun k _ => ?_
  have hk := contrEquiv1_symm_val dot_S1000x1024_S1024x512_S1000x512_1_0_0_1_n_n 1024 rfl rfl k
  have el : dot_S1000x1024_S1024x512_S1000x512_1_0_0_1_n_n.lhsIdx (ix2 p q) ((contrEquiv1 dot_S1000x1024_S1024x512_S1000x512_1_0_0_1_n_n 1024 rfl rfl).symm k) = ix2 p k := funext fun a => Fin.ext (by
    match a with
    | ⟨0, _⟩ => exact lhs_0 _ _
    | ⟨1, _⟩ => exact (lhs_1 _ _).trans hk)
  have er : dot_S1000x1024_S1024x512_S1000x512_1_0_0_1_n_n.rhsIdx (ix2 p q) ((contrEquiv1 dot_S1000x1024_S1024x512_S1000x512_1_0_0_1_n_n 1024 rfl rfl).symm k) = ix2 k q := funext fun a => Fin.ext (by
    match a with
    | ⟨0, _⟩ => exact (rhs_0 _ _).trans hk
    | ⟨1, _⟩ => exact rhs_1 _ _)
  rw [el, er]

/-- What one grid point computes from its two loaded blocks, at entry (p, q): over the extended reals the
    narrowing of the operands to the shorter format changes nothing, so it is the plain sum of products. -/
theorem pay_apply (x0 : Vec Ideal S1000x1024 .f32) (x1 : Vec Ideal S1024x512 .f32) (p : Fin 1000) (q : Fin 512) :
    k1_pay1 (F := Ideal) x0 x1 (ix2 p q) = ∑ k : Fin 1024, x0 (ix2 p k) * x1 (ix2 k q) := by
  unfold k1_pay1
  simp only [matmul, shapeCast_self]
  rw [matmul_apply]
  rfl

/-! ## From the blocks to the array

Grid point t works on rows 1000·t … 1000·t + 999: the left factor's and the output's windows move down their arrays
by one block of 1000 rows per point and span all columns; the right factor's window is its whole array at every point. -/

/-- The block indices of the three windows at point t, decided over the twenty points. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole output: the matrix product of the two input arrays as the region finds them. -/
abbrev G (c : Dev nD) : S20000x512.Idx → EReal :=
  unmat (proj (mat (V c main_v26 : S20000x1024.Idx → EReal)) (mat (V c main_arg5 : S1024x512.Idx → EReal)))

/-- The product at an index of the output array, spelt out. -/
theorem G_apply (A : S20000x1024.Idx → EReal) (B : S1024x512.Idx → EReal) (i : S20000x512.Idx) :
    unmat (proj (mat A) (mat B)) i = ∑ k : Fin 1024, A (ix2 (i 0) k) * B (ix2 k (i 1)) := rfl

/-- Equal indices, equal products. -/
theorem term_eq (A : S20000x1024.Idx → EReal) (B : S1024x512.Idx → EReal) (a a' : S20000x1024.Idx) (b b' : S1024x512.Idx)
    (ha : a = a') (hb : b = b') : A a * B b = A a' * B b' := by rw [ha, hb]

/-- What point t writes back is block t of the whole product: entry (p, q) of the point's result sums over k the
    left array at row 1000·t + p, column k, times the right array at (k, q) — and row 1000·t + p is the row of the
    output array that entry (p, q) of block t is stored to. -/
theorem flushed_eq (c : Dev nD) (t : Fin cfg1.N) :
    (dat1 (F := Ideal) V c).flushed 2 t = ((cfg1.win 2).blk t).view.read (Elt Ideal) (G V c) := by
  show (cfg1.win 2).cut (grid1.coords t) ((dat1 (F := Ideal) V c).after 2 t) = _
  rw [after1_2]
  unfold out1_2
  rw [View.canon_unit_zero hz]
  simp only [View.ld_unit_zero (S := S1000x1024) hz, View.ld_unit_zero (S := S1024x512) hz]
  obtain ⟨e0, e1, e2, e3, e4, e5⟩ := idx_facts t
  funext (j : S1000x512.Idx)
  obtain ⟨p, q, rfl⟩ : ∃ (p : Fin 1000) (q : Fin 512), j = ix2 p q := ⟨j 0, j 1, eq_ix2 j⟩
  show k1_pay1 (F := Ideal) (iblk1 V c 0 t) (iblk1 V c 1 t) (ix2 p q) = G V c (((cfg1.win 2).blk t).view.emb (ix2 p q))
  refine (pay_apply (iblk1 V c 0 t) (iblk1 V c 1 t) p q).trans ?_
  refine Eq.trans ?_ (G_apply (V c main_v26) (V c main_arg5) (((cfg1.win 2).blk t).view.emb (ix2 p q))).symm
  refine Finset.sum_congr rfl fun k _ => ?_
  have h0 : ((cfg1.win 0).blk t).view.emb (ix2 p k) = ix2 ((((cfg1.win 2).blk t).view.emb (ix2 p q)) 0) k := by
    funext a; apply Fin.ext
    match a with
    | ⟨0, _⟩ => show win1_0.index t (0 : Fin 2) * 1000 + 1 * p.val = win1_2.index t (0 : Fin 2) * 1000 + 1 * p.val; omega
    | ⟨1, _⟩ => show win1_0.index t (1 : Fin 2) * 1024 + 1 * k.val = k.val; omega
  have h1 : ((cfg1.win 1).blk t).view.emb (ix2 k q) = ix2 k ((((cfg1.win 2).blk t).view.emb (ix2 p q)) 1) := by
    funext a; apply Fin.ext
    match a with
    | ⟨0, _⟩ => show win1_1.index t (0 : Fin 2) * 1024 + 1 * k.val = k.val; omega
    | ⟨1, _⟩ => show win1_1.index t (1 : Fin 2) * 512 + 1 * q.val = win1_2.index t (1 : Fin 2) * 512 + 1 * q.val; omega
  exact term_eq (V c main_v26) (V c main_arg5) _ _ _ _ h0 h1

/-- An index of the output array lies in point t's block iff each coordinate lies in the block's range on its axis. -/
theorem mem_blk (t : Fin cfg1.N) (i : S20000x512.Idx) :
    i ∈ ((cfg1.win 2).blk t).view.set ↔ ∀ a : Fin 2, win1_2.index t a * S1000x512.size a ≤ (i a).val ∧ (i a).val < win1_2.index t a * S1000x512.size a + S1000x512.size a := by
  show i ∈ ((View.whole main_v27).slice (win1_2.rect t)).set ↔ _
  rw [View.set_slice_whole, Rect.mem_set_unit]
  exact Iff.rfl

/-- The twenty blocks tile the output array: row r lies in the block of point r / 1000. -/
theorem cover (i : S20000x512.Idx) : ∃ t : Fin cfg1.N, (cfg1.win 2).flush t = true ∧ i ∈ ((cfg1.win 2).blk t).view.set := by
  have hi0 : (i 0).val < 20000 := (i 0).isLt
  have hi1 : (i 1).val < 512 := (i 1).isLt
  have hN : cfg1.N = 20 := N_1
  let t : Fin cfg1.N := ⟨(i 0).val / 1000, by rw [hN]; omega⟩
  obtain ⟨e0, e1, e2, e3, e4, e5⟩ := idx_facts t
  refine ⟨t, flush1_2 t, ?_⟩
  rw [mem_blk]
  have ht : t.val = (i 0).val / 1000 := rfl
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 512 ≤ (i 1).val ∧ (i 1).val < win1_2.index t (1 : Fin 2) * 512 + 512; omega

/-- After its twenty points the region's output array is the matrix product of its two input arrays. -/
theorem final1 (c : Dev nD) : ((dat1 (F := Ideal) V c).arrAt 2 cfg1.N : S20000x512.Idx → EReal)
    = unmat (proj (mat (V c main_v26 : S20000x1024.Idx → EReal)) (mat (V c main_arg5 : S1024x512.Idx → EReal))) :=
  (dat1 (F := Ideal) V c).arrAt_eq_of_cover 2 (G V c) (fun t _ => flushed_eq V c t) cover

end Cert.KernelIdeal.RegionValue1

end
-- ==== Proof.Region2.lean ====
/-
  Region 2 of the idealized kernel (regions are numbered from 0: the first of the two combine steps), read as one
  function of whole arrays.

  The region walks the 20000 rows in twenty blocks of a thousand. At block `t` it holds rows `1000 t … 1000 t + 999` of the
  aggregate `A` ([20000, 512]) and of the features `X` ([20000, 1024]), the whole root weight `W` ([1024, 512]) and the whole
  bias row `b` ([1, 512]), and stores, at row `p` and column `q` of the block,
      max ((Σ_k X[1000 t + p, k] · W[k, q] + A[1000 t + p, q]) + b[0, q]) 0 .
  Over the extended reals the narrowing of the two factors is the identity and the product accumulates into zero, so the stored
  element is exactly that expression (`pay_apply`). Each block read is the array at the block's rows (`read0` … `read4`), so what
  point `t` writes back is block `t` of ONE array `G` (`flushed_eq`); the twenty blocks tile the rows (`cover`: row `r` lies in
  block `r / 1000`), hence the output array ends holding `G` (`final2`), which is `combineRelu` of the four arrays as matrices.
-/
import proofs.«122720_j47107201302764_2_alg».proof.Proof.Gen.KernelIdeal.Frame
import proofs.«122720_j47107201302764_2_alg».proof.Proof.GraphSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue2

open Cert.KernelIdeal Cert.KernelIdeal.Gen Idealize.ShloMosaic Idealize.ShloMosaic.TcCoe Idealize.SL.Sem
open Idealize.ShloMosaic.ValueIdx
open Idealize.ShloMosaic.Pipeline (Dat)

/-! ## The stored element -/

/-- The bias row broadcast over the block's rows, at an element: the bias at that column. -/
theorem bias_apply (x3 : Vec Ideal S1x512 .f32) (p : Fin 1000) (q : Fin 512) :
    broadcastTo S1000x512 x3 broadcasts_S1x512_S1000x512 (ix2 p q) = x3 (ix2 (0 : Fin 1) q) :=
  broadcastTo_apply x3 broadcasts_S1x512_S1000x512 (ix2 p q) (ix2 (0 : Fin 1) q) (fun a => match a with
    | ⟨0, _⟩ => by show (0 : Nat) = if (1 : Nat) = 1 then 0 else _; rw [if_pos rfl]
    | ⟨1, _⟩ => by show q.val = if (512 : Nat) = 1 then 0 else q.val; rw [if_neg (by decide)])

/-- The operand indices of the product at output index `i` and contraction index `s`: row `i 0` and column `s` on the
    left, row `s` and column `i 1` on the right. -/
theorem lhs_row (i : S1000x512.Idx) (s : dot_S1000x1024_S1024x512_S1000x512_1_0_0_1_n_n.contr.Idx) : (dot_S1000x1024_S1024x512_S1000x512_1_0_0_1_n_n.lhsIdx i s 0).val = (i 0).val := by
  unfold DotDims.lhsIdx
  rw [dif_neg (show ¬(0 : Fin S1000x1024.rank) ∈ dot_S1000x1024_S1024x512_S1000x512_1_0_0_1_n_n.lhsBatch by decide), dif_pos (show (0 : Fin S1000x1024.rank) ∈ dot_S1000x1024_S1024x512_S1000x512_1_0_0_1_n_n.lhsNonContracting by decide)]
  rfl
theorem lhs_col (i : S1000x512.Idx) (s : dot_S1000x1024_S1024x512_S1000x512_1_0_0_1_n_n.contr.Idx) : (dot_S1000x1024_S1024x512_S1000x512_1_0_0_1_n_n.lhsIdx i s 1).val = (s ⟨0, by decide⟩).val :=
  dot_S1000x1024_S1024x512_S1000x512_1_0_0_1_n_n.lhsIdx_val_of_single rfl i s
theorem rhs_row (i : S1000x512.Idx) (s : dot_S1000x1024_S1024x512_S1000x512_1_0_0_1_n_n.contr.Idx) : (dot_S1000x1024_S1024x512_S1000x512_1_0_0_1_n_n.rhsIdx i s 0).val = (s ⟨0, by decide⟩).val :=
  dot_S1000x1024_S1024x512_S1000x512_1_0_0_1_n_n.rhsIdx_val_of_single rfl i s
theorem rhs_col (i : S1000x512.Idx) (s : dot_S1000x1024_S1024x512_S1000x512_1_0_0_1_n_n.contr.Idx) : (dot_S1000x1024_S1024x512_S1000x512_1_0_0_1_n_n.rhsIdx i s 1).val = (i 1).val := by
  unfold DotDims.rhsIdx
  rw [dif_neg (show ¬(1 : Fin S1024x512.rank) ∈ dot_S1000x1024_S1024x512_S1000x512_1_0_0_1_n_n.rhsBatch by decide), dif_pos (show (1 : Fin S1024x512.rank) ∈ dot_S1000x1024_S1024x512_S1000x512_1_0_0_1_n_n.rhsNonContracting by decide)]
  rfl

/-- The matrix product into a zero accumulator, at an element: the sum over the contraction index of the products. -/
theorem mm_apply (x0 : Vec Ideal S1000x1024 .f32) (x1 : Vec Ideal S1024x512 .f32) (p : Fin 1000) (q : Fin 512) :
    matmul (F := Ideal) dot_S1000x1024_S1024x512_S1000x512_1_0_0_1_n_n none (truncf FTy.bf16 x0 bitsLt_bf16_f32) (truncf FTy.bf16 x1 bitsLt_bf16_f32) (constant S1000x512 FTy.f32 0x00000000#32) (ix2 p q)
      = ∑ k : Fin 1024, x0 (ix2 p k) * x1 (ix2 k q) := by
  simp only [matmul]
  rw [Ideal.matmul_constant_zero_apply, ← Equiv.sum_comp (contrEquiv1 dot_S1000x1024_S1024x512_S1000x512_1_0_0_1_n_n 1024 rfl rfl).symm]
  refine Finset.sum_congr rfl fun k _ => ?_
  have hk := contrEquiv1_symm_val dot_S1000x1024_S1024x512_S1000x512_1_0_0_1_n_n 1024 rfl rfl k
  have el : dot_S1000x1024_S1024x512_S1000x512_1_0_0_1_n_n.lhsIdx (ix2 p q) ((contrEquiv1 dot_S1000x1024_S1024x512_S1000x512_1_0_0_1_n_n 1024 rfl rfl).symm k) = ix2 p k := funext fun a => Fin.ext (by
    match a with
    | ⟨0, _⟩ => exact lhs_row _ _
    | ⟨1, _⟩ => exact (lhs_col _ _).trans hk)
  have er : dot_S1000x1024_S1024x512_S1000x512_1_0_0_1_n_n.rhsIdx (ix2 p q) ((contrEquiv1 dot_S1000x1024_S1024x512_S1000x512_1_0_0_1_n_n 1024 rfl rfl).symm k) = ix2 k q := funext fun a => Fin.ext (by
    match a with
    | ⟨0, _⟩ => exact (rhs_row _ _).trans hk
    | ⟨1, _⟩ => exact rhs_col _ _)
  rw [el, er]
  rfl

/-- The element the body stores at row `p`, column `q` of its block, from the four blocks it loads. -/
theorem pay_apply (x0 : Vec Ideal S1000x1024 .f32) (x1 : Vec Ideal S1024x512 .f32) (x2 : Vec Ideal S1000x512 .f32)
    (x3 : Vec Ideal S1x512 .f32) (p : Fin 1000) (q : Fin 512) :
    k2_pay1 (F := Ideal) x0 x1 x2 x3 (ix2 p q)
      = max (((∑ k : Fin 1024, x0 (ix2 p k) * x1 (ix2 k q)) + x2 (ix2 p q)) + x3 (ix2 (0 : Fin 1) q)) 0 := by
  unfold k2_pay1
  simp only [shapeCast_self]
  rw [maximumf_apply, addf_apply, addf_apply, broadcast_apply, bias_apply, mm_apply]
  show max _ (Ideal.ofBits .f32 0x00000000#32) = _
  rw [Ideal.ofBits_zero_f32]

/-! ## The blocks -/

-- the contents of the arrays when the region is entered
variable (V : (c : Dev nD) → (b : Ref sig .tc) → Buf (Elt Ideal) ((c : Thread nD τ).loc b))

/-- The zero offsets of a whole-block access. -/
theorem hz : (![0, 0] : Fin 2 → Nat) = fun _ => 0 := funext fun a => by fin_cases a <;> rfl

/-- The index maps over the grid: the row-blocked windows sit at block row `t`, the weight and the bias at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Element (p, q) of the block of window 0 at point `t` is the array's element at row `1000 t + p`, column `q`. -/
theorem read0 (G : S20000x512.Idx → EReal) (t : Fin cfg2.N) (p : Fin 1000) (q : Fin 512) (r : Fin 20000)
    (hr : r.val = t.val * 1000 + p.val) :
    ((cfg2.win 0).blk t).view.read (Elt Ideal) G (ix2 p q) = G (ix2 r q) := by
  rw [View.read_apply]
  show G _ = G _
  refine congrArg G (funext fun a => Fin.ext ?_)
  have e0 := (idx_facts t).1
  have e1 := (idx_facts t).2.1
  match a with
  | ⟨0, _⟩ => show win2_0.index t (0 : Fin 2) * 1000 + 1 * p.val = r.val; rw [e0, hr]; omega
  | ⟨1, _⟩ => show win2_0.index t (1 : Fin 2) * 512 + 1 * q.val = q.val; rw [e1]; omega

/-- The same for window 1. -/
theorem read1 (G : S20000x1024.Idx → EReal) (t : Fin cfg2.N) (p : Fin 1000) (q : Fin 1024) (r : Fin 20000)
    (hr : r.val = t.val * 1000 + p.val) :
    ((cfg2.win 1).blk t).view.read (Elt Ideal) G (ix2 p q) = G (ix2 r q) := by
  rw [View.read_apply]
  show G _ = G _
  refine congrArg G (funext fun a => Fin.ext ?_)
  have e0 := (idx_facts t).2.2.1
  have e1 := (idx_facts t).2.2.2.1
  match a with
  | ⟨0, _⟩ => show win2_1.index t (0 : Fin 2) * 1000 + 1 * p.val = r.val; rw [e0, hr]; omega
  | ⟨1, _⟩ => show win2_1.index t (1 : Fin 2) * 1024 + 1 * q.val = q.val; rw [e1]; omega

/-- Window 2's block is its whole array at every point. -/
theorem read2 (G : S1024x512.Idx → EReal) (t : Fin cfg2.N) (p : Fin 1024) (q : Fin 512) :
    ((cfg2.win 2).blk t).view.read (Elt Ideal) G (ix2 p q) = G (ix2 p q) := by
  rw [View.read_apply]
  show G _ = G _
  refine congrArg G (funext fun a => Fin.ext ?_)
  have e0 := (idx_facts t).2.2.2.2.1
  have e1 := (idx_facts t).2.2.2.2.2.1
  match a with
  | ⟨0, _⟩ => show win2_2.index t (0 : Fin 2) * 1024 + 1 * p.val = p.val; rw [e0]; omega
  | ⟨1, _⟩ => show win2_2.index t (1 : Fin 2) * 512 + 1 * q.val = q.val; rw [e1]; omega

/-- Window 3's block is its whole array at every point. -/
theorem read3 (G : S1x512.Idx → EReal) (t : Fin cfg2.N) (p : Fin 1) (q : Fin 512) :
    ((cfg2.win 3).blk t).view.read (Elt Ideal) G (ix2 p q) = G (ix2 p q) := by
  rw [View.read_apply]
  show G _ = G _
  refine congrArg G (funext fun a => Fin.ext ?_)
  have e0 := (idx_facts t).2.2.2.2.2.2.1
  have e1 := (idx_facts t).2.2.2.2.2.2.2.1
  match a with
  | ⟨0, _⟩ => show win2_3.index t (0 : Fin 2) * 1 + 1 * p.val = p.val; rw [e0]; omega
  | ⟨1, _⟩ => show win2_3.index t (1 : Fin 2) * 512 + 1 * q.val = q.val; rw [e1]; omega

/-- Element (p, q) of the output's block at point `t` sits at row `1000 t + p`, column `q` of the array. -/
theorem read4 (G : S20000x512.Idx → EReal) (t : Fin cfg2.N) (p : Fin 1000) (q : Fin 512) (r : Fin 20000)
    (hr : r.val = t.val * 1000 + p.val) :
    ((cfg2.win 4).blk t).view.read (Elt Ideal) G (ix2 p q) = G (ix2 r q) := by
  rw [View.read_apply]
  show G _ = G _
  refine congrArg G (funext fun a => Fin.ext ?_)
  have e0 := (idx_facts t).2.2.2.2.2.2.2.2.1
  have e1 := (idx_facts t).2.2.2.2.2.2.2.2.2
  match a with
  | ⟨0, _⟩ => show win2_4.index t (0 : Fin 2) * 1000 + 1 * p.val = r.val; rw [e0, hr]; omega
  | ⟨1, _⟩ => show win2_4.index t (1 : Fin 2) * 512 + 1 * q.val = q.val; rw [e1]; omega

/-- The array the region leaves in its output: the rectified combination of the aggregate, the root term and the bias. -/
abbrev G (A : S20000x512.Idx → EReal) (X : S20000x1024.Idx → EReal) (W : S1024x512.Idx → EReal) (b : S1x512.Idx → EReal) :
    S20000x512.Idx → EReal :=
  Cert.GraphSpec.unmat (Cert.GraphSpec.combineRelu (Cert.GraphSpec.mat A) (Cert.GraphSpec.mat X) (Cert.GraphSpec.mat W) (Cert.GraphSpec.row1 b))

/-- Row `p` of block `t` is a row of the array. -/
theorem row_lt (t : Fin cfg2.N) (p : Fin 1000) : t.val * 1000 + p.val < 20000 := by
  have ht : t.val < 20 := t.isLt
  have hp := p.isLt
  omega

-- the arrays the five windows are over
example : Pipeline.arrRef spec2 0 = main_v39 := rfl
example : Pipeline.arrRef spec2 1 = main_v26 := rfl
example : Pipeline.arrRef spec2 2 = main_arg7 := rfl
example : Pipeline.arrRef spec2 3 = main_v40 := rfl
example : Pipeline.arrRef spec2 4 = main_v41 := rfl

/-- The four input blocks at point `t`, at an element, as elements of the arrays the region finds. -/
theorem blk0_apply (c : Dev nD) (t : Fin cfg2.N) (p : Fin 1000) (q : Fin 512) (r : Fin 20000) (hr : r.val = t.val * 1000 + p.val) :
    (iblk2 V c 0 t : Vec Ideal S1000x512 .f32) (ix2 p q) = (V c main_v39 : S20000x512.Idx → EReal) (ix2 r q) :=
  read0 (V c main_v39) t p q r hr
theorem blk1_apply (c : Dev nD) (t : Fin cfg2.N) (p : Fin 1000) (q : Fin 1024) (r : Fin 20000) (hr : r.val = t.val * 1000 + p.val) :
    (iblk2 V c 1 t : Vec Ideal S1000x1024 .f32) (ix2 p q) = (V c main_v26 : S20000x1024.Idx → EReal) (ix2 r q) :=
  read1 (V c main_v26) t p q r hr
theorem blk2_apply (c : Dev nD) (t : Fin cfg2.N) (p : Fin 1024) (q : Fin 512) :
    (iblk2 V c 2 t : Vec Ideal S1024x512 .f32) (ix2 p q) = (V c main_arg7 : S1024x512.Idx → EReal) (ix2 p q) :=
  read2 (V c main_arg7) t p q
theorem blk3_apply (c : Dev nD) (t : Fin cfg2.N) (p : Fin 1) (q : Fin 512) :
    (iblk2 V c 3 t : Vec Ideal S1x512 .f32) (ix2 p q) = (V c main_v40 : S1x512.Idx → EReal) (ix2 p q) :=
  read3 (V c main_v40) t p q

/-- What point `t` writes back is block `t` of `G` of the arrays the region finds. -/
theorem flushed_eq (c : Dev nD) (t : Fin cfg2.N) :
    (dat2 (F := Ideal) V c).flushed 4 t
      = ((cfg2.win 4).blk t).view.read (Elt Ideal) (G (V c main_v39) (V c main_v26) (V c main_arg7) (V c main_v40)) := by
  show (cfg2.win 4).cut (grid2.coords t) ((dat2 V c).after 4 t) = _
  rw [after2_4]
  unfold out2_4
  rw [View.canon_unit_zero hz]
  simp only [View.ld_unit_zero (S := S1000x1024) hz, View.ld_unit_zero (S := S1024x512) hz, View.ld_unit_zero (S := S1000x512) hz, View.ld_unit_zero (S := S1x512) hz]
  refine funext fun (j : S1000x512.Idx) => ?_
  obtain ⟨p, q, rfl⟩ : ∃ (p : Fin 1000) (q : Fin 512), j = ix2 p q := ⟨j 0, j 1, eq_ix2 j⟩
  have hr : t.val * 1000 + p.val < 20000 := row_lt t p
  refine Eq.trans ?_ (read4 _ t p q ⟨t.val * 1000 + p.val, hr⟩ rfl).symm
  show k2_pay1 (F := Ideal) (iblk2 V c 1 t) (iblk2 V c 2 t) (iblk2 V c 0 t) (iblk2 V c 3 t) (ix2 p q) = _
  rw [pay_apply, blk0_apply V c t p q ⟨t.val * 1000 + p.val, hr⟩ rfl, blk3_apply V c t 0 q,
    Finset.sum_congr rfl fun k _ => by rw [blk1_apply V c t p k ⟨t.val * 1000 + p.val, hr⟩ rfl, blk2_apply V c t k q]]
  rfl

/-! ## From blocks to the array -/

/-- An index of the array is in point `t`'s block iff each coordinate is in the block's range on its axis. -/
theorem mem_blk (t : Fin cfg2.N) (i : S20000x512.Idx) :
    i ∈ ((cfg2.win 4).blk t).view.set ↔ ∀ a : Fin 2, win2_4.index t a * S1000x512.size a ≤ (i a).val ∧ (i a).val < win2_4.index t a * S1000x512.size a + S1000x512.size a := by
  show i ∈ ((View.whole main_v41).slice (win2_4.rect t)).set ↔ _
  rw [View.set_slice_whole, Rect.mem_set_unit]
  exact Iff.rfl

/-- Row `r` of the array lies in the block of point `r / 1000`: the twenty blocks of a thousand rows tile the array. -/
theorem cover (i : S20000x512.Idx) : ∃ t : Fin cfg2.N, (cfg2.win 4).flush t = true ∧ i ∈ ((cfg2.win 4).blk t).view.set := by
  have hi0 : (i 0).val < 20000 := idx2_lt0 i
  have hi1 : (i 1).val < 512 := idx2_lt1 i
  obtain ⟨t, ht⟩ : ∃ t : Fin cfg2.N, t.val = (i 0).val / 1000 :=
    ⟨⟨(i 0).val / 1000, by rw [show cfg2.N = 20 from N_2]; omega⟩, rfl⟩
  refine ⟨t, flush2_4 t, ?_⟩
  rw [mem_blk]
  have e0 := (idx_facts t).2.2.2.2.2.2.2.2.1
  have e1 := (idx_facts t).2.2.2.2.2.2.2.2.2
  intro a
  match a with
  | ⟨0, _⟩ =>
    show win2_4.index t (0 : Fin 2) * 1000 ≤ (i 0).val ∧ (i 0).val < win2_4.index t (0 : Fin 2) * 1000 + 1000
    rw [e0, ht]; omega
  | ⟨1, _⟩ =>
    show win2_4.index t (1 : Fin 2) * 512 ≤ (i 1).val ∧ (i 1).val < win2_4.index t (1 : Fin 2) * 512 + 512
    rw [e1]; omega

/-- The output array after the region's twenty points: the rectified combination, as one function of the arrays the region finds. -/
theorem final2 (c : Dev nD) :
    ((dat2 (F := Ideal) V c).arrAt 4 cfg2.N : S20000x512.Idx → EReal)
      = Cert.GraphSpec.unmat (Cert.GraphSpec.combineRelu (Cert.GraphSpec.mat (V c main_v39 : S20000x512.Idx → EReal))
          (Cert.GraphSpec.mat (V c main_v26 : S20000x1024.Idx → EReal)) (Cert.GraphSpec.mat (V c main_arg7 : S1024x512.Idx → EReal))
          (Cert.GraphSpec.row1 (V c main_v40 : S1x512.Idx → EReal))) :=
  (dat2 (F := Ideal) V c).arrAt_eq_of_cover 4 (G (V c main_v39) (V c main_v26) (V c main_arg7) (V c main_v40))
    (fun t _ => flushed_eq V c t) cover

end Cert.KernelIdeal.RegionValue2

end
-- ==== Proof.Region3.lean ====
/-
  The third layer's projection, as one matrix product.

  The region multiplies a 20000 × 512 array by a 512 × 16 array, twenty blocks of 1000 rows at a time: each grid
  point loads 1000 rows of the left factor and the whole right factor, forms their product over the extended reals
  (a sum of 512 products per entry, accumulated onto zero) and stores it as the same 1000 rows of the output. Here:
  one point's result entry by entry, the identification of those entries with entries of the whole product, and the
  twenty blocks covering the output, so that after the region the output array IS the product of the input arrays.
-/
import proofs.«122720_j47107201302764_2_alg».proof.Proof.Gen.KernelIdeal.Frame
import proofs.«122720_j47107201302764_2_alg».proof.Proof.GraphSpec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionValue3

open Cert.KernelIdeal Cert.KernelIdeal.Gen Cert.GraphSpec

variable (V : (c : Dev nD) → (b : Ref sig .tc) → Buf (Elt Ideal) ((c : Thread nD τ).loc b))

/-- The zero offsets of a whole block, as the constant function. -/
theorem hz : (![0, 0] : Fin 2 → Nat) = fun _ => 0 := funext fun a => by fin_cases a <;> rfl

/-! ## One block of the product at an entry

The contraction runs over one axis: the second of the left factor, the first of the right factor. The operand indices
of the product at the output entry (p, q) and the contraction coordinate k are therefore (p, k) and (k, q). -/

theorem lhs_0 (i : S1000x16.Idx) (k : dot_S1000x512_S512x16_S1000x16_1_0_0_1_n_n.contr.Idx) : (dot_S1000x512_S512x16_S1000x16_1_0_0_1_n_n.lhsIdx i k 0).val = (i 0).val := by
  unfold DotDims.lhsIdx
  rw [dif_neg (show ¬(0 : Fin S1000x512.rank) ∈ dot_S1000x512_S512x16_S1000x16_1_0_0_1_n_n.lhsBatch by decide), dif_pos (show (0 : Fin S1000x512.rank) ∈ dot_S1000x512_S512x16_S1000x16_1_0_0_1_n_n.lhsNonContracting by decide)]
  rfl
theorem lhs_1 (i : S1000x16.Idx) (k : dot_S1000x512_S512x16_S1000x16_1_0_0_1_n_n.contr.Idx) : (dot_S1000x512_S512x16_S1000x16_1_0_0_1_n_n.lhsIdx i k 1).val = (k ⟨0, by decide⟩).val :=
  dot_S1000x512_S512x16_S1000x16_1_0_0_1_n_n.lhsIdx_val_of_single rfl i k
theorem rhs_0 (i : S1000x16.Idx) (k : dot_S1000x512_S512x16_S1000x16_1_0_0_1_n_n.contr.Idx) : (dot_S1000x512_S512x16_S1000x16_1_0_0_1_n_n.rhsIdx i k 0).val = (k ⟨0, by decide⟩).val :=
  dot_S1000x512_S512x16_S1000x16_1_0_0_1_n_n.rhsIdx_val_of_single rfl i k
theorem rhs_1 (i : S1000x16.Idx) (k : dot_S1000x512_S512x16_S1000x16_1_0_0_1_n_n.contr.Idx) : (dot_S1000x512_S512x16_S1000x16_1_0_0_1_n_n.rhsIdx i k 1).val = (i 1).val := by
  unfold DotDims.rhsIdx
  rw [dif_neg (show ¬(1 : Fin S512x16.rank) ∈ dot_S1000x512_S512x16_S1000x16_1_0_0_1_n_n.rhsBatch by decide), dif_pos (show (1 : Fin S512x16.rank) ∈ dot_S1000x512_S512x16_S1000x16_1_0_0_1_n_n.rhsNonContracting by decide)]
  rfl

/-- The product of two blocks accumulated onto zero, at entry (p, q): the sum over the contracted axis of the
    products of row p of the left block with column q of the right block. -/
theorem matmul_apply (a : FVec Ideal S1000x512 .bf16) (b : FVec Ideal S512x16 .bf16) (p : Fin 1000) (q : Fin 16) :
    FloatOps.matmul dot_S1000x512_S512x16_S1000x16_1_0_0_1_n_n none a b (constant (F := Ideal) S1000x16 .f32 0x00000000#32) (ix2 p q) = ∑ k : Fin 512, a (ix2 p k) * b (ix2 k q) := by
  rw [Ideal.matmul_constant_zero_apply, ← Equiv.sum_comp (contrEquiv1 dot_S1000x512_S512x16_S1000x16_1_0_0_1_n_n 512 rfl rfl).symm]
  refine Finset.sum_congr rfl fun k _ => ?_
  have hk := contrEquiv1_symm_val dot_S1000x512_S512x16_S1000x16_1_0_0_1_n_n 512 rfl rfl k
  have el : dot_S1000x512_S512x16_S1000x16_1_0_0_1_n_n.lhsIdx (ix2 p q) ((contrEquiv1 dot_S1000x512_S512x16_S1000x16_1_0_0_1_n_n 512 rfl rfl).symm k) = ix2 p k := funext fun a => Fin.ext (by
    match a with
    | ⟨0, _⟩ => exact lhs_0 _ _
    | ⟨1, _⟩ => exact (lhs_1 _ _).trans hk)
  have er : dot_S1000x512_S512x16_S1000x16_1_0_0_1_n_n.rhsIdx (ix2 p q) ((contrEquiv1 dot_S1000x512_S512x16_S1000x16_1_0_0_1_n_n 512 rfl rfl).symm k) = ix2 k q := funext fun a => Fin.ext (by
    match a with
    | ⟨0, _⟩ => exact (rhs_0 _ _).trans hk
    | ⟨1, _⟩ => exact rhs_1 _ _)
  rw [el, er]

/-- What one grid point computes from its two loaded blocks, at entry (p, q): over the extended reals the
    narrowing of the operands to the shorter format changes nothing, so it is the plain sum of products. -/
theorem pay_apply (x0 : Vec Ideal S1000x512 .f32) (x1 : Vec Ideal S512x16 .f32) (p : Fin 1000) (q : Fin 16) :
    k3_pay1 (F := Ideal) x0 x1 (ix2 p q) = ∑ k : Fin 512, x0 (ix2 p k) * x1 (ix2 k q) := by
  unfold k3_pay1
  simp only [matmul, shapeCast_self]
  rw [matmul_apply]
  rfl

/-! ## From the blocks to the array

Grid point t works on rows 1000·t … 1000·t + 999: the left factor's and the output's windows move down their arrays
by one block of 1000 rows per point and span all columns; the right factor's window is its whole array at every point. -/

/-- The block indices of the three windows at point t, decided over the twenty points. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The whole output: the matrix product of the two input arrays as the region finds them. -/
abbrev G (c : Dev nD) : S20000x16.Idx → EReal :=
  unmat (proj (mat (V c main_v41 : S20000x512.Idx → EReal)) (mat (V c main_v42 : S512x16.Idx → EReal)))

/-- The product at an index of the output array, spelt out. -/
theorem G_apply (A : S20000x512.Idx → EReal) (B : S512x16.Idx → EReal) (i : S20000x16.Idx) :
    unmat (proj (mat A) (mat B)) i = ∑ k : Fin 512, A (ix2 (i 0) k) * B (ix2 k (i 1)) := rfl

/-- Equal indices, equal products. -/
theorem term_eq (A : S20000x512.Idx → EReal) (B : S512x16.Idx → EReal) (a a' : S20000x512.Idx) (b b' : S512x16.Idx)
    (ha : a = a') (hb : b = b') : A a * B b = A a' * B b' := by rw [ha, hb]

/-- What point t writes back is block t of the whole product: entry (p, q) of the point's result sums over k the
    left array at row 1000·t + p, column k, times the right array at (k, q) — and row 1000·t + p is the row of the
    output array that entry (p, q) of block t is stored to. -/
theorem flushed_eq (c : Dev nD) (t : Fin cfg3.N) :
    (dat3 (F := Ideal) V c).flushed 2 t = ((cfg3.win 2).blk t).view.read (Elt Ideal) (G V c) := by
  show (cfg3.win 2).cut (grid3.coords t) ((dat3 (F := Ideal) V c).after 2 t) = _
  rw [after3_2]
  unfold out3_2
  rw [View.canon_unit_zero hz]
  simp only [View.ld_unit_zero (S := S1000x512) hz, View.ld_unit_zero (S := S512x16) hz]
  obtain ⟨e0, e1, e2, e3, e4, e5⟩ := idx_facts t
  funext (j : S1000x16.Idx)
  obtain ⟨p, q, rfl⟩ : ∃ (p : Fin 1000) (q : Fin 16), j = ix2 p q := ⟨j 0, j 1, eq_ix2 j⟩
  show k3_pay1 (F := Ideal) (iblk3 V c 0 t) (iblk3 V c 1 t) (ix2 p q) = G V c (((cfg3.win 2).blk t).view.emb (ix2 p q))
  refine (pay_apply (iblk3 V c 0 t) (iblk3 V c 1 t) p q).trans ?_
  refine Eq.trans ?_ (G_apply (V c main_v41) (V c main_v42) (((cfg3.win 2).blk t).view.emb (ix2 p q))).symm
  refine Finset.sum_congr rfl fun k _ => ?_
  have h0 : ((cfg3.win 0).blk t).view.emb (ix2 p k) = ix2 ((((cfg3.win 2).blk t).view.emb (ix2 p q)) 0) k := by
    funext a; apply Fin.ext
    match a with
    | ⟨0, _⟩ => show win3_0.index t (0 : Fin 2) * 1000 + 1 * p.val = win3_2.index t (0 : Fin 2) * 1000 + 1 * p.val; omega
    | ⟨1, _⟩ => show win3_0.index t (1 : Fin 2) * 512 + 1 * k.val = k.val; omega
  have h1 : ((cfg3.win 1).blk t).view.emb (ix2 k q) = ix2 k ((((cfg3.win 2).blk t).view.emb (ix2 p q)) 1) := by
    funext a; apply Fin.ext
    match a with
    | ⟨0, _⟩ => show win3_1.index t (0 : Fin 2) * 512 + 1 * k.val = k.val; omega
    | ⟨1, _⟩ => show win3_1.index t (1 : Fin 2) * 16 + 1 * q.val = win3_2.index t (1 : Fin 2) * 16 + 1 * q.val; omega
  exact term_eq (V c main_v41) (V c main_v42) _ _ _ _ h0 h1

/-- An index of the output array lies in point t's block iff each coordinate lies in the block's range on its axis. -/
theorem mem_blk (t : Fin cfg3.N) (i : S20000x16.Idx) :
    i ∈ ((cfg3.win 2).blk t).view.set ↔ ∀ a : Fin 2, win3_2.index t a * S1000x16.size a ≤ (i a).val ∧ (i a).val < win3_2.index t a * S1000x16.size a + S1000x16.size a := by
  show i ∈ ((View.whole main_v45).slice (win3_2.rect t)).set ↔ _
  rw [View.set_slice_whole, Rect.mem_set_unit]
  exact Iff.rfl

/-- The twenty blocks tile the output array: row r lies in the block of point r / 1000. -/
theorem cover (i : S20000x16.Idx) : ∃ t : Fin cfg3.N, (cfg3.win 2).flush t = true ∧ i ∈ ((cfg3.win 2).blk t).view.set := by
  have hi0 : (i 0).val < 20000 := (i 0).isLt
  have hi1 : (i 1).val < 16 := (i 1).isLt
  have hN : cfg3.N = 20 := N_3
  let t : Fin cfg3.N := ⟨(i 0).val / 1000, by rw [hN]; omega⟩
  obtain ⟨e0, e1, e2, e3, e4, e5⟩ := idx_facts t
  refine ⟨t, flush3_2 t, ?_⟩
  rw [mem_blk]
  have ht : t.val = (i 0).val / 1000 := rfl
  intro a
  match a with
  | ⟨0, _⟩ => show win3_2.index t (0 : Fin 2) * 1000 ≤ (i 0).val ∧ (i 0).val < win3_2.index t (0 : Fin 2) * 1000 + 1000; omega
  | ⟨1, _⟩ => show win3_2.index t (1 : Fin 2) * 16 ≤ (i 1).val ∧ (i 1).val < win3_2.index t (1 : Fin 2) * 16 + 16; omega

/-- After its twenty points the region's output array is the matrix product of its two input arrays. -/
theorem final3 (c : Dev nD) : ((dat3 (F := Ideal) V c).arrAt 2 cfg3.N : S20000x16.Idx → EReal)
    = unmat (proj (mat (V c main_v41 : S20000x512.Idx → EReal)) (mat (V c main_v42 : S512x16.Idx → EReal))) :=
  (dat3 (F := Ideal) V c).arrAt_eq_of_cover 2 (G V c) (fun t _ => flushed_eq V c t) cover

end Cert.KernelIdeal.RegionValue3

end
-- ==== Proof.Region4.lean ====
/-
  Region 4 of the idealized kernel (regions are numbered from 0: the second of the two combine steps), read as one
  function of whole arrays.

  The region walks the 20000 rows in twenty blocks of a thousand. At block `t` it holds rows `1000 t … 1000 t + 999` of the
  aggregate `A` ([20000, 16]) and of the features `X` ([20000, 512]), the whole root weight `W` ([512, 16]) and the whole
  bias row `b` ([1, 16]), and stores, at row `p` and column `q` of the block,
      (Σ_k X[1000 t + p, k] · W[k, q] + A[1000 t + p, q]) + b[0, q] .
  Over the extended reals the narrowing of the two factors is the identity and the product accumulates into zero, so the stored
  element is exactly that expression (`pay_apply`). Each block read is the array at the block's rows (`read0` … `read4`), so what
  point `t` writes back is block `t` of ONE array `G` (`flushed_eq`); the twenty blocks tile the rows (`cover`: row `r` lies in
  block `r / 1000`), hence the output array ends holding `G` (`final4`), which is `combine` of the four arrays as matrices.
-/
import proofs.«122720_j47107201302764_2_alg».proof.Proof.Gen.KernelIdeal.Frame
import proofs.«122720_j47107201302764_2_alg».proof.Proof.GraphSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue4

open Cert.KernelIdeal Cert.KernelIdeal.Gen Idealize.ShloMosaic Idealize.ShloMosaic.TcCoe Idealize.SL.Sem
open Idealize.ShloMosaic.ValueIdx
open Idealize.ShloMosaic.Pipeline (Dat)

/-! ## The stored element -/

/-- The bias row broadcast over the block's rows, at an element: the bias at that column. -/
theorem bias_apply (x3 : Vec Ideal S1x16 .f32) (p : Fin 1000) (q : Fin 16) :
    broadcastTo S1000x16 x3 broadcasts_S1x16_S1000x16 (ix2 p q) = x3 (ix2 (0 : Fin 1) q) :=
  broadcastTo_apply x3 broadcasts_S1x16_S1000x16 (ix2 p q) (ix2 (0 : Fin 1) q) (fun a => match a with
    | ⟨0, _⟩ => by show (0 : Nat) = if (1 : Nat) = 1 then 0 else _; rw [if_pos rfl]
    | ⟨1, _⟩ => by show q.val = if (16 : Nat) = 1 then 0 else q.val; rw [if_neg (by decide)])

/-- The operand indices of the product at output index `i` and contraction index `s`: row `i 0` and column `s` on the
    left, row `s` and column `i 1` on the right. -/
theorem lhs_row (i : S1000x16.Idx) (s : dot_S1000x512_S512x16_S1000x16_1_0_0_1_n_n.contr.Idx) : (dot_S1000x512_S512x16_S1000x16_1_0_0_1_n_n.lhsIdx i s 0).val = (i 0).val := by
  unfold DotDims.lhsIdx
  rw [dif_neg (show ¬(0 : Fin S1000x512.rank) ∈ dot_S1000x512_S512x16_S1000x16_1_0_0_1_n_n.lhsBatch by decide), dif_pos (show (0 : Fin S1000x512.rank) ∈ dot_S1000x512_S512x16_S1000x16_1_0_0_1_n_n.lhsNonContracting by decide)]
  rfl
theorem lhs_col (i : S1000x16.Idx) (s : dot_S1000x512_S512x16_S1000x16_1_0_0_1_n_n.contr.Idx) : (dot_S1000x512_S512x16_S1000x16_1_0_0_1_n_n.lhsIdx i s 1).val = (s ⟨0, by decide⟩).val :=
  dot_S1000x512_S512x16_S1000x16_1_0_0_1_n_n.lhsIdx_val_of_single rfl i s
theorem rhs_row (i : S1000x16.Idx) (s : dot_S1000x512_S512x16_S1000x16_1_0_0_1_n_n.contr.Idx) : (dot_S1000x512_S512x16_S1000x16_1_0_0_1_n_n.rhsIdx i s 0).val = (s ⟨0, by decide⟩).val :=
  dot_S1000x512_S512x16_S1000x16_1_0_0_1_n_n.rhsIdx_val_of_single rfl i s
theorem rhs_col (i : S1000x16.Idx) (s : dot_S1000x512_S512x16_S1000x16_1_0_0_1_n_n.contr.Idx) : (dot_S1000x512_S512x16_S1000x16_1_0_0_1_n_n.rhsIdx i s 1).val = (i 1).val := by
  unfold DotDims.rhsIdx
  rw [dif_neg (show ¬(1 : Fin S512x16.rank) ∈ dot_S1000x512_S512x16_S1000x16_1_0_0_1_n_n.rhsBatch by decide), dif_pos (show (1 : Fin S512x16.rank) ∈ dot_S1000x512_S512x16_S1000x16_1_0_0_1_n_n.rhsNonContracting by decide)]
  rfl

/-- The matrix product into a zero accumulator, at an element: the sum over the contraction index of the products. -/
theorem mm_apply (x0 : Vec Ideal S1000x512 .f32) (x1 : Vec Ideal S512x16 .f32) (p : Fin 1000) (q : Fin 16) :
    matmul (F := Ideal) dot_S1000x512_S512x16_S1000x16_1_0_0_1_n_n none (truncf FTy.bf16 x0 bitsLt_bf16_f32) (truncf FTy.bf16 x1 bitsLt_bf16_f32) (constant S1000x16 FTy.f32 0x00000000#32) (ix2 p q)
      = ∑ k : Fin 512, x0 (ix2 p k) * x1 (ix2 k q) := by
  simp only [matmul]
  rw [Ideal.matmul_constant_zero_apply, ← Equiv.sum_comp (contrEquiv1 dot_S1000x512_S512x16_S1000x16_1_0_0_1_n_n 512 rfl rfl).symm]
  refine Finset.sum_congr rfl fun k _ => ?_
  have hk := contrEquiv1_symm_val dot_S1000x512_S512x16_S1000x16_1_0_0_1_n_n 512 rfl rfl k
  have el : dot_S1000x512_S512x16_S1000x16_1_0_0_1_n_n.lhsIdx (ix2 p q) ((contrEquiv1 dot_S1000x512_S512x16_S1000x16_1_0_0_1_n_n 512 rfl rfl).symm k) = ix2 p k := funext fun a => Fin.ext (by
    match a with
    | ⟨0, _⟩ => exact lhs_row _ _
    | ⟨1, _⟩ => exact (lhs_col _ _).trans hk)
  have er : dot_S1000x512_S512x16_S1000x16_1_0_0_1_n_n.rhsIdx (ix2 p q) ((contrEquiv1 dot_S1000x512_S512x16_S1000x16_1_0_0_1_n_n 512 rfl rfl).symm k) = ix2 k q := funext fun a => Fin.ext (by
    match a with
    | ⟨0, _⟩ => exact (rhs_row _ _).trans hk
    | ⟨1, _⟩ => exact rhs_col _ _)
  rw [el, er]
  rfl

/-- The element the body stores at row `p`, column `q` of its block, from the four blocks it loads. -/
theorem pay_apply (x0 : Vec Ideal S1000x512 .f32) (x1 : Vec Ideal S512x16 .f32) (x2 : Vec Ideal S1000x16 .f32)
    (x3 : Vec Ideal S1x16 .f32) (p : Fin 1000) (q : Fin 16) :
    k4_pay1 (F := Ideal) x0 x1 x2 x3 (ix2 p q)
      = ((∑ k : Fin 512, x0 (ix2 p k) * x1 (ix2 k q)) + x2 (ix2 p q)) + x3 (ix2 (0 : Fin 1) q) := by
  unfold k4_pay1
  simp only [shapeCast_self]
  rw [addf_apply, addf_apply, bias_apply, mm_apply]

/-! ## The blocks -/

-- the contents of the arrays when the region is entered
variable (V : (c : Dev nD) → (b : Ref sig .tc) → Buf (Elt Ideal) ((c : Thread nD τ).loc b))

/-- The zero offsets of a whole-block access. -/
theorem hz : (![0, 0] : Fin 2 → Nat) = fun _ => 0 := funext fun a => by fin_cases a <;> rfl

/-- The index maps over the grid: the row-blocked windows sit at block row `t`, the weight and the bias at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Element (p, q) of the block of window 0 at point `t` is the array's element at row `1000 t + p`, column `q`. -/
theorem read0 (G : S20000x16.Idx → EReal) (t : Fin cfg4.N) (p : Fin 1000) (q : Fin 16) (r : Fin 20000)
    (hr : r.val = t.val * 1000 + p.val) :
    ((cfg4.win 0).blk t).view.read (Elt Ideal) G (ix2 p q) = G (ix2 r q) := by
  rw [View.read_apply]
  show G _ = G _
  refine congrArg G (funext fun a => Fin.ext ?_)
  have e0 := (idx_facts t).1
  have e1 := (idx_facts t).2.1
  match a with
  | ⟨0, _⟩ => show win4_0.index t (0 : Fin 2) * 1000 + 1 * p.val = r.val; rw [e0, hr]; omega
  | ⟨1, _⟩ => show win4_0.index t (1 : Fin 2) * 16 + 1 * q.val = q.val; rw [e1]; omega

/-- The same for window 1. -/
theorem read1 (G : S20000x512.Idx → EReal) (t : Fin cfg4.N) (p : Fin 1000) (q : Fin 512) (r : Fin 20000)
    (hr : r.val = t.val * 1000 + p.val) :
    ((cfg4.win 1).blk t).view.read (Elt Ideal) G (ix2 p q) = G (ix2 r q) := by
  rw [View.read_apply]
  show G _ = G _
  refine congrArg G (funext fun a => Fin.ext ?_)
  have e0 := (idx_facts t).2.2.1
  have e1 := (idx_facts t).2.2.2.1
  match a with
  | ⟨0, _⟩ => show win4_1.index t (0 : Fin 2) * 1000 + 1 * p.val = r.val; rw [e0, hr]; omega
  | ⟨1, _⟩ => show win4_1.index t (1 : Fin 2) * 512 + 1 * q.val = q.val; rw [e1]; omega

/-- Window 2's block is its whole array at every point. -/
theorem read2 (G : S512x16.Idx → EReal) (t : Fin cfg4.N) (p : Fin 512) (q : Fin 16) :
    ((cfg4.win 2).blk t).view.read (Elt Ideal) G (ix2 p q) = G (ix2 p q) := by
  rw [View.read_apply]
  show G _ = G _
  refine congrArg G (funext fun a => Fin.ext ?_)
  have e0 := (idx_facts t).2.2.2.2.1
  have e1 := (idx_facts t).2.2.2.2.2.1
  match a with
  | ⟨0, _⟩ => show win4_2.index t (0 : Fin 2) * 512 + 1 * p.val = p.val; rw [e0]; omega
  | ⟨1, _⟩ => show win4_2.index t (1 : Fin 2) * 16 + 1 * q.val = q.val; rw [e1]; omega

/-- Window 3's block is its whole array at every point. -/
theorem read3 (G : S1x16.Idx → EReal) (t : Fin cfg4.N) (p : Fin 1) (q : Fin 16) :
    ((cfg4.win 3).blk t).view.read (Elt Ideal) G (ix2 p q) = G (ix2 p q) := by
  rw [View.read_apply]
  show G _ = G _
  refine congrArg G (funext fun a => Fin.ext ?_)
  have e0 := (idx_facts t).2.2.2.2.2.2.1
  have e1 := (idx_facts t).2.2.2.2.2.2.2.1
  match a with
  | ⟨0, _⟩ => show win4_3.index t (0 : Fin 2) * 1 + 1 * p.val = p.val; rw [e0]; omega
  | ⟨1, _⟩ => show win4_3.index t (1 : Fin 2) * 16 + 1 * q.val = q.val; rw [e1]; omega

/-- Element (p, q) of the output's block at point `t` sits at row `1000 t + p`, column `q` of the array. -/
theorem read4 (G : S20000x16.Idx → EReal) (t : Fin cfg4.N) (p : Fin 1000) (q : Fin 16) (r : Fin 20000)
    (hr : r.val = t.val * 1000 + p.val) :
    ((cfg4.win 4).blk t).view.read (Elt Ideal) G (ix2 p q) = G (ix2 r q) := by
  rw [View.read_apply]
  show G _ = G _
  refine congrArg G (funext fun a => Fin.ext ?_)
  have e0 := (idx_facts t).2.2.2.2.2.2.2.2.1
  have e1 := (idx_facts t).2.2.2.2.2.2.2.2.2
  match a with
  | ⟨0, _⟩ => show win4_4.index t (0 : Fin 2) * 1000 + 1 * p.val = r.val; rw [e0, hr]; omega
  | ⟨1, _⟩ => show win4_4.index t (1 : Fin 2) * 16 + 1 * q.val = q.val; rw [e1]; omega

/-- The array the region leaves in its output: the combination of the aggregate, the root term and the bias. -/
abbrev G (A : S20000x16.Idx → EReal) (X : S20000x512.Idx → EReal) (W : S512x16.Idx → EReal) (b : S1x16.Idx → EReal) :
    S20000x16.Idx → EReal :=
  Cert.GraphSpec.unmat (Cert.GraphSpec.combine (Cert.GraphSpec.mat A) (Cert.GraphSpec.mat X) (Cert.GraphSpec.mat W) (Cert.GraphSpec.row1 b))

/-- Row `p` of block `t` is a row of the array. -/
theorem row_lt (t : Fin cfg4.N) (p : Fin 1000) : t.val * 1000 + p.val < 20000 := by
  have ht : t.val < 20 := t.isLt
  have hp := p.isLt
  omega

-- the arrays the five windows are over
example : Pipeline.arrRef spec4 0 = main_v57 := rfl
example : Pipeline.arrRef spec4 1 = main_v41 := rfl
example : Pipeline.arrRef spec4 2 = main_v43 := rfl
example : Pipeline.arrRef spec4 3 = main_v58 := rfl
example : Pipeline.arrRef spec4 4 = main_v59 := rfl

/-- The four input blocks at point `t`, at an element, as elements of the arrays the region finds. -/
theorem blk0_apply (c : Dev nD) (t : Fin cfg4.N) (p : Fin 1000) (q : Fin 16) (r : Fin 20000) (hr : r.val = t.val * 1000 + p.val) :
    (iblk4 V c 0 t : Vec Ideal S1000x16 .f32) (ix2 p q) = (V c main_v57 : S20000x16.Idx → EReal) (ix2 r q) :=
  read0 (V c main_v57) t p q r hr
theorem blk1_apply (c : Dev nD) (t : Fin cfg4.N) (p : Fin 1000) (q : Fin 512) (r : Fin 20000) (hr : r.val = t.val * 1000 + p.val) :
    (iblk4 V c 1 t : Vec Ideal S1000x512 .f32) (ix2 p q) = (V c main_v41 : S20000x512.Idx → EReal) (ix2 r q) :=
  read1 (V c main_v41) t p q r hr
theorem blk2_apply (c : Dev nD) (t : Fin cfg4.N) (p : Fin 512) (q : Fin 16) :
    (iblk4 V c 2 t : Vec Ideal S512x16 .f32) (ix2 p q) = (V c main_v43 : S512x16.Idx → EReal) (ix2 p q) :=
  read2 (V c main_v43) t p q
theorem blk3_apply (c : Dev nD) (t : Fin cfg4.N) (p : Fin 1) (q : Fin 16) :
    (iblk4 V c 3 t : Vec Ideal S1x16 .f32) (ix2 p q) = (V c main_v58 : S1x16.Idx → EReal) (ix2 p q) :=
  read3 (V c main_v58) t p q

/-- What point `t` writes back is block `t` of `G` of the arrays the region finds. -/
theorem flushed_eq (c : Dev nD) (t : Fin cfg4.N) :
    (dat4 (F := Ideal) V c).flushed 4 t
      = ((cfg4.win 4).blk t).view.read (Elt Ideal) (G (V c main_v57) (V c main_v41) (V c main_v43) (V c main_v58)) := by
  show (cfg4.win 4).cut (grid4.coords t) ((dat4 V c).after 4 t) = _
  rw [after4_4]
  unfold out4_4
  rw [View.canon_unit_zero hz]
  simp only [View.ld_unit_zero (S := S1000x512) hz, View.ld_unit_zero (S := S512x16) hz, View.ld_unit_zero (S := S1000x16) hz, View.ld_unit_zero (S := S1x16) hz]
  refine funext fun (j : S1000x16.Idx) => ?_
  obtain ⟨p, q, rfl⟩ : ∃ (p : Fin 1000) (q : Fin 16), j = ix2 p q := ⟨j 0, j 1, eq_ix2 j⟩
  have hr : t.val * 1000 + p.val < 20000 := row_lt t p
  refine Eq.trans ?_ (read4 _ t p q ⟨t.val * 1000 + p.val, hr⟩ rfl).symm
  show k4_pay1 (F := Ideal) (iblk4 V c 1 t) (iblk4 V c 2 t) (iblk4 V c 0 t) (iblk4 V c 3 t) (ix2 p q) = _
  rw [pay_apply, blk0_apply V c t p q ⟨t.val * 1000 + p.val, hr⟩ rfl, blk3_apply V c t 0 q,
    Finset.sum_congr rfl fun k _ => by rw [blk1_apply V c t p k ⟨t.val * 1000 + p.val, hr⟩ rfl, blk2_apply V c t k q]]
  rfl

/-! ## From blocks to the array -/

/-- An index of the array is in point `t`'s block iff each coordinate is in the block's range on its axis. -/
theorem mem_blk (t : Fin cfg4.N) (i : S20000x16.Idx) :
    i ∈ ((cfg4.win 4).blk t).view.set ↔ ∀ a : Fin 2, win4_4.index t a * S1000x16.size a ≤ (i a).val ∧ (i a).val < win4_4.index t a * S1000x16.size a + S1000x16.size a := by
  show i ∈ ((View.whole main_v59).slice (win4_4.rect t)).set ↔ _
  rw [View.set_slice_whole, Rect.mem_set_unit]
  exact Iff.rfl

/-- Row `r` of the array lies in the block of point `r / 1000`: the twenty blocks of a thousand rows tile the array. -/
theorem cover (i : S20000x16.Idx) : ∃ t : Fin cfg4.N, (cfg4.win 4).flush t = true ∧ i ∈ ((cfg4.win 4).blk t).view.set := by
  have hi0 : (i 0).val < 20000 := idx2_lt0 i
  have hi1 : (i 1).val < 16 := idx2_lt1 i
  obtain ⟨t, ht⟩ : ∃ t : Fin cfg4.N, t.val = (i 0).val / 1000 :=
    ⟨⟨(i 0).val / 1000, by rw [show cfg4.N = 20 from N_4]; omega⟩, rfl⟩
  refine ⟨t, flush4_4 t, ?_⟩
  rw [mem_blk]
  have e0 := (idx_facts t).2.2.2.2.2.2.2.2.1
  have e1 := (idx_facts t).2.2.2.2.2.2.2.2.2
  intro a
  match a with
  | ⟨0, _⟩ =>
    show win4_4.index t (0 : Fin 2) * 1000 ≤ (i 0).val ∧ (i 0).val < win4_4.index t (0 : Fin 2) * 1000 + 1000
    rw [e0, ht]; omega
  | ⟨1, _⟩ =>
    show win4_4.index t (1 : Fin 2) * 16 ≤ (i 1).val ∧ (i 1).val < win4_4.index t (1 : Fin 2) * 16 + 16
    rw [e1]; omega

/-- The output array after the region's twenty points: the combination, as one function of the arrays the region finds. -/
theorem final4 (c : Dev nD) :
    ((dat4 (F := Ideal) V c).arrAt 4 cfg4.N : S20000x16.Idx → EReal)
      = Cert.GraphSpec.unmat (Cert.GraphSpec.combine (Cert.GraphSpec.mat (V c main_v57 : S20000x16.Idx → EReal))
          (Cert.GraphSpec.mat (V c main_v41 : S20000x512.Idx → EReal)) (Cert.GraphSpec.mat (V c main_v43 : S512x16.Idx → EReal))
          (Cert.GraphSpec.row1 (V c main_v58 : S1x16.Idx → EReal))) :=
  (dat4 (F := Ideal) V c).arrAt_eq_of_cover 4 (G (V c main_v57) (V c main_v41) (V c main_v43) (V c main_v58))
    (fun t _ => flushed_eq V c t) cover

end Cert.KernelIdeal.RegionValue4

end
-- ==== Proof.KernelValue.lean ====
/-
  The idealized kernel's two results as closed terms of the fourteen argument arrays.

  The buffers' contents are folded through @main's ten segments (`W0` … `W10`, the generated frame). Walking that fold
  backwards from a result: a host stretch leaves in a buffer it writes the host function of what it found
  (KernelHostReads), and leaves every other buffer alone (`passK`); a region leaves in its output array the region's
  whole-array function of its input arrays as it found them (`finalK` of the five region modules), its input arrays
  unchanged, and every other buffer alone. Composed:

    h1  = relu-layer 1:  convP (mean of x) x w1_rel b1 w1_root                        (region 0)
    p2  = h1 · w2_rel                                                                  (region 1)
    h2  = combineRelu (mean of p2) h1 w2_root b2                                       (region 2)
    p3  = h2 · [wmu_rel | wls_rel]                                                     (region 3)
    out = combine (mean of p3) h2 [wmu_root | wls_root] [bmu | bls]                    (region 4)

  and the results are the left and right halves of `out`.
-/
import proofs.«122720_j47107201302764_2_alg».proof.Proof.KernelHostReads
import proofs.«122720_j47107201302764_2_alg».proof.Proof.KernelRun
import proofs.«122720_j47107201302764_2_alg».proof.Proof.Region0
import proofs.«122720_j47107201302764_2_alg».proof.Proof.Region1
import proofs.«122720_j47107201302764_2_alg».proof.Proof.Region2
import proofs.«122720_j47107201302764_2_alg».proof.Proof.Region3
import proofs.«122720_j47107201302764_2_alg».proof.Proof.Region4

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.HostValue Cert.GraphSpec

/-! ## The layers, as functions of the argument arrays -/

section Terms
variable (a0 : FVec Ideal S20000x128 .f32) (a1 : IVec S2x160000 32)
  (a2 : FVec Ideal S128x1024 .f32) (a3 : FVec Ideal S1024 .f32) (a4 : FVec Ideal S128x1024 .f32)
  (a5 : FVec Ideal S1024x512 .f32) (a6 : FVec Ideal S512 .f32) (a7 : FVec Ideal S1024x512 .f32)
  (a8 : FVec Ideal S512x8 .f32) (a9 : FVec Ideal S8 .f32) (a10 : FVec Ideal S512x8 .f32)
  (a11 : FVec Ideal S512x8 .f32) (a12 : FVec Ideal S8 .f32) (a13 : FVec Ideal S512x8 .f32)

/-- Layer 1's rectified output. -/
def h1 : FVec Ideal S20000x1024 .f32 :=
  unmat (convP (mat (mean128 (dstRaw a1) (srcRaw a1) (dcol (dstRaw a1)) a0)) (mat a0) (mat a2) (row1 (biasRow1024 a3)) (mat a4))

/-- Layer 2's projection, before the aggregation. -/
def p2 : FVec Ideal S20000x512 .f32 := unmat (proj (mat (h1 a0 a1 a2 a3 a4)) (mat a5))

/-- Layer 2's rectified output. -/
def h2 : FVec Ideal S20000x512 .f32 :=
  unmat (combineRelu (mat (mean512 (dstRaw a1) (srcRaw a1) (dcol (dstRaw a1)) (p2 a0 a1 a2 a3 a4 a5)))
    (mat (h1 a0 a1 a2 a3 a4)) (mat a7) (row1 (biasRow512 a6)))

/-- The two heads' projection, side by side. -/
def p3 : FVec Ideal S20000x16 .f32 := unmat (proj (mat (h2 a0 a1 a2 a3 a4 a5 a6 a7)) (mat (cat2 a8 a11)))

/-- The two heads, side by side. -/
def out : FVec Ideal S20000x16 .f32 :=
  unmat (combine (mat (mean16 (dstRaw a1) (srcRaw a1) (dcol (dstRaw a1)) (p3 a0 a1 a2 a3 a4 a5 a6 a7 a8 a11)))
    (mat (h2 a0 a1 a2 a3 a4 a5 a6 a7)) (mat (cat2 a10 a13)) (row1 (biasRow16 (cat1 a9 a12))))

end Terms

variable (m : (ℓ : Loc nD τ sig) → Buf (Elt Ideal) ℓ) (ρ : Dev nD → PrngReg) (c : Dev nD)

/-! ## Buffers nothing touches up to a boundary -/

/-- Up to region 0's entry. -/
theorem keep1 (r : Ref sig .tc) (h0 : r ∉ wr0) : W1 m ρ c (Proc.devRef .tc r) = W0 m ρ c (Proc.devRef .tc r) :=
  pass0 (W0 m ρ c) r h0

/-- Up to region 1's entry. -/
theorem keep2 (r : Ref sig .tc) (h0 : r ∉ wr0) (h1 : ∀ w, Pipeline.arrRef spec0 w ≠ r) :
    W2 m ρ c (Proc.devRef .tc r) = W0 m ρ c (Proc.devRef .tc r) :=
  (W2_of_ne m ρ c r h1).trans (keep1 m ρ c r h0)

/-- Up to region 1's exit. -/
theorem keep3 (r : Ref sig .tc) (h0 : r ∉ wr0) (h1 : ∀ w, Pipeline.arrRef spec0 w ≠ r) (h2 : ∀ w, Pipeline.arrRef spec1 w ≠ r) :
    W3 m ρ c (Proc.devRef .tc r) = W0 m ρ c (Proc.devRef .tc r) :=
  (W3_of_ne m ρ c r h2).trans (keep2 m ρ c r h0 h1)

/-- Up to region 2's entry. -/
theorem keep4 (r : Ref sig .tc) (h0 : r ∉ wr0) (h1 : ∀ w, Pipeline.arrRef spec0 w ≠ r) (h2 : ∀ w, Pipeline.arrRef spec1 w ≠ r)
    (h3 : r ∉ wr2) : W4 m ρ c (Proc.devRef .tc r) = W0 m ρ c (Proc.devRef .tc r) :=
  (pass2 (W3 m ρ c) r h3).trans (keep3 m ρ c r h0 h1 h2)

/-- Up to region 2's exit. -/
theorem keep5 (r : Ref sig .tc) (h0 : r ∉ wr0) (h1 : ∀ w, Pipeline.arrRef spec0 w ≠ r) (h2 : ∀ w, Pipeline.arrRef spec1 w ≠ r)
    (h3 : r ∉ wr2) (h4 : ∀ w, Pipeline.arrRef spec2 w ≠ r) : W5 m ρ c (Proc.devRef .tc r) = W0 m ρ c (Proc.devRef .tc r) :=
  (W5_of_ne m ρ c r h4).trans (keep4 m ρ c r h0 h1 h2 h3)

/-- From region 0's entry to region 1's exit (the edge lists and the degree column, which the first stretch wrote). -/
theorem keep31 (r : Ref sig .tc) (h1 : ∀ w, Pipeline.arrRef spec0 w ≠ r) (h2 : ∀ w, Pipeline.arrRef spec1 w ≠ r) :
    W3 m ρ c (Proc.devRef .tc r) = W1 m ρ c (Proc.devRef .tc r) :=
  (W3_of_ne m ρ c r h2).trans (W2_of_ne m ρ c r h1)

/-- From region 1's exit to region 3's exit. -/
theorem keep73 (r : Ref sig .tc) (h3 : r ∉ wr2) (h4 : ∀ w, Pipeline.arrRef spec2 w ≠ r) (h5 : r ∉ wr3)
    (h6 : ∀ w, Pipeline.arrRef spec3 w ≠ r) : W7 m ρ c (Proc.devRef .tc r) = W3 m ρ c (Proc.devRef .tc r) :=
  (W7_of_ne m ρ c r h6).trans ((pass3 (W5 m ρ c) r h5).trans ((W5_of_ne m ρ c r h4).trans (pass2 (W3 m ρ c) r h3)))

/-- A reference the stretch before region 2 does not write, across it. -/
theorem across2 (r : Ref sig .tc) (h : r ∉ wr2) : W4 m ρ c (Proc.devRef .tc r) = W3 m ρ c (Proc.devRef .tc r) := pass2 (W3 m ρ c) r h
/-- The same for the stretch before region 3. -/
theorem across3 (r : Ref sig .tc) (h : r ∉ wr3) : W6 m ρ c (Proc.devRef .tc r) = W5 m ρ c (Proc.devRef .tc r) := pass3 (W5 m ρ c) r h
/-- The same for the stretch before region 4. -/
theorem across4 (r : Ref sig .tc) (h : r ∉ wr4) : W8 m ρ c (Proc.devRef .tc r) = W7 m ρ c (Proc.devRef .tc r) := pass4 (W7 m ρ c) r h

/-! ## The edge lists and the degree column wherever they are read -/

theorem w3_v1 : W3 m ρ c (Proc.devRef .tc main_v1) = srcRaw (m ((c : Thread nD τ).loc main_arg1)) :=
  (keep31 m ρ c main_v1 (by decide) (by decide)).trans (w1_v1 m ρ c)
theorem w3_v3 : W3 m ρ c (Proc.devRef .tc main_v3) = dstRaw (m ((c : Thread nD τ).loc main_arg1)) :=
  (keep31 m ρ c main_v3 (by decide) (by decide)).trans (w1_v3 m ρ c)
theorem w3_v12 : W3 m ρ c (Proc.devRef .tc main_v12) = dcol (dstRaw (m ((c : Thread nD τ).loc main_arg1))) :=
  (keep31 m ρ c main_v12 (by decide) (by decide)).trans (w1_v12 m ρ c)
theorem w7_v1 : W7 m ρ c (Proc.devRef .tc main_v1) = srcRaw (m ((c : Thread nD τ).loc main_arg1)) :=
  (keep73 m ρ c main_v1 (by decide) (by decide) (by decide) (by decide)).trans (w3_v1 m ρ c)
theorem w7_v3 : W7 m ρ c (Proc.devRef .tc main_v3) = dstRaw (m ((c : Thread nD τ).loc main_arg1)) :=
  (keep73 m ρ c main_v3 (by decide) (by decide) (by decide) (by decide)).trans (w3_v3 m ρ c)
theorem w7_v12 : W7 m ρ c (Proc.devRef .tc main_v12) = dcol (dstRaw (m ((c : Thread nD τ).loc main_arg1))) :=
  (keep73 m ρ c main_v12 (by decide) (by decide) (by decide) (by decide)).trans (w3_v12 m ρ c)

/-! ## The five regions' outputs -/

/-- Region 0 leaves layer 1's output in its output array. -/
theorem w2_v26 : W2 m ρ c (Proc.devRef .tc main_v26) = h1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((Cert.KernelIdeal.RegionValue0.final0 (V1 m ρ) c).trans ?_)
  show unmat (convP (mat (W1 m ρ c (Proc.devRef .tc main_v24))) (mat (W1 m ρ c (Proc.devRef .tc main_arg0))) (mat (W1 m ρ c (Proc.devRef .tc main_arg2)))
    (row1 (W1 m ρ c (Proc.devRef .tc main_v25))) (mat (W1 m ρ c (Proc.devRef .tc main_arg4)))) = _
  rw [w1_v24, w1_v25, keep1 m ρ c main_arg0 (by decide), keep1 m ρ c main_arg2 (by decide), keep1 m ρ c main_arg4 (by decide)]
  rfl

/-- Region 1 leaves layer 2's projection. -/
theorem w3_v27 : W3 m ρ c (Proc.devRef .tc main_v27) = p2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W3_arr m ρ c 2).trans ((Cert.KernelIdeal.RegionValue1.final1 (V2 m ρ) c).trans ?_)
  show unmat (proj (mat (W2 m ρ c (Proc.devRef .tc main_v26))) (mat (W2 m ρ c (Proc.devRef .tc main_arg5)))) = _
  rw [w2_v26, keep2 m ρ c main_arg5 (by decide) (by decide)]
  rfl

/-- Region 1 reads layer 1's output and leaves it as it was. -/
theorem w3_v26 : W3 m ρ c (Proc.devRef .tc main_v26) = h1 (m ((c : Thread nD τ).loc main_arg0)) (m ((c : Thread nD τ).loc main_arg1)) (m ((c : Thread nD τ).loc main_arg2)) (m ((c : Thread nD τ).loc main_arg3)) (m ((c : Thread nD τ).loc main_arg4)) :=
  ((W3_arr m ρ c 0).trans (((dat1 (V2 m ρ) c).arrAt_in 0 rfl _).trans (A_eq1 (V2 m ρ) c 0))).trans (w2_v26 m ρ c)

/-- Region 2 leaves layer 2's output. -/
theorem w5_v41 : W5 m ρ c (Proc.devRef .tc main_v41) = h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W5_arr m ρ c 4).trans ((Cert.KernelIdeal.RegionValue2.final2 (V4 m ρ) c).trans ?_)
  show unmat (combineRelu (mat (W4 m ρ c (Proc.devRef .tc main_v39))) (mat (W4 m ρ c (Proc.devRef .tc main_v26))) (mat (W4 m ρ c (Proc.devRef .tc main_arg7)))
    (row1 (W4 m ρ c (Proc.devRef .tc main_v40)))) = _
  rw [w4_v39, w4_v40, w3_v1, w3_v3, w3_v12, w3_v27, across2 m ρ c main_v26 (by decide), w3_v26,
    keep4 m ρ c main_arg7 (by decide) (by decide) (by decide) (by decide),
    keep3 m ρ c main_arg6 (by decide) (by decide) (by decide)]
  rfl

/-- Region 3 leaves the heads' projection. -/
theorem w7_v45 : W7 m ρ c (Proc.devRef .tc main_v45) = p3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) := by
  refine (W7_arr m ρ c 2).trans ((Cert.KernelIdeal.RegionValue3.final3 (V6 m ρ) c).trans ?_)
  show unmat (proj (mat (W6 m ρ c (Proc.devRef .tc main_v41))) (mat (W6 m ρ c (Proc.devRef .tc main_v42)))) = _
  rw [across3 m ρ c main_v41 (by decide), w5_v41, w6_v42,
    keep5 m ρ c main_arg8 (by decide) (by decide) (by decide) (by decide) (by decide),
    keep5 m ρ c main_arg11 (by decide) (by decide) (by decide) (by decide) (by decide)]
  rfl

/-- Region 3 reads layer 2's output and leaves it as it was. -/
theorem w7_v41 : W7 m ρ c (Proc.devRef .tc main_v41) = h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((W7_arr m ρ c 0).trans (((dat3 (V6 m ρ) c).arrAt_in 0 rfl _).trans (A_eq3 (V6 m ρ) c 0))).trans
    ((pass3 (W5 m ρ c) main_v41 (by decide)).trans (w5_v41 m ρ c))

/-- Region 4 leaves the two heads side by side. -/
theorem w9_v59 : W9 m ρ c (Proc.devRef .tc main_v59) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W9_arr m ρ c 4).trans ((Cert.KernelIdeal.RegionValue4.final4 (V8 m ρ) c).trans ?_)
  show unmat (combine (mat (W8 m ρ c (Proc.devRef .tc main_v57))) (mat (W8 m ρ c (Proc.devRef .tc main_v41))) (mat (W8 m ρ c (Proc.devRef .tc main_v43)))
    (row1 (W8 m ρ c (Proc.devRef .tc main_v58)))) = _
  rw [w8_v57, w8_v58, w7_v1, w7_v3, w7_v12, w7_v45, across4 m ρ c main_v41 (by decide), w7_v41,
    across4 m ρ c main_v43 (by decide), W7_of_ne m ρ c main_v43 (by decide), w6_v43,
    W7_of_ne m ρ c main_v44 (by decide), w6_v44,
    keep5 m ρ c main_arg10 (by decide) (by decide) (by decide) (by decide) (by decide),
    keep5 m ρ c main_arg13 (by decide) (by decide) (by decide) (by decide) (by decide),
    keep5 m ρ c main_arg9 (by decide) (by decide) (by decide) (by decide) (by decide),
    keep5 m ρ c main_arg12 (by decide) (by decide) (by decide) (by decide) (by decide)]
  rfl

/-! ## The two results -/

theorem w10_mu : W10 m ρ c (Proc.devRef .tc main_v60) = leftHalf (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  rw [w10_v60, w9_v59]

theorem w10_logstd : W10 m ρ c (Proc.devRef .tc main_v61) = rightHalf (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  rw [w10_v61, w9_v59]

/-- THE KERNEL'S RUN, READ: every weakly fair execution terminates without a fault, the results end at the halves of
    `out` of the argument arrays, and the arguments end as launched. -/
theorem run : θ_run defs (onTc (τ := τ) (main (F := Ideal))) ⟨m, fun _ => 0, ρ⟩ (fun r => ∀ c : Dev nD,
      r.2.mem ((c.tc : Thread nD τ).loc main_v60) = leftHalf (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
      ∧ r.2.mem ((c.tc : Thread nD τ).loc main_v61) = rightHalf (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v60 (by decide))).trans (w10_mu m ρ c),
     (h c _ (mem_uc main_v61 (by decide))).trans (w10_logstd m ρ c),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c),
     (h c _ (mem_uc main_arg10 (by decide))).trans (W10_main_arg10 m ρ c),
     (h c _ (mem_uc main_arg11 (by decide))).trans (W10_main_arg11 m ρ c),
     (h c _ (mem_uc main_arg12 (by decide))).trans (W10_main_arg12 m ρ c),
     (h c _ (mem_uc main_arg13 (by decide))).trans (W10_main_arg13 m ρ c)⟩)
    (Cert.KernelIdeal.KernelRun.run_bufs m ρ)

end Cert.KernelIdeal.KernelValue

end
-- ==== Proof.RefValue.lean ====
/-
  What the reference computes, as mathematics. The reference is three stacked mean-aggregation graph convolutions over
  one edge list: two rectified hidden layers (widths 1024 and 512) and, on the second, two heads of width 8 that differ
  only in their weights. One layer of input `X` is `(mean · W_rel + b) + X · W_root`, where row `r` of `mean` is row `r`
  of the edge aggregate of `X` divided by the in-degree of `r` raised to at least one.

  The edge aggregates (a scatter-add of gathered rows) and the clamped in-degree (a scatter-add of ones, then a maximum
  with one) are kept whole, as functions `agg128`, `agg1024`, `agg512` and `dmax` of the arrays they read: which
  element they touch depends on the edge list's values. Everything around them is read index by index: a matrix product
  is the sum over the contracted coordinate, a broadcast reads its operand at the kept coordinates, the quotient, the
  sums and the maximum with zero are pointwise, and the zero is the float word of all zero bits. Read so, each layer is
  `GraphSpec.layerQ` of `GraphSpec.meanQ`, rectified by `GraphSpec.relu` where the reference rectifies:
  `h1_eq`, `h2_eq`, `mu_eq`, `logstd_eq`, and `run` restates the generated run with these terms.
-/
import proofs.«122720_j47107201302764_2_alg».proof.Proof.Gen.ReferenceIdeal.Read
import proofs.«122720_j47107201302764_2_alg».proof.Proof.GraphSpec

set_option maxRecDepth 16384

noncomputable section

open scoped BigOperators

namespace Cert.ReferenceIdeal.RefValue

open Cert.ReferenceIdeal Cert.ReferenceIdeal.Gen Cert.ReferenceIdeal.Read Cert.GraphSpec
open Idealize.ShloMosaic Idealize.ShloMosaic.TcCoe Idealize.SL.Sem Idealize.ShloMosaic.StableHlo Idealize.ShloMosaic.ValueIdx

/-! ## The pieces that stay whole: the edge aggregates and the clamped in-degree -/

/-- The edge aggregate of a `[20000, 128]` feature array `X` along the edge list `a1`: a scatter-add onto a zero array, at
    the edges' destination ids (row 1 of `a1`), of the rows of `X` gathered at the edges' source ids (row 0 of `a1`, a
    negative id wrapped by `+ 20000`). -/
def agg128 (a1 : IVec S2x160000 32) (X : FVec Ideal S20000x128 .f32) : FVec Ideal S20000x128 .f32 :=
  Host.scatterAdd scatter_S20000x128_S160000x1_S160000x128_1_0_0_1 (broadcastInDim S20000x128 ![] bcast_S_S20000x128 (constant S_ .f32 0x00000000#32)) (broadcastInDim S160000x1 ![0] bcast_S160000_S160000x1_0 (shapeCast _ (extractStridedSlice S1x160000 ![1, 0] a1 slices_S2x160000_S1x160000_1_0) shapeCasts_S1x160000_S160000)) (Host.gather gather_S20000x128_S160000x1_S160000x128_1_0_n_n_0_1_1128 X (broadcastInDim S160000x1 ![0] bcast_S160000_S160000x1_0 (select (cmpi .slt (shapeCast _ (extractStridedSlice S1x160000 ![0, 0] a1 slices_S2x160000_S1x160000_0_0) shapeCasts_S1x160000_S160000) (broadcastInDim S160000 ![] bcast_S_S160000 (constantI S_ 32 0#32))) (addi (shapeCast _ (extractStridedSlice S1x160000 ![0, 0] a1 slices_S2x160000_S1x160000_0_0) shapeCasts_S1x160000_S160000) (broadcastInDim S160000 ![] bcast_S_S160000 (constantI S_ 32 20000#32))) (shapeCast _ (extractStridedSlice S1x160000 ![0, 0] a1 slices_S2x160000_S1x160000_0_0) shapeCasts_S1x160000_S160000))))

/-- The same aggregate at width 1024. -/
def agg1024 (a1 : IVec S2x160000 32) (X : FVec Ideal S20000x1024 .f32) : FVec Ideal S20000x1024 .f32 :=
  Host.scatterAdd scatter_S20000x1024_S160000x1_S160000x1024_1_0_0_1 (broadcastInDim S20000x1024 ![] bcast_S_S20000x1024 (constant S_ .f32 0x00000000#32)) (broadcastInDim S160000x1 ![0] bcast_S160000_S160000x1_0 (shapeCast _ (extractStridedSlice S1x160000 ![1, 0] a1 slices_S2x160000_S1x160000_1_0) shapeCasts_S1x160000_S160000)) (Host.gather gather_S20000x1024_S160000x1_S160000x1024_1_0_n_n_0_1_11024 X (broadcastInDim S160000x1 ![0] bcast_S160000_S160000x1_0 (select (cmpi .slt (shapeCast _ (extractStridedSlice S1x160000 ![0, 0] a1 slices_S2x160000_S1x160000_0_0) shapeCasts_S1x160000_S160000) (broadcastInDim S160000 ![] bcast_S_S160000 (constantI S_ 32 0#32))) (addi (shapeCast _ (extractStridedSlice S1x160000 ![0, 0] a1 slices_S2x160000_S1x160000_0_0) shapeCasts_S1x160000_S160000) (broadcastInDim S160000 ![] bcast_S_S160000 (constantI S_ 32 20000#32))) (shapeCast _ (extractStridedSlice S1x160000 ![0, 0] a1 slices_S2x160000_S1x160000_0_0) shapeCasts_S1x160000_S160000))))

/-- The same aggregate at width 512. -/
def agg512 (a1 : IVec S2x160000 32) (X : FVec Ideal S20000x512 .f32) : FVec Ideal S20000x512 .f32 :=
  Host.scatterAdd scatter_S20000x512_S160000x1_S160000x512_1_0_0_1 (broadcastInDim S20000x512 ![] bcast_S_S20000x512 (constant S_ .f32 0x00000000#32)) (broadcastInDim S160000x1 ![0] bcast_S160000_S160000x1_0 (shapeCast _ (extractStridedSlice S1x160000 ![1, 0] a1 slices_S2x160000_S1x160000_1_0) shapeCasts_S1x160000_S160000)) (Host.gather gather_S20000x512_S160000x1_S160000x512_1_0_n_n_0_1_1512 X (broadcastInDim S160000x1 ![0] bcast_S160000_S160000x1_0 (select (cmpi .slt (shapeCast _ (extractStridedSlice S1x160000 ![0, 0] a1 slices_S2x160000_S1x160000_0_0) shapeCasts_S1x160000_S160000) (broadcastInDim S160000 ![] bcast_S_S160000 (constantI S_ 32 0#32))) (addi (shapeCast _ (extractStridedSlice S1x160000 ![0, 0] a1 slices_S2x160000_S1x160000_0_0) shapeCasts_S1x160000_S160000) (broadcastInDim S160000 ![] bcast_S_S160000 (constantI S_ 32 20000#32))) (shapeCast _ (extractStridedSlice S1x160000 ![0, 0] a1 slices_S2x160000_S1x160000_0_0) shapeCasts_S1x160000_S160000))))

/-- The in-degree of every node (a scatter-add of ones at the destination ids onto zeros) raised to at least one. -/
def dmax (a1 : IVec S2x160000 32) : FVec Ideal S20000 .f32 :=
  maximumf (Host.scatterAdd scatter_S20000_S160000x1_S160000_n_0_0_1 (broadcastInDim S20000 ![] bcast_S_S20000 (constant S_ .f32 0x00000000#32)) (broadcastInDim S160000x1 ![0] bcast_S160000_S160000x1_0 (shapeCast _ (extractStridedSlice S1x160000 ![1, 0] a1 slices_S2x160000_S1x160000_1_0) shapeCasts_S1x160000_S160000)) (broadcastInDim S160000 ![] bcast_S_S160000 (constant S_ .f32 0x3F800000#32))) (broadcastInDim S20000 ![] bcast_S_S20000 (constant S_ .f32 0x3F800000#32))

/-! The stages of the run that stay whole are these terms, by unfolding. -/

theorem agg128_v13 (a0 : FVec Ideal S20000x128 .f32) (a1 : IVec S2x160000 32) :
    val_main_v13 (F := Ideal) a0 a1 = agg128 a1 a0 := rfl
theorem dmax_v19 (a1 : IVec S2x160000 32) : val_main_v19 (F := Ideal) a1 = dmax a1 := rfl
theorem dmax_v45 (a1 : IVec S2x160000 32) : val_main_v45 (F := Ideal) a1 = dmax a1 := rfl
theorem dmax_v71 (a1 : IVec S2x160000 32) : val_main_v71 (F := Ideal) a1 = dmax a1 := rfl
theorem dmax_v96 (a1 : IVec S2x160000 32) : val_main_v96 (F := Ideal) a1 = dmax a1 := rfl

/-! ## Layer 1 -/

/-- The first hidden layer as a function of the arguments it reads. -/
def H1 (a0 : FVec Ideal S20000x128 .f32) (a1 : IVec S2x160000 32) (a2 : FVec Ideal S128x1024 .f32)
    (a3 : FVec Ideal S1024 .f32) (a4 : FVec Ideal S128x1024 .f32) : FVec Ideal S20000x1024 .f32 :=
  unmat (relu (layerQ (meanQ (vec (dmax a1)) (mat (agg128 a1 a0))) (mat a0) (mat a2) (vec a3) (mat a4)))

theorem h1_eq (a0 : FVec Ideal S20000x128 .f32) (a1 : IVec S2x160000 32) (a2 : FVec Ideal S128x1024 .f32)
    (a3 : FVec Ideal S1024 .f32) (a4 : FVec Ideal S128x1024 .f32) :
    val_main_v29 (F := Ideal) a0 a1 a2 a3 a4 = H1 a0 a1 a2 a3 a4 := by
  funext i
  obtain ⟨p, q, rfl⟩ : ∃ (p : Fin 20000) (q : Fin 1024), i = ix2 p q := ⟨i 0, i 1, eq_ix2 i⟩
  have el : ∀ k : Fin 128, lidx_main_v23 (ix2 p q) k = ix2 p k := fun k => funext fun a => Fin.ext (by
    match a with | ⟨0, _⟩ => rfl | ⟨1, _⟩ => rfl)
  have er : ∀ k : Fin 128, ridx_main_v23 (ix2 p q) k = ix2 k q := fun k => funext fun a => Fin.ext (by
    match a with | ⟨0, _⟩ => rfl | ⟨1, _⟩ => rfl)
  have el' : ∀ k : Fin 128, lidx_main_v27 (ix2 p q) k = ix2 p k := fun k => funext fun a => Fin.ext (by
    match a with | ⟨0, _⟩ => rfl | ⟨1, _⟩ => rfl)
  have er' : ∀ k : Fin 128, ridx_main_v27 (ix2 p q) k = ix2 k q := fun k => funext fun a => Fin.ext (by
    match a with | ⟨0, _⟩ => rfl | ⟨1, _⟩ => rfl)
  have eb : idx_main_v24 (idx_main_v25 (ix2 p q)) = ix1 q := funext fun a => Fin.ext (by
    match a with | ⟨0, _⟩ => rfl)
  have ed : ∀ k : Fin 128, idx_main_v20 (idx_main_v21 (ix2 p k)) = ix1 p := fun k => funext fun a => Fin.ext (by
    match a with | ⟨0, _⟩ => rfl)
  rw [val_main_v29_apply, val_main_v28_apply, val_main_v26_apply, val_main_v23_apply, val_main_v25_apply, val_main_v24_apply,
    val_main_v27_apply, val_main_call0_v0_apply, val_main_call0_cst_apply]
  simp only [val_main_v22_apply, val_main_v21_apply, val_main_v20_apply, el, er, el', er', eb, ed]
  rw [agg128_v13, dmax_v19]
  simp only [Ideal.maximumf_def, Ideal.addf_def, Ideal.hostDivf_def, Ideal.ofBits_def, Ideal.ofBits_zero_f32]
  rfl

/-! ## Layer 2 -/

theorem agg1024_v39 (a0 : FVec Ideal S20000x128 .f32) (a1 : IVec S2x160000 32) (a2 : FVec Ideal S128x1024 .f32)
    (a3 : FVec Ideal S1024 .f32) (a4 : FVec Ideal S128x1024 .f32) :
    val_main_v39 (F := Ideal) a0 a1 a2 a3 a4 = agg1024 a1 (val_main_v29 (F := Ideal) a0 a1 a2 a3 a4) := rfl

/-- The second hidden layer as a function of the arguments it reads. -/
def H2 (a0 : FVec Ideal S20000x128 .f32) (a1 : IVec S2x160000 32) (a2 : FVec Ideal S128x1024 .f32)
    (a3 : FVec Ideal S1024 .f32) (a4 : FVec Ideal S128x1024 .f32)
    (a5 : FVec Ideal S1024x512 .f32) (a6 : FVec Ideal S512 .f32) (a7 : FVec Ideal S1024x512 .f32) : FVec Ideal S20000x512 .f32 :=
  unmat (relu (layerQ (meanQ (vec (dmax a1)) (mat (agg1024 a1 (H1 a0 a1 a2 a3 a4)))) (mat (H1 a0 a1 a2 a3 a4)) (mat a5) (vec a6) (mat a7)))

theorem h2_eq (a0 : FVec Ideal S20000x128 .f32) (a1 : IVec S2x160000 32) (a2 : FVec Ideal S128x1024 .f32)
    (a3 : FVec Ideal S1024 .f32) (a4 : FVec Ideal S128x1024 .f32)
    (a5 : FVec Ideal S1024x512 .f32) (a6 : FVec Ideal S512 .f32) (a7 : FVec Ideal S1024x512 .f32) :
    val_main_v55 (F := Ideal) a0 a1 a2 a3 a4 a5 a6 a7 = H2 a0 a1 a2 a3 a4 a5 a6 a7 := by
  funext i
  obtain ⟨p, q, rfl⟩ : ∃ (p : Fin 20000) (q : Fin 512), i = ix2 p q := ⟨i 0, i 1, eq_ix2 i⟩
  have el : ∀ k : Fin 1024, lidx_main_v49 (ix2 p q) k = ix2 p k := fun k => funext fun a => Fin.ext (by
    match a with | ⟨0, _⟩ => rfl | ⟨1, _⟩ => rfl)
  have er : ∀ k : Fin 1024, ridx_main_v49 (ix2 p q) k = ix2 k q := fun k => funext fun a => Fin.ext (by
    match a with | ⟨0, _⟩ => rfl | ⟨1, _⟩ => rfl)
  have el' : ∀ k : Fin 1024, lidx_main_v53 (ix2 p q) k = ix2 p k := fun k => funext fun a => Fin.ext (by
    match a with | ⟨0, _⟩ => rfl | ⟨1, _⟩ => rfl)
  have er' : ∀ k : Fin 1024, ridx_main_v53 (ix2 p q) k = ix2 k q := fun k => funext fun a => Fin.ext (by
    match a with | ⟨0, _⟩ => rfl | ⟨1, _⟩ => rfl)
  have eb : idx_main_v50 (idx_main_v51 (ix2 p q)) = ix1 q := funext fun a => Fin.ext (by
    match a with | ⟨0, _⟩ => rfl)
  have ed : ∀ k : Fin 1024, idx_main_v46 (idx_main_v47 (ix2 p k)) = ix1 p := fun k => funext fun a => Fin.ext (by
    match a with | ⟨0, _⟩ => rfl)
  rw [val_main_v55_apply, val_main_v54_apply, val_main_v52_apply, val_main_v49_apply, val_main_v51_apply, val_main_v50_apply,
    val_main_v53_apply, val_main_call1_v0_apply, val_main_call1_cst_apply]
  simp only [val_main_v48_apply, val_main_v47_apply, val_main_v46_apply, el, er, el', er', eb, ed]
  rw [agg1024_v39, dmax_v45, h1_eq]
  simp only [Ideal.maximumf_def, Ideal.addf_def, Ideal.hostDivf_def, Ideal.ofBits_def, Ideal.ofBits_zero_f32]
  rfl

/-! ## The two heads -/

/-- A head: one more layer, not rectified, on the second hidden layer, with its own weights and bias. -/
def head (a0 : FVec Ideal S20000x128 .f32) (a1 : IVec S2x160000 32) (a2 : FVec Ideal S128x1024 .f32)
    (a3 : FVec Ideal S1024 .f32) (a4 : FVec Ideal S128x1024 .f32)
    (a5 : FVec Ideal S1024x512 .f32) (a6 : FVec Ideal S512 .f32) (a7 : FVec Ideal S1024x512 .f32)
    (W : FVec Ideal S512x8 .f32) (b : FVec Ideal S8 .f32) (Wr : FVec Ideal S512x8 .f32) : FVec Ideal S20000x8 .f32 :=
  unmat (layerQ (meanQ (vec (dmax a1)) (mat (agg512 a1 (H2 a0 a1 a2 a3 a4 a5 a6 a7)))) (mat (H2 a0 a1 a2 a3 a4 a5 a6 a7)) (mat W) (vec b) (mat Wr))

theorem agg512_v65 (a0 : FVec Ideal S20000x128 .f32) (a1 : IVec S2x160000 32) (a2 : FVec Ideal S128x1024 .f32)
    (a3 : FVec Ideal S1024 .f32) (a4 : FVec Ideal S128x1024 .f32)
    (a5 : FVec Ideal S1024x512 .f32) (a6 : FVec Ideal S512 .f32) (a7 : FVec Ideal S1024x512 .f32) :
    val_main_v65 (F := Ideal) a0 a1 a2 a3 a4 a5 a6 a7 = agg512 a1 (val_main_v55 (F := Ideal) a0 a1 a2 a3 a4 a5 a6 a7) := rfl

/-- The first result is the head with the weights of arguments 8 to 10. -/
theorem mu_eq (a0 : FVec Ideal S20000x128 .f32) (a1 : IVec S2x160000 32) (a2 : FVec Ideal S128x1024 .f32)
    (a3 : FVec Ideal S1024 .f32) (a4 : FVec Ideal S128x1024 .f32)
    (a5 : FVec Ideal S1024x512 .f32) (a6 : FVec Ideal S512 .f32) (a7 : FVec Ideal S1024x512 .f32)
    (W : FVec Ideal S512x8 .f32) (b : FVec Ideal S8 .f32) (Wr : FVec Ideal S512x8 .f32) :
    val_main_v80 (F := Ideal) a0 a1 a2 a3 a4 a5 a6 a7 W b Wr = head a0 a1 a2 a3 a4 a5 a6 a7 W b Wr := by
  funext i
  obtain ⟨p, q, rfl⟩ : ∃ (p : Fin 20000) (q : Fin 8), i = ix2 p q := ⟨i 0, i 1, eq_ix2 i⟩
  have el : ∀ k : Fin 512, lidx_main_v75 (ix2 p q) k = ix2 p k := fun k => funext fun a => Fin.ext (by
    match a with | ⟨0, _⟩ => rfl | ⟨1, _⟩ => rfl)
  have er : ∀ k : Fin 512, ridx_main_v75 (ix2 p q) k = ix2 k q := fun k => funext fun a => Fin.ext (by
    match a with | ⟨0, _⟩ => rfl | ⟨1, _⟩ => rfl)
  have el' : ∀ k : Fin 512, lidx_main_v79 (ix2 p q) k = ix2 p k := fun k => funext fun a => Fin.ext (by
    match a with | ⟨0, _⟩ => rfl | ⟨1, _⟩ => rfl)
  have er' : ∀ k : Fin 512, ridx_main_v79 (ix2 p q) k = ix2 k q := fun k => funext fun a => Fin.ext (by
    match a with | ⟨0, _⟩ => rfl | ⟨1, _⟩ => rfl)
  have eb : idx_main_v76 (idx_main_v77 (ix2 p q)) = ix1 q := funext fun a => Fin.ext (by
    match a with | ⟨0, _⟩ => rfl)
  have ed : ∀ k : Fin 512, idx_main_v72 (idx_main_v73 (ix2 p k)) = ix1 p := fun k => funext fun a => Fin.ext (by
    match a with | ⟨0, _⟩ => rfl)
  rw [val_main_v80_apply, val_main_v78_apply, val_main_v75_apply, val_main_v77_apply, val_main_v76_apply,
    val_main_v79_apply]
  simp only [val_main_v74_apply, val_main_v73_apply, val_main_v72_apply, el, er, el', er', eb, ed]
  rw [agg512_v65, dmax_v71, h2_eq]
  simp only [Ideal.addf_def, Ideal.hostDivf_def]
  rfl

theorem agg512_v90 (a0 : FVec Ideal S20000x128 .f32) (a1 : IVec S2x160000 32) (a2 : FVec Ideal S128x1024 .f32)
    (a3 : FVec Ideal S1024 .f32) (a4 : FVec Ideal S128x1024 .f32)
    (a5 : FVec Ideal S1024x512 .f32) (a6 : FVec Ideal S512 .f32) (a7 : FVec Ideal S1024x512 .f32) :
    val_main_v90 (F := Ideal) a0 a1 a2 a3 a4 a5 a6 a7 = agg512 a1 (val_main_v55 (F := Ideal) a0 a1 a2 a3 a4 a5 a6 a7) := rfl

/-- The second result is the head with the weights of arguments 11 to 13. -/
theorem logstd_eq (a0 : FVec Ideal S20000x128 .f32) (a1 : IVec S2x160000 32) (a2 : FVec Ideal S128x1024 .f32)
    (a3 : FVec Ideal S1024 .f32) (a4 : FVec Ideal S128x1024 .f32)
    (a5 : FVec Ideal S1024x512 .f32) (a6 : FVec Ideal S512 .f32) (a7 : FVec Ideal S1024x512 .f32)
    (W : FVec Ideal S512x8 .f32) (b : FVec Ideal S8 .f32) (Wr : FVec Ideal S512x8 .f32) :
    val_main_v105 (F := Ideal) a0 a1 a2 a3 a4 a5 a6 a7 W b Wr = head a0 a1 a2 a3 a4 a5 a6 a7 W b Wr := by
  funext i
  obtain ⟨p, q, rfl⟩ : ∃ (p : Fin 20000) (q : Fin 8), i = ix2 p q := ⟨i 0, i 1, eq_ix2 i⟩
  have el : ∀ k : Fin 512, lidx_main_v100 (ix2 p q) k = ix2 p k := fun k => funext fun a => Fin.ext (by
    match a with | ⟨0, _⟩ => rfl | ⟨1, _⟩ => rfl)
  have er : ∀ k : Fin 512, ridx_main_v100 (ix2 p q) k = ix2 k q := fun k => funext fun a => Fin.ext (by
    match a with | ⟨0, _⟩ => rfl | ⟨1, _⟩ => rfl)
  have el' : ∀ k : Fin 512, lidx_main_v104 (ix2 p q) k = ix2 p k := fun k => funext fun a => Fin.ext (by
    match a with | ⟨0, _⟩ => rfl | ⟨1, _⟩ => rfl)
  have er' : ∀ k : Fin 512, ridx_main_v104 (ix2 p q) k = ix2 k q := fun k => funext fun a => Fin.ext (by
    match a with | ⟨0, _⟩ => rfl | ⟨1, _⟩ => rfl)
  have eb : idx_main_v101 (idx_main_v102 (ix2 p q)) = ix1 q := funext fun a => Fin.ext (by
    match a with | ⟨0, _⟩ => rfl)
  have ed : ∀ k : Fin 512, idx_main_v97 (idx_main_v98 (ix2 p k)) = ix1 p := fun k => funext fun a => Fin.ext (by
    match a with | ⟨0, _⟩ => rfl)
  rw [val_main_v105_apply, val_main_v103_apply, val_main_v100_apply, val_main_v102_apply, val_main_v101_apply,
    val_main_v104_apply]
  simp only [val_main_v99_apply, val_main_v98_apply, val_main_v97_apply, el, er, el', er', eb, ed]
  rw [agg512_v90, dmax_v96, h2_eq]
  simp only [Ideal.addf_def, Ideal.hostDivf_def]
  rfl

/-! ## The run -/

/-- Every fair execution of the reference ends with the two results at the two heads of the argument arrays, and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v80)
          = head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
              (m ((c.tc : Thread nD τ).loc main_arg8)) (m ((c.tc : Thread nD τ).loc main_arg9)) (m ((c.tc : Thread nD τ).loc main_arg10))
      ∧ r.2.mem ((c.tc : Thread nD τ).loc main_v105)
          = head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
              (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
      ⟨(h c).1.trans ((val_main_v80_eq m c).trans (mu_eq _ _ _ _ _ _ _ _ _ _ _)),
        (h c).2.1.trans ((val_main_v105_eq m c).trans (logstd_eq _ _ _ _ _ _ _ _ _ _ _)),
        (h c).2.2⟩)
    (Cert.ReferenceIdeal.Value.run (F := Ideal) m ρ)

end Cert.ReferenceIdeal.RefValue

end
-- ==== Proof.LibSegmentSum.lean ====
/-
  ROW SCATTER-ADD (what `jax.ops.segment_sum` of an `[E, D]` array of rows lowers to: a `stablehlo.scatter` with an `add` body,
  update_window_dims `[1]`, inserted_window_dims `[0]`, scatter_dims_to_operand_dims `[0]`, index_vector_dim `1`, the segment ids
  broadcast `[E] → [E, 1]`) read at an element, on the extended reals, for any extents `N`, `D`, `E`:

    * `resultIdx?_rows` — update element `(e, c)` lands on operand element `(r, q)` iff `ids[e]`, read signed, is `r` and `c = q`;
    * `scatterAdd_rows_apply` — the scatter-add at `(r, q)` is the operand there plus `∑ e, if ids[e] = r then upd[e, q] else 0`
      (an id that names no row drops its update);
    * `sum_rows_concat` — over two concatenated lists of ids and of update rows that sum is the sum of the two lists' sums:
      one segment sum of a concatenation is the sum of two segment sums. Only commutativity and associativity of `+` on the
      extended reals are used, so no finiteness is assumed of anything.
-/
import Idealize.ShloMosaic.PureOps.Ideal
import Idealize.ShloMosaic.Lib.ValueIdx
import Idealize.ShloMosaic.Lib.Pipeline.Value

noncomputable section

open scoped BigOperators

namespace Idealize.ShloMosaic.SegmentSum

open Idealize.ShloMosaic Idealize.ShloMosaic.ValueIdx

/-- The dimension numbers of a ROW scatter: update row `e` of an `[E, D]` array of updates goes to row `idx[e, 0]` of an
    `[N, D]` operand. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)

/-- The start of update `(e, c)`'s window on the row axis is the segment id `idx[e, 0]`, read signed. -/
theorem start_row (idx : IVec ⟨2, ![E, 1]⟩ w) (e : Fin E) (c : Fin D) :
    (rowScatterDims N D E wf).start (ix2 e c) idx 0 = (idx (ix2 e (0 : Fin 1))).toInt := by
  unfold ScatterDims.start
  rw [dif_pos (show (0 : Fin 2) ∈ (rowScatterDims N D E wf).scatterDimsToOperandDims from List.mem_singleton.mpr rfl)]
  refine congrArg (fun k => (idx k).toInt) ?_
  funext b; refine Fin.ext ?_
  match b with
  | ⟨0, _⟩ => rfl
  | ⟨1, _⟩ => rfl

/-- On the column axis, which the index map does not name, the window starts at `0`. -/
theorem start_col (idx : IVec ⟨2, ![E, 1]⟩ w) (j : (⟨2, ![E, D]⟩ : Shape).Idx) :
    (rowScatterDims N D E wf).start j idx 1 = 0 := by
  have h : ¬ (1 : Fin 2) ∈ (rowScatterDims N D E wf).scatterDimsToOperandDims :=
    (by decide : ¬ (1 : Fin 2) ∈ ([0] : List (Fin 2)))
  unfold ScatterDims.start
  rw [dif_neg h]

/-- The row axis is inserted: the window coordinate there is `0`. -/
theorem window_row (j : (⟨2, ![E, D]⟩ : Shape).Idx) :
    (rowScatterDims N D E wf).window j 0 = 0 := by
  have h : ¬ (0 : Fin 2) ∈ (rowScatterDims N D E wf).sKept :=
    (by decide : ¬ (0 : Fin 2) ∈ (List.finRange 2).filter (· ∉ ([0] : List (Fin 2))))
  unfold ScatterDims.window
  rw [dif_neg h]

/-- The column axis is the update's window axis: the window coordinate is the update's column. -/
theorem window_col (e : Fin E) (c : Fin D) :
    (rowScatterDims N D E wf).window (ix2 e c) 1 = c.val := by
  have h : (1 : Fin 2) ∈ (rowScatterDims N D E wf).sKept :=
    (by decide : (1 : Fin 2) ∈ (List.finRange 2).filter (· ∉ ([0] : List (Fin 2))))
  unfold ScatterDims.window
  rw [dif_pos h]
  rfl

/-- WHERE AN UPDATE LANDS: update element `(e, c)` lands on operand element `(r, q)` exactly when the start index
    `idx[e, 0]`, read signed, is the row `r` and the column is kept. -/
theorem resultIdx?_rows (idx : IVec ⟨2, ![E, 1]⟩ w) (e : Fin E) (c : Fin D) (r : Fin N) (q : Fin D) :
    (rowScatterDims N D E wf).resultIdx? (ix2 e c) idx = some (ix2 r q) ↔
      (idx (ix2 e (0 : Fin 1))).toInt = (r.val : Int) ∧ c = q := by
  have hs0 := start_row wf idx e c
  have hs1 := start_col wf idx (ix2 e c)
  have hw0 := window_row wf (ix2 e c)
  have hw1 := window_col wf e c
  unfold ScatterDims.resultIdx?
  constructor
  · intro h
    split at h
    · next hall =>
      have hf := Option.some.inj h
      have h0 : ((rowScatterDims N D E wf).start (ix2 e c) idx 0 + ((rowScatterDims N D E wf).window (ix2 e c) 0 : Int)).toNat = r.val :=
        congrArg (fun f => (f 0).val) hf
      have h1 : ((rowScatterDims N D E wf).start (ix2 e c) idx 1 + ((rowScatterDims N D E wf).window (ix2 e c) 1 : Int)).toNat = q.val :=
        congrArg (fun f => (f 1).val) hf
      have hp := (hall 0).1
      rw [hs0, hw0] at h0 hp
      rw [hs1, hw1] at h1
      exact ⟨by omega, Fin.ext (by omega)⟩
    · exact absurd h (by simp)
  · rintro ⟨ht, rfl⟩
    have hall : ∀ a : Fin 2, 0 ≤ (rowScatterDims N D E wf).start (ix2 e c) idx a + ((rowScatterDims N D E wf).window (ix2 e c) a : Int) ∧
        (rowScatterDims N D E wf).start (ix2 e c) idx a + ((rowScatterDims N D E wf).window (ix2 e c) a : Int) < (((⟨2, ![N, D]⟩ : Shape).size a : Nat) : Int) := by
      intro a
      match a with
      | ⟨0, _⟩ =>
        show 0 ≤ (rowScatterDims N D E wf).start (ix2 e c) idx 0 + ((rowScatterDims N D E wf).window (ix2 e c) 0 : Int) ∧
          (rowScatterDims N D E wf).start (ix2 e c) idx 0 + ((rowScatterDims N D E wf).window (ix2 e c) 0 : Int) < ((N : Nat) : Int)
        rw [hs0, hw0, ht]; have := r.isLt; constructor <;> omega
      | ⟨1, _⟩ =>
        show 0 ≤ (rowScatterDims N D E wf).start (ix2 e c) idx 1 + ((rowScatterDims N D E wf).window (ix2 e c) 1 : Int) ∧
          (rowScatterDims N D E wf).start (ix2 e c) idx 1 + ((rowScatterDims N D E wf).window (ix2 e c) 1 : Int) < ((D : Nat) : Int)
        rw [hs1, hw1]; have := c.isLt; constructor <;> omega
    rw [dif_pos hall]
    refine congrArg some (funext fun a => Fin.ext ?_)
    match a with
    | ⟨0, _⟩ =>
      show ((rowScatterDims N D E wf).start (ix2 e c) idx 0 + ((rowScatterDims N D E wf).window (ix2 e c) 0 : Int)).toNat = r.val
      rw [hs0, hw0, ht]; omega
    | ⟨1, _⟩ =>
      show ((rowScatterDims N D E wf).start (ix2 e c) idx 1 + ((rowScatterDims N D E wf).window (ix2 e c) 1 : Int)).toNat = c.val
      rw [hs1, hw1]; omega

/-- A ROW SCATTER-ADD READ AT AN ELEMENT, on the extended reals: the operand's element plus the sum, over the update rows
    `e` whose start index (read signed) is the element's row, of the update at `(e, q)`. An update whose start index names no
    row contributes to no element. -/
theorem scatterAdd_rows_apply {φ : FTy} (x : FVec Ideal ⟨2, ![N, D]⟩ φ) (idx : IVec ⟨2, ![E, 1]⟩ w)
    (upd : FVec Ideal ⟨2, ![E, D]⟩ φ) (r : Fin N) (q : Fin D) :
    Host.scatterAdd (F := Ideal) (rowScatterDims N D E wf) x idx upd (ix2 r q)
      = x (ix2 r q) + ∑ e : Fin E, if (idx (ix2 e (0 : Fin 1))).toInt = (r.val : Int) then upd (ix2 e q) else 0 := by
  show Ideal.hostScatterAdd (rowScatterDims N D E wf) x idx upd (ix2 r q) = _
  unfold Ideal.hostScatterAdd
  refine congrArg (x (ix2 r q) + ·) ?_
  rw [Finset.sum_filter, sum_idx2]
  refine Finset.sum_congr rfl fun e _ => ?_
  by_cases hP : (idx (ix2 e (0 : Fin 1))).toInt = (r.val : Int)
  · rw [if_pos hP, Finset.sum_eq_single q]
    · rw [if_pos ((resultIdx?_rows wf idx e q r q).2 ⟨hP, rfl⟩)]
    · intro c _ hc
      rw [if_neg]
      intro h
      exact hc ((resultIdx?_rows wf idx e c r q).1 h).2
    · intro h
      exact absurd (Finset.mem_univ q) h
  · rw [if_neg hP]
    refine Finset.sum_eq_zero fun c _ => ?_
    rw [if_neg]
    intro h
    exact hP ((resultIdx?_rows wf idx e c r q).1 h).1

end Rows

section Concat
variable {D E₁ E₂ w : Nat} {φ : FTy}

/-- Start indices `[E] → [E, 1]` (what `segment_sum` makes of a flat list of segment ids) read at row `e`. -/
theorem bcast_ids_apply {E : Nat} (ids : IVec ⟨1, ![E]⟩ w)
    (hb : (⟨1, ![E]⟩ : Shape).BroadcastsInDim ⟨2, ![E, 1]⟩ ![0]) (e : Fin E) :
    broadcastInDim ⟨2, ![E, 1]⟩ ![0] hb ids (ix2 e (0 : Fin 1)) = ids (ix1 e) :=
  broadcastInDim_apply _ hb ids (ix2 e (0 : Fin 1)) (ix1 e) (fun a => match a with
    | ⟨0, _⟩ => by
      show e.val = if E = 1 then 0 else e.val
      have := e.isLt
      split <;> omega)

/-- THE EDGE SUM OVER TWO CONCATENATED LISTS IS THE SUM OF THE TWO EDGE SUMS: for segment ids `d ++ s` and update rows
    `A ++ B` (both concatenated along the list axis), the updates of the rows whose id is `r` add up, column by column, to
    those among `(d, A)` plus those among `(s, B)` — a finite sum in a commutative monoid cut in two. -/
theorem sum_rows_concat (d : IVec ⟨1, ![E₁]⟩ w) (s : IVec ⟨1, ![E₂]⟩ w)
    (A : FVec Ideal ⟨2, ![E₁, D]⟩ φ) (B : FVec Ideal ⟨2, ![E₂, D]⟩ φ)
    (hI : Shape.Concatenates [⟨1, ![E₁]⟩, ⟨1, ![E₂]⟩] ⟨1, ![E₁ + E₂]⟩ 0)
    (hF : Shape.Concatenates [⟨2, ![E₁, D]⟩, ⟨2, ![E₂, D]⟩] ⟨2, ![E₁ + E₂, D]⟩ 0)
    (hb : (⟨1, ![E₁ + E₂]⟩ : Shape).BroadcastsInDim ⟨2, ![E₁ + E₂, 1]⟩ ![0])
    (hb₁ : (⟨1, ![E₁]⟩ : Shape).BroadcastsInDim ⟨2, ![E₁, 1]⟩ ![0])
    (hb₂ : (⟨1, ![E₂]⟩ : Shape).BroadcastsInDim ⟨2, ![E₂, 1]⟩ ![0])
    (r : Int) (q : Fin D) :
    (∑ e : Fin (E₁ + E₂),
        if (broadcastInDim ⟨2, ![E₁ + E₂, 1]⟩ ![0] hb
              (concatenate ⟨1, ![E₁ + E₂]⟩ 0 [⟨⟨1, ![E₁]⟩, d⟩, ⟨⟨1, ![E₂]⟩, s⟩] hI) (ix2 e (0 : Fin 1))).toInt = r
        then concatenate ⟨2, ![E₁ + E₂, D]⟩ 0 [⟨⟨2, ![E₁, D]⟩, A⟩, ⟨⟨2, ![E₂, D]⟩, B⟩] hF (ix2 e q) else 0)
      = (∑ e : Fin E₁, if (broadcastInDim ⟨2, ![E₁, 1]⟩ ![0] hb₁ d (ix2 e (0 : Fin 1))).toInt = r then A (ix2 e q) else 0)
        + ∑ e : Fin E₂, if (broadcastInDim ⟨2, ![E₂, 1]⟩ ![0] hb₂ s (ix2 e (0 : Fin 1))).toInt = r then B (ix2 e q) else 0 := by
  rw [Fin.sum_univ_add]
  refine congrArg₂ (· + ·) (Finset.sum_congr rfl fun e _ => ?_) (Finset.sum_congr rfl fun e _ => ?_)
  · have hi : concatenate ⟨1, ![E₁ + E₂]⟩ 0 [⟨⟨1, ![E₁]⟩, d⟩, ⟨⟨1, ![E₂]⟩, s⟩] hI (ix1 (Fin.castAdd E₂ e)) = d (ix1 e) :=
      concatenate_pair_apply_left 0 d s hI (ix1 (Fin.castAdd E₂ e)) rfl (ix1 e) (fun b => match b with | ⟨0, _⟩ => rfl)
    have hu : concatenate ⟨2, ![E₁ + E₂, D]⟩ 0 [⟨⟨2, ![E₁, D]⟩, A⟩, ⟨⟨2, ![E₂, D]⟩, B⟩] hF (ix2 (Fin.castAdd E₂ e) q) = A (ix2 e q) :=
      concatenate_pair_apply_left 0 A B hF (ix2 (Fin.castAdd E₂ e) q) rfl (ix2 e q)
        (fun b => match b with | ⟨0, _⟩ => rfl | ⟨1, _⟩ => rfl)
    rw [bcast_ids_apply _ hb, bcast_ids_apply _ hb₁, hi, hu]
  · have hi : concatenate ⟨1, ![E₁ + E₂]⟩ 0 [⟨⟨1, ![E₁]⟩, d⟩, ⟨⟨1, ![E₂]⟩, s⟩] hI (ix1 (Fin.natAdd E₁ e)) = s (ix1 e) :=
      concatenate_pair_apply_right 0 d s hI (ix1 (Fin.natAdd E₁ e)) rfl rfl (ix1 e)
        (fun b hb => match b with | ⟨0, _⟩ => absurd rfl hb)
        (by show e.val + E₁ = E₁ + e.val; omega)
    have hu : concatenate ⟨2, ![E₁ + E₂, D]⟩ 0 [⟨⟨2, ![E₁, D]⟩, A⟩, ⟨⟨2, ![E₂, D]⟩, B⟩] hF (ix2 (Fin.natAdd E₁ e) q) = B (ix2 e q) :=
      concatenate_pair_apply_right 0 A B hF (ix2 (Fin.natAdd E₁ e) q) rfl rfl (ix2 e q)
        (fun b hb => match b with | ⟨0, _⟩ => absurd rfl hb | ⟨1, _⟩ => rfl)
        (by show e.val + E₁ = E₁ + e.val; omega)
    rw [bcast_ids_apply _ hb, bcast_ids_apply _ hb₂, hi, hu]

end Concat

end Idealize.ShloMosaic.SegmentSum

end
-- ==== Proof.LibGatherRows.lean ====
/-
  ROW GATHER (what `X[ids]` of an `[N, D]` array at a flat list of `E` row ids lowers to: a `stablehlo.gather` with offset_dims
  `[1]`, collapsed_slice_dims `[0]`, start_index_map `[0]`, index_vector_dim `1`, slice sizes `[1, D]`, the ids broadcast
  `[E] → [E, 1]`) read at an element, for any extents `N`, `D`, `E` and any element type:

    * `gather_rows_apply` — result element `(e, q)` is the operand's element `(row e, q)`, where `row e` is the id `ids[e]` read
      as a signed integer and clamped into `[0, N − 1]` (`rowOf`): the row depends on the ids alone, not on the operand,
      its width or its element type, and the column is kept.
-/
import Idealize.ShloMosaic.PureOps.Ideal
import Idealize.ShloMosaic.Lib.ValueIdx

noncomputable section

namespace Idealize.ShloMosaic.GatherRows

open Idealize.ShloMosaic Idealize.ShloMosaic.ValueIdx

/-- The dimension numbers of a ROW gather: result row `e` is the operand's row `idx[e, 0]`. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row an id names: the id read signed, clamped into `[0, N − 1]`. -/
def rowOf {N E w : Nat} (hN : 0 < N) (idx : IVec ⟨2, ![E, 1]⟩ w) (e : Fin E) : Fin N :=
  ⟨min (idx (ix2 e (0 : Fin 1))).toInt.toNat (N - 1), by omega⟩

section Rows
variable {α : Type} {N D E w : Nat}
  (wf : GatherDims.WF ⟨2, ![N, D]⟩ ⟨2, ![E, 1]⟩ ⟨2, ![E, D]⟩ [1] [0] [] [0] [] 1 ![1, D])

/-- THE ROW GATHER READ AT `(e, q)`: the operand at row `rowOf idx e`, column `q`. -/
theorem gather_rows_apply (hN : 0 < N) (x : (⟨2, ![N, D]⟩ : Shape).Idx → α) (idx : IVec ⟨2, ![E, 1]⟩ w)
    (e : Fin E) (q : Fin D) :
    Host.gather (rowGatherDims N D E wf) x idx (ix2 e q) = x (ix2 (rowOf hN idx e) q) := by
  have hrow : (rowGatherDims N D E wf).start (ix2 e q) idx (0 : Fin 2) + (rowGatherDims N D E wf).batchCoord (ix2 e q) (0 : Fin 2)
      + (rowGatherDims N D E wf).offCoord (ix2 e q) (0 : Fin 2) = (rowOf hN idx e).val := by
    -- the row axis is collapsed and not batched: no offset, no batch coordinate; its start is the clamped id
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e q) ⟨List.idxOf (0 : Fin 2) (rowGatherDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have hcol : (rowGatherDims N D E wf).start (ix2 e q) idx (1 : Fin 2) + (rowGatherDims N D E wf).batchCoord (ix2 e q) (1 : Fin 2)
      + (rowGatherDims N D E wf).offCoord (ix2 e q) (1 : Fin 2) = q.val := by
    -- the column axis is not in the start index map: it starts at 0 and keeps the result's column
    have h0 : (rowGatherDims N D E wf).start (ix2 e q) idx (1 : Fin 2) = 0 := by
      unfold GatherDims.start
      rw [dif_neg (fun h => Nat.one_ne_zero (congrArg Fin.val (List.mem_singleton.mp h)))]
    have h1 : (rowGatherDims N D E wf).offCoord (ix2 e q) (1 : Fin 2) = q.val := by
      unfold GatherDims.offCoord
      rw [dif_pos ((GatherDims.mem_sKept _ _).mpr
        ⟨fun h => Nat.one_ne_zero (congrArg Fin.val (List.mem_singleton.mp h)), List.not_mem_nil⟩)]
      rfl
    rw [GatherDims.batchCoord_eq_zero _ _ _ List.not_mem_nil, h0, h1, Nat.zero_add]
  unfold Host.gather
  congr 1
  funext a
  refine Fin.ext ?_
  match a with
  | ⟨0, _⟩ => exact hrow
  | ⟨1, _⟩ => exact hcol

end Rows

end Idealize.ShloMosaic.GatherRows

end
-- ==== Proof.LibAggRows.lean ====
/-
  GATHER THE SOURCE ROWS, ADD THEM UP AT THE DESTINATION ROWS (what `jax.ops.segment_sum(X[src], dst, num_segments = N)` lowers
  to: a row gather feeding a row scatter-add onto zeros), read at an element on the extended reals, for any extents:

    * `agg_rows_apply` — element `(r, q)` of the result is `0 + ∑ a, if dst[a] = r then X[row a, q] else 0`, the sum over ALL edges
      `a` of the source row's entry where the edge's destination id (read signed) is `r`, with `row a` the source id read
      signed and clamped (LibGatherRows `rowOf`); an edge whose destination id names no row contributes nowhere;
    * `bcast_col_apply` / `bcast_vec_col_apply` — a column `[N, 1]` broadcast along the rows of an `[N, D]` array reads the
      column's entry of the row, and a vector `[N]` as a column `[N, 1]` reads the vector's entry.
-/
import proofs.«122720_j47107201302764_2_alg».proof.Proof.LibSegmentSum
import proofs.«122720_j47107201302764_2_alg».proof.Proof.LibGatherRows
import Idealize.ShloMosaic.PureOps.Ideal.Laws
import Idealize.ShloMosaic.Lib.IdealHost

noncomputable section

open scoped BigOperators

namespace Idealize.ShloMosaic.AggRows

open Idealize.ShloMosaic Idealize.ShloMosaic.ValueIdx Idealize.ShloMosaic.SegmentSum Idealize.ShloMosaic.GatherRows

variable {N D E w : Nat}

/-- THE AGGREGATE READ AT `(r, q)`. -/
theorem agg_rows_apply (hN : 0 < N)
    (wfS : ScatterDims.WF ⟨2, ![N, D]⟩ ⟨2, ![E, 1]⟩ ⟨2, ![E, D]⟩ [1] [0] [0] 1)
    (wfG : GatherDims.WF ⟨2, ![N, D]⟩ ⟨2, ![E, 1]⟩ ⟨2, ![E, D]⟩ [1] [0] [] [0] [] 1 ![1, D])
    (hz : (⟨0, ![]⟩ : Shape).BroadcastsInDim ⟨2, ![N, D]⟩ ![])
    (dstB srcB : IVec ⟨2, ![E, 1]⟩ w) (X : FVec Ideal ⟨2, ![N, D]⟩ .f32) (r : Fin N) (q : Fin D) :
    Host.scatterAdd (F := Ideal) (rowScatterDims N D E wfS)
        (broadcastInDim ⟨2, ![N, D]⟩ ![] hz (constant (F := Ideal) ⟨0, ![]⟩ .f32 0x00000000#32)) dstB
        (Host.gather (rowGatherDims N D E wfG) X srcB) (ix2 r q)
      = 0 + ∑ a : Fin E, if (dstB (ix2 a (0 : Fin 1))).toInt = (r.val : Int) then X (ix2 (rowOf hN srcB a) q) else 0 := by
  rw [scatterAdd_rows_apply, broadcastInDim_scalar_apply, constant_apply, Ideal.ofBits_zero_f32]
  simp only [gather_rows_apply wfG hN]

/-- A column broadcast along the rows reads the row's entry of the column. -/
theorem bcast_col_apply {α : Type} (hc : (⟨2, ![N, 1]⟩ : Shape).BroadcastsInDim ⟨2, ![N, D]⟩ ![0, 1])
    (col : (⟨2, ![N, 1]⟩ : Shape).Idx → α) (r : Fin N) (q : Fin D) :
    broadcastInDim ⟨2, ![N, D]⟩ ![0, 1] hc col (ix2 r q) = col (ix2 r (0 : Fin 1)) := by
  refine broadcastInDim_apply _ hc col (ix2 r q) (ix2 r (0 : Fin 1)) fun a => ?_
  match a with
  | ⟨0, _⟩ =>
    show r.val = if N = 1 then 0 else r.val
    split
    · have := r.isLt; omega
    · rfl
  | ⟨1, _⟩ => rfl

/-- A vector as a column reads the vector's entry. -/
theorem bcast_vec_col_apply {α : Type} (hc : (⟨1, ![N]⟩ : Shape).BroadcastsInDim ⟨2, ![N, 1]⟩ ![0])
    (v : (⟨1, ![N]⟩ : Shape).Idx → α) (r : Fin N) :
    broadcastInDim ⟨2, ![N, 1]⟩ ![0] hc v (ix2 r (0 : Fin 1)) = v (ix1 r) := by
  refine broadcastInDim_apply _ hc v (ix2 r (0 : Fin 1)) (ix1 r) fun a => ?_
  match a with
  | ⟨0, _⟩ =>
    show r.val = if N = 1 then 0 else r.val
    split
    · have := r.isLt; omega
    · rfl

end Idealize.ShloMosaic.AggRows

end
-- ==== Proof.HostBridge.lean ====
/-
  The two programs' host aggregation, read as the specification's.

  From the edge list `a1` (two rows of 160000 ids) both programs take the same three things: which edges end at a node
  (`sel a1 a r`: edge `a`'s destination id, read signed, is `r`), which row an edge starts from (`g a1 a`: its source id,
  a negative one wrapped by the node count, read signed and clamped into the node range), and the degree raised to at
  least one (`dm a1 r`). With these,

    * the kernel's `mean128` / `mean512` / `mean16` of an array is the spec's `meanP (dm a1) (agg (sel a1) (g a1) ·)` of it,
    * the reference's `agg128` / `agg1024` / `agg512` of an array is the spec's `agg (sel a1) (g a1) ·` of it, and its
      `dmax` is `dm a1`,
    * and `1 ≤ dm a1 r` for every node `r`, the degree being a maximum with one.
-/
import proofs.«122720_j47107201302764_2_alg».proof.Proof.KernelHostDefs
import proofs.«122720_j47107201302764_2_alg».proof.Proof.RefValue
import proofs.«122720_j47107201302764_2_alg».proof.Proof.LibAggRows
import proofs.«122720_j47107201302764_2_alg».proof.Proof.GraphSpec

set_option maxRecDepth 16384

noncomputable section

open scoped BigOperators

namespace Cert.HostBridge

open Idealize.ShloMosaic Idealize.ShloMosaic.ValueIdx Idealize.ShloMosaic.SegmentSum Idealize.ShloMosaic.GatherRows
  Idealize.ShloMosaic.AggRows
open Cert.KernelIdeal Cert.KernelIdeal.Facts₀ Cert.KernelIdeal.Facts Cert.KernelIdeal.HostValue Cert.GraphSpec

theorem hN : 0 < 20000 := by decide

/-- The destination ids as a column of scatter indices. -/
def dstB (a1 : IVec S2x160000 32) : IVec S160000x1 32 :=
  broadcastInDim S160000x1 ![0] bcast_S160000_S160000x1_0 (dstRaw a1)

/-- The wrapped source ids as a column of gather indices. -/
def srcB (a1 : IVec S2x160000 32) : IVec S160000x1 32 := srcWrap (srcRaw a1)

/-- Edge `a` ends at node `r`. -/
def sel (a1 : IVec S2x160000 32) (a : Fin 160000) (r : Fin 20000) : Prop :=
  (dstB a1 (ix2 a (0 : Fin 1))).toInt = (r.val : Int)

instance (a1 : IVec S2x160000 32) (a : Fin 160000) (r : Fin 20000) : Decidable (sel a1 a r) := by
  unfold sel; infer_instance

/-- The node edge `a` starts from. -/
def g (a1 : IVec S2x160000 32) : Fin 160000 → Fin 20000 := rowOf hN (srcB a1)

/-- A node's degree raised to at least one. -/
def dm (a1 : IVec S2x160000 32) : Fin 20000 → EReal := vec (dmax (dstRaw a1))

/-- The degree is a maximum with one. -/
theorem one_le_dm (a1 : IVec S2x160000 32) (r : Fin 20000) : 1 ≤ dm a1 r := by
  show 1 ≤ dmax (dstRaw a1) (ix1 r)
  unfold dmax
  rw [maximumf_apply, broadcastInDim_scalar_apply, constant_apply, Ideal.ofBits_one_f32]
  exact le_max_right _ _

/-- The reciprocal degree column at a row. -/
theorem dcol_apply (a1 : IVec S2x160000 32) (r : Fin 20000) :
    dcol (dstRaw a1) (ix2 r (0 : Fin 1)) = Ideal.div 1 (dm a1 r) := by
  unfold dcol
  rw [bcast_vec_col_apply, hostDivf_apply, broadcastInDim_scalar_apply, constant_apply, Ideal.ofBits_one_f32]
  rfl

/-- The kernel's mean of a `128`-column array is the spec's `meanP` of the spec's aggregate. -/
theorem mat_mean128 (a1 : IVec S2x160000 32) (X : FVec Ideal S20000x128 .f32) :
    mat (mean128 (dstRaw a1) (srcRaw a1) (dcol (dstRaw a1)) X) = meanP (dm a1) (agg (sel a1) (g a1) (mat X)) := by
  have wfS : ScatterDims.WF ⟨2, ![20000, 128]⟩ ⟨2, ![160000, 1]⟩ ⟨2, ![160000, 128]⟩ [1] [0] [0] 1 :=
    scatter_S20000x128_S160000x1_S160000x128_1_0_0_1.wf
  have wfG : GatherDims.WF ⟨2, ![20000, 128]⟩ ⟨2, ![160000, 1]⟩ ⟨2, ![160000, 128]⟩ [1] [0] [] [0] [] 1 ![1, 128] :=
    gather_S20000x128_S160000x1_S160000x128_1_0_n_n_0_1_1128.wf
  funext r q
  show mulf
      (Host.scatterAdd (rowScatterDims 20000 128 160000 wfS)
        (broadcastInDim ⟨2, ![20000, 128]⟩ ![] bcast_S_S20000x128 (constant ⟨0, ![]⟩ .f32 0x00000000#32)) (dstB a1)
        (Host.gather (rowGatherDims 20000 128 160000 wfG) X (srcB a1)))
      (broadcastInDim ⟨2, ![20000, 128]⟩ ![0, 1] bcast_S20000x1_S20000x128_0_1 (dcol (dstRaw a1))) (ix2 r q) = _
  rw [mulf_apply, bcast_col_apply, dcol_apply]
  exact congrArg (· * Ideal.div 1 (dm a1 r)) (agg_rows_apply hN wfS wfG bcast_S_S20000x128 (dstB a1) (srcB a1) X r q)

/-- The kernel's mean of a `512`-column array is the spec's `meanP` of the spec's aggregate. -/
theorem mat_mean512 (a1 : IVec S2x160000 32) (X : FVec Ideal S20000x512 .f32) :
    mat (mean512 (dstRaw a1) (srcRaw a1) (dcol (dstRaw a1)) X) = meanP (dm a1) (agg (sel a1) (g a1) (mat X)) := by
  have wfS : ScatterDims.WF ⟨2, ![20000, 512]⟩ ⟨2, ![160000, 1]⟩ ⟨2, ![160000, 512]⟩ [1] [0] [0] 1 :=
    scatter_S20000x512_S160000x1_S160000x512_1_0_0_1.wf
  have wfG : GatherDims.WF ⟨2, ![20000, 512]⟩ ⟨2, ![160000, 1]⟩ ⟨2, ![160000, 512]⟩ [1] [0] [] [0] [] 1 ![1, 512] :=
    gather_S20000x512_S160000x1_S160000x512_1_0_n_n_0_1_1512.wf
  funext r q
  show mulf
      (Host.scatterAdd (rowScatterDims 20000 512 160000 wfS)
        (broadcastInDim ⟨2, ![20000, 512]⟩ ![] bcast_S_S20000x512 (constant ⟨0, ![]⟩ .f32 0x00000000#32)) (dstB a1)
        (Host.gather (rowGatherDims 20000 512 160000 wfG) X (srcB a1)))
      (broadcastInDim ⟨2, ![20000, 512]⟩ ![0, 1] bcast_S20000x1_S20000x512_0_1 (dcol (dstRaw a1))) (ix2 r q) = _
  rw [mulf_apply, bcast_col_apply, dcol_apply]
  exact congrArg (· * Ideal.div 1 (dm a1 r)) (agg_rows_apply hN wfS wfG bcast_S_S20000x512 (dstB a1) (srcB a1) X r q)

/-- The kernel's mean of a `16`-column array is the spec's `meanP` of the spec's aggregate. -/
theorem mat_mean16 (a1 : IVec S2x160000 32) (X : FVec Ideal S20000x16 .f32) :
    mat (mean16 (dstRaw a1) (srcRaw a1) (dcol (dstRaw a1)) X) = meanP (dm a1) (agg (sel a1) (g a1) (mat X)) := by
  have wfS : ScatterDims.WF ⟨2, ![20000, 16]⟩ ⟨2, ![160000, 1]⟩ ⟨2, ![160000, 16]⟩ [1] [0] [0] 1 :=
    scatter_S20000x16_S160000x1_S160000x16_1_0_0_1.wf
  have wfG : GatherDims.WF ⟨2, ![20000, 16]⟩ ⟨2, ![160000, 1]⟩ ⟨2, ![160000, 16]⟩ [1] [0] [] [0] [] 1 ![1, 16] :=
    gather_S20000x16_S160000x1_S160000x16_1_0_n_n_0_1_116.wf
  funext r q
  show mulf
      (Host.scatterAdd (rowScatterDims 20000 16 160000 wfS)
        (broadcastInDim ⟨2, ![20000, 16]⟩ ![] bcast_S_S20000x16 (constant ⟨0, ![]⟩ .f32 0x00000000#32)) (dstB a1)
        (Host.gather (rowGatherDims 20000 16 160000 wfG) X (srcB a1)))
      (broadcastInDim ⟨2, ![20000, 16]⟩ ![0, 1] bcast_S20000x1_S20000x16_0_1 (dcol (dstRaw a1))) (ix2 r q) = _
  rw [mulf_apply, bcast_col_apply, dcol_apply]
  exact congrArg (· * Ideal.div 1 (dm a1 r)) (agg_rows_apply hN wfS wfG bcast_S_S20000x16 (dstB a1) (srcB a1) X r q)

/-! ## The reference's side: the same edges, the same rows, the same degree -/

/-- The reference's degree is the kernel's. -/
theorem vec_dmax (a1 : IVec S2x160000 32) : vec (Cert.ReferenceIdeal.RefValue.dmax a1) = dm a1 := rfl

/-- The reference's aggregate of a `128`-column array is the spec's aggregate over the same edges. -/
theorem mat_agg128 (a1 : IVec S2x160000 32) (X : FVec Ideal S20000x128 .f32) :
    mat (Cert.ReferenceIdeal.RefValue.agg128 a1 X) = agg (sel a1) (g a1) (mat X) := by
  have wfS : ScatterDims.WF ⟨2, ![20000, 128]⟩ ⟨2, ![160000, 1]⟩ ⟨2, ![160000, 128]⟩ [1] [0] [0] 1 :=
    Cert.ReferenceIdeal.scatter_S20000x128_S160000x1_S160000x128_1_0_0_1.wf
  have wfG : GatherDims.WF ⟨2, ![20000, 128]⟩ ⟨2, ![160000, 1]⟩ ⟨2, ![160000, 128]⟩ [1] [0] [] [0] [] 1 ![1, 128] :=
    Cert.ReferenceIdeal.gather_S20000x128_S160000x1_S160000x128_1_0_n_n_0_1_1128.wf
  have hz : (⟨0, ![]⟩ : Shape).BroadcastsInDim ⟨2, ![20000, 128]⟩ ![] := Cert.ReferenceIdeal.Facts₀.bcast_S_S20000x128
  funext r q
  show Host.scatterAdd (rowScatterDims 20000 128 160000 wfS)
        (broadcastInDim ⟨2, ![20000, 128]⟩ ![] hz (constant ⟨0, ![]⟩ .f32 0x00000000#32)) (dstB a1)
        (Host.gather (rowGatherDims 20000 128 160000 wfG) X (srcB a1)) (ix2 r q) = _
  exact agg_rows_apply hN wfS wfG hz (dstB a1) (srcB a1) X r q

/-- The reference's aggregate of a `1024`-column array is the spec's aggregate over the same edges. -/
theorem mat_agg1024 (a1 : IVec S2x160000 32) (X : FVec Ideal S20000x1024 .f32) :
    mat (Cert.ReferenceIdeal.RefValue.agg1024 a1 X) = agg (sel a1) (g a1) (mat X) := by
  have wfS : ScatterDims.WF ⟨2, ![20000, 1024]⟩ ⟨2, ![160000, 1]⟩ ⟨2, ![160000, 1024]⟩ [1] [0] [0] 1 :=
    Cert.ReferenceIdeal.scatter_S20000x1024_S160000x1_S160000x1024_1_0_0_1.wf
  have wfG : GatherDims.WF ⟨2, ![20000, 1024]⟩ ⟨2, ![160000, 1]⟩ ⟨2, ![160000, 1024]⟩ [1] [0] [] [0] [] 1 ![1, 1024] :=
    Cert.ReferenceIdeal.gather_S20000x1024_S160000x1_S160000x1024_1_0_n_n_0_1_11024.wf
  have hz : (⟨0, ![]⟩ : Shape).BroadcastsInDim ⟨2, ![20000, 1024]⟩ ![] := Cert.ReferenceIdeal.Facts₀.bcast_S_S20000x1024
  funext r q
  show Host.scatterAdd (rowScatterDims 20000 1024 160000 wfS)
        (broadcastInDim ⟨2, ![20000, 1024]⟩ ![] hz (constant ⟨0, ![]⟩ .f32 0x00000000#32)) (dstB a1)
        (Host.gather (rowGatherDims 20000 1024 160000 wfG) X (srcB a1)) (ix2 r q) = _
  exact agg_rows_apply hN wfS wfG hz (dstB a1) (srcB a1) X r q

/-- The reference's aggregate of a `512`-column array is the spec's aggregate over the same edges. -/
theorem mat_agg512 (a1 : IVec S2x160000 32) (X : FVec Ideal S20000x512 .f32) :
    mat (Cert.ReferenceIdeal.RefValue.agg512 a1 X) = agg (sel a1) (g a1) (mat X) := by
  have wfS : ScatterDims.WF ⟨2, ![20000, 512]⟩ ⟨2, ![160000, 1]⟩ ⟨2, ![160000, 512]⟩ [1] [0] [0] 1 :=
    Cert.ReferenceIdeal.scatter_S20000x512_S160000x1_S160000x512_1_0_0_1.wf
  have wfG : GatherDims.WF ⟨2, ![20000, 512]⟩ ⟨2, ![160000, 1]⟩ ⟨2, ![160000, 512]⟩ [1] [0] [] [0] [] 1 ![1, 512] :=
    Cert.ReferenceIdeal.gather_S20000x512_S160000x1_S160000x512_1_0_n_n_0_1_1512.wf
  have hz : (⟨0, ![]⟩ : Shape).BroadcastsInDim ⟨2, ![20000, 512]⟩ ![] := Cert.ReferenceIdeal.Facts₀.bcast_S_S20000x512
  funext r q
  show Host.scatterAdd (rowScatterDims 20000 512 160000 wfS)
        (broadcastInDim ⟨2, ![20000, 512]⟩ ![] hz (constant ⟨0, ![]⟩ .f32 0x00000000#32)) (dstB a1)
        (Host.gather (rowGatherDims 20000 512 160000 wfG) X (srcB a1)) (ix2 r q) = _
  exact agg_rows_apply hN wfS wfG hz (dstB a1) (srcB a1) X r q

end Cert.HostBridge

end
-- ==== Proof.KernelLayout.lean ====
/-
  The kernel's layout operations on the host, read element by element.

  A bias of `D` entries reshaped to a one-row `[1, D]` array has the bias's entry `q` at row 0, column `q`. Two `[512, 8]`
  arrays set side by side form a `[512, 16]` array whose columns 0–7 are the first array's and whose columns 8–15 are the
  second's; two biases of 8 entries set end to end likewise. Columns 0–7 and columns 8–15 of a `[20000, 16]` array are its
  left and right halves. `lo q` and `hi q` name column `q` of the low half and of the high half among the sixteen.
-/
import proofs.«122720_j47107201302764_2_alg».proof.Proof.KernelHostDefs
import proofs.«122720_j47107201302764_2_alg».proof.Proof.GraphSpec
import Idealize.ShloMosaic.Lib.Pipeline.Value
import Idealize.ShloMosaic.Lib.ValueIdx

set_option maxRecDepth 16384

noncomputable section

namespace Cert.KernelIdeal.Layout

open Cert.KernelIdeal Cert.KernelIdeal.Gen Cert.KernelIdeal.HostValue Cert.GraphSpec
open Idealize.ShloMosaic Idealize.ShloMosaic.ValueIdx

/-- Column `q` of the low half of sixteen columns. -/
def lo (q : Fin 8) : Fin 16 := ⟨q.val, by have := q.isLt; omega⟩
/-- Column `q` of the high half of sixteen columns. -/
def hi (q : Fin 8) : Fin 16 := ⟨8 + q.val, by have := q.isLt; omega⟩

@[simp] theorem lo_val (q : Fin 8) : (lo q).val = q.val := rfl
@[simp] theorem hi_val (q : Fin 8) : (hi q).val = 8 + q.val := rfl

/-! ## A bias as a one-row array -/

/-- The one row of a bias of 1024 entries reshaped to `[1, 1024]` is the bias. -/
theorem row1_biasRow1024 (b : FVec Ideal S1024 .f32) : row1 (biasRow1024 b) = vec b := by
  funext q
  show biasRow1024 b (ix2 (0 : Fin 1) q) = b (ix1 q)
  unfold biasRow1024
  refine (shapeCast_addUnit_apply ![1024] b shapeCasts_S1024_S1x1024 (ix2 (0 : Fin 1) q)).trans (congrArg b (funext fun a => ?_))
  match a with
  | ⟨0, _⟩ => rfl

/-- The one row of a bias of 512 entries reshaped to `[1, 512]` is the bias. -/
theorem row1_biasRow512 (b : FVec Ideal S512 .f32) : row1 (biasRow512 b) = vec b := by
  funext q
  show biasRow512 b (ix2 (0 : Fin 1) q) = b (ix1 q)
  unfold biasRow512
  refine (shapeCast_addUnit_apply ![512] b shapeCasts_S512_S1x512 (ix2 (0 : Fin 1) q)).trans (congrArg b (funext fun a => ?_))
  match a with
  | ⟨0, _⟩ => rfl

/-- The one row of a bias of 16 entries reshaped to `[1, 16]` is the bias. -/
theorem row1_biasRow16 (b : FVec Ideal S16 .f32) : row1 (biasRow16 b) = vec b := by
  funext q
  show biasRow16 b (ix2 (0 : Fin 1) q) = b (ix1 q)
  unfold biasRow16
  refine (shapeCast_addUnit_apply ![16] b shapeCasts_S16_S1x16 (ix2 (0 : Fin 1) q)).trans (congrArg b (funext fun a => ?_))
  match a with
  | ⟨0, _⟩ => rfl

/-! ## Two arrays side by side -/

/-- Columns 0–7 of two `[512, 8]` arrays set side by side are the first array's. -/
theorem mat_cat2_lo (a b : FVec Ideal S512x8 .f32) (x : Fin 512) (q : Fin 8) : mat (cat2 a b) x (lo q) = mat a x q := by
  show cat2 a b (ix2 x (lo q)) = a (ix2 x q)
  unfold cat2
  exact concatenate_pair_apply_left 1 a b concatenates_S512x8_S512x8_S512x16_d1 (ix2 x (lo q)) rfl (ix2 x q) (fun c => match c with
    | ⟨0, _⟩ => rfl
    | ⟨1, _⟩ => rfl)

/-- Columns 8–15 of two `[512, 8]` arrays set side by side are the second array's. -/
theorem mat_cat2_hi (a b : FVec Ideal S512x8 .f32) (x : Fin 512) (q : Fin 8) : mat (cat2 a b) x (hi q) = mat b x q := by
  show cat2 a b (ix2 x (hi q)) = b (ix2 x q)
  unfold cat2
  exact concatenate_pair_apply_right 1 a b concatenates_S512x8_S512x8_S512x16_d1 (ix2 x (hi q)) rfl rfl (ix2 x q)
    (fun c hc => match c, hc with
      | ⟨0, _⟩, _ => rfl
      | ⟨1, _⟩, hc => (hc (Fin.ext rfl)).elim)
    (by show q.val + 8 = 8 + q.val; omega)

/-- Entries 0–7 of two biases of 8 entries set end to end are the first bias's. -/
theorem vec_cat1_lo (a b : FVec Ideal S8 .f32) (q : Fin 8) : vec (cat1 a b) (lo q) = vec a q := by
  show cat1 a b (ix1 (lo q)) = a (ix1 q)
  unfold cat1
  exact concatenate_pair_apply_left 0 a b concatenates_S8_S8_S16_d0 (ix1 (lo q)) rfl (ix1 q) (fun c => match c with
    | ⟨0, _⟩ => rfl)

/-- Entries 8–15 of two biases of 8 entries set end to end are the second bias's. -/
theorem vec_cat1_hi (a b : FVec Ideal S8 .f32) (q : Fin 8) : vec (cat1 a b) (hi q) = vec b q := by
  show cat1 a b (ix1 (hi q)) = b (ix1 q)
  unfold cat1
  exact concatenate_pair_apply_right 0 a b concatenates_S8_S8_S16_d0 (ix1 (hi q)) rfl rfl (ix1 q)
    (fun c hc => match c, hc with
      | ⟨0, _⟩, hc => (hc (Fin.ext rfl)).elim)
    (by show q.val + 8 = 8 + q.val; omega)

/-! ## The two halves of an array of sixteen columns -/

/-- The left half of a `[20000, 16]` array holds its columns 0–7. -/
theorem mat_leftHalf (y : FVec Ideal S20000x16 .f32) (p : Fin 20000) (q : Fin 8) : mat (leftHalf y) p q = mat y p (lo q) := by
  show leftHalf y (ix2 p q) = y (ix2 p (lo q))
  unfold leftHalf
  exact extractStridedSlice_apply ![0, 0] y slices_S20000x16_S20000x8_0_0 (ix2 p q) (ix2 p (lo q)) (fun c => match c with
    | ⟨0, _⟩ => by show p.val = 0 + p.val; omega
    | ⟨1, _⟩ => by show q.val = 0 + q.val; omega)

/-- The right half of a `[20000, 16]` array holds its columns 8–15. -/
theorem mat_rightHalf (y : FVec Ideal S20000x16 .f32) (p : Fin 20000) (q : Fin 8) : mat (rightHalf y) p q = mat y p (hi q) := by
  show rightHalf y (ix2 p q) = y (ix2 p (hi q))
  unfold rightHalf
  exact extractStridedSlice_apply ![0, 8] y slices_S20000x16_S20000x8_0_8 (ix2 p q) (ix2 p (hi q)) (fun c => match c with
    | ⟨0, _⟩ => by show p.val = 0 + p.val; omega
    | ⟨1, _⟩ => by show 8 + q.val = 8 + q.val; rfl)

end Cert.KernelIdeal.Layout

end
-- ==== Proof.LibGraphAlg.lean ====
/-
  Mean aggregation commutes with a linear map of the rows: the algebra, on the extended reals, over arbitrary finite
  index types, with no program in sight.

  On the extended reals a product does not distribute over a sum when infinities of both signs may meet, so every law
  here that moves a factor across a sum is stated for entries that are REAL numbers (`IsReal`): the proof chooses the
  real witnesses, computes in ℝ, and pushes the coercion back out.

    * `IsReal` and its closure under `0`, `+`, `·`, `max`, `if`, finite sums, and the reciprocal of a number `≥ 1`
      (which is real even at `⊤`, where it is `0`);
    * `div_eq_mul_inv_of_one_le`: the ideal quotient by a number `≥ 1` is the product with its reciprocal, so
      `a / d = a · (1 / d)` (`div_eq_mul_one_div`) for EVERY extended real `a`;
    * `agg_proj_comm`: for real entries, first projecting every source row onto a column `w` and then averaging the
      projections over the edges that end at a node is the same as averaging the rows and projecting the average:
      `(∑_{a ends here} ∑_x X (g a) x · w x) · (1/d) = ∑_x ((∑_{a ends here} X (g a) x) / d) · w x`.
-/
import Idealize.ShloMosaic.PureOps.Ideal

noncomputable section

open scoped BigOperators

namespace Idealize.ShloMosaic.GraphAlg

/-- An extended real that is a real number. -/
def IsReal (a : EReal) : Prop := ∃ r : ℝ, a = (r : EReal)

theorem IsReal.coe (r : ℝ) : IsReal (r : EReal) := ⟨r, rfl⟩

theorem IsReal.zero : IsReal 0 := ⟨0, rfl⟩

theorem IsReal.add {a b : EReal} : IsReal a → IsReal b → IsReal (a + b)
  | ⟨x, hx⟩, ⟨y, hy⟩ => ⟨x + y, by rw [hx, hy, EReal.coe_add]⟩

theorem IsReal.mul {a b : EReal} : IsReal a → IsReal b → IsReal (a * b)
  | ⟨x, hx⟩, ⟨y, hy⟩ => ⟨x * y, by rw [hx, hy, EReal.coe_mul]⟩

theorem IsReal.max {a b : EReal} (ha : IsReal a) (hb : IsReal b) : IsReal (max a b) := by
  rcases le_total a b with h | h
  · rw [max_eq_right h]; exact hb
  · rw [max_eq_left h]; exact ha

theorem IsReal.ite {c : Prop} [Decidable c] {a b : EReal} (ha : IsReal a) (hb : IsReal b) : IsReal (if c then a else b) := by
  split
  · exact ha
  · exact hb

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem IsReal.sum {ι : Type} (s : Finset ι) (f : ι → EReal) (h : ∀ i ∈ s, IsReal (f i)) : IsReal (∑ i ∈ s, f i) := by
  classical
  induction s using Finset.induction_on with
  | empty => exact IsReal.zero
  | insert a s ha ih =>
    rw [Finset.sum_insert ha]
    exact (h a (Finset.mem_insert_self a s)).add (ih fun i hi => h i (Finset.mem_insert_of_mem hi))

/-- The reciprocal of an extended real `≥ 1` is a real number (`⊤⁻¹ = 0`). -/
theorem IsReal.inv_of_one_le {d : EReal} (h : 1 ≤ d) : IsReal d⁻¹ := by
  induction d using EReal.rec with
  | bot => exact absurd (le_bot_iff.mp h) (EReal.coe_ne_bot 1)
  | top => exact ⟨0, EReal.inv_top⟩
  | coe r => exact ⟨r⁻¹, (EReal.coe_inv r).symm⟩

theorem ne_zero_of_one_le {d : EReal} (h : 1 ≤ d) : d ≠ 0 := fun e => by
  rw [e] at h
  exact absurd h (by norm_num)

/-- Off zero the ideal quotient is the product with the reciprocal. -/
theorem div_eq_mul_inv_of_one_le (a : EReal) {d : EReal} (h : 1 ≤ d) : Ideal.div a d = a * d⁻¹ :=
  if_neg (ne_zero_of_one_le h)

/-- `a / d = a · (1 / d)` for every extended real `a` and every `d ≥ 1`. -/
theorem div_eq_mul_one_div (a : EReal) {d : EReal} (h : 1 ≤ d) : Ideal.div a d = a * Ideal.div 1 d := by
  rw [div_eq_mul_inv_of_one_le a h, div_eq_mul_inv_of_one_le 1 h, one_mul]

theorem IsReal.div_of_one_le {a d : EReal} (ha : IsReal a) (h : 1 ≤ d) : IsReal (Ideal.div a d) := by
  rw [div_eq_mul_inv_of_one_le a h]
  exact ha.mul (IsReal.inv_of_one_le h)

section Linear
variable {e k n : Type} [Fintype e] [Fintype k]

/-- The law in ℝ: scale and project the sum of the selected rows, or sum the selected rows' projections and scale. -/
theorem real_agg_proj (s : e → Prop) [DecidablePred s] (g : e → n) (X : n → k → ℝ) (w : k → ℝ) (d : ℝ) :
    (∑ a, if s a then ∑ x, X (g a) x * w x else 0) * d = ∑ x, ((∑ a, if s a then X (g a) x else 0) * d) * w x := by
  simp only [Finset.sum_mul]
  rw [Finset.sum_comm]
  refine Finset.sum_congr rfl fun a _ => ?_
  by_cases h : s a
  · simp only [if_pos h]
    rw [Finset.sum_mul]
    exact Finset.sum_congr rfl fun x _ => by ring
  · simp only [if_neg h, zero_mul, Finset.sum_const_zero]

/-- PROJECT-THEN-AVERAGE IS AVERAGE-THEN-PROJECT, for real entries and a degree `d ≥ 1`. -/
theorem agg_proj_comm (s : e → Prop) [DecidablePred s] (g : e → n) (X : n → k → EReal) (w : k → EReal) (d : EReal)
    (hX : ∀ p x, IsReal (X p x)) (hw : ∀ x, IsReal (w x)) (hd : 1 ≤ d) :
    (0 + ∑ a, if s a then ∑ x, X (g a) x * w x else 0) * Ideal.div 1 d
      = ∑ x, Ideal.div (0 + ∑ a, if s a then X (g a) x else 0) d * w x := by
  choose X' hX' using hX
  choose w' hw' using hw
  obtain ⟨d', hd'⟩ := IsReal.inv_of_one_le hd
  simp only [div_eq_mul_inv_of_one_le _ hd, one_mul, zero_add, hd', hX', hw']
  have hL : (∑ a, if s a then ∑ x, (X' (g a) x : EReal) * (w' x : EReal) else 0) * (d' : EReal)
      = (((∑ a, if s a then ∑ x, X' (g a) x * w' x else 0) * d' : ℝ) : EReal) := by
    simp only [EReal.coe_mul, coe_sum, apply_ite (fun r : ℝ => (r : EReal)), EReal.coe_zero]
  have hR : (∑ x, ((∑ a, if s a then (X' (g a) x : EReal) else 0) * (d' : EReal)) * (w' x : EReal))
      = ((∑ x, ((∑ a, if s a then X' (g a) x else 0) * d') * w' x : ℝ) : EReal) := by
    simp only [EReal.coe_mul, coe_sum, apply_ite (fun r : ℝ => (r : EReal)), EReal.coe_zero]
  rw [hL, hR, real_agg_proj]

end Linear

end Idealize.ShloMosaic.GraphAlg

end
-- ==== Proof.GraphLaw.lean ====
/-
  The laws that let one stacked mean-aggregation graph convolution be computed in two arrangements, over plain matrices
  on the extended reals, with no program in sight.

  A degree is at least one, so dividing by it is multiplying by its reciprocal, for every extended real: the two ways of
  writing the mean agree with no finiteness assumed (`meanP_eq_meanQ`), and a layer whose bias is added last is the
  layer whose bias is added before the root term (`convP_eq`), by commutativity and associativity of the sum alone.

  Projecting the rows and then averaging them over the incoming edges is averaging and then projecting
  (`mean_proj_at`, `mean_proj`): a factor moves across a sum, so the entries must be real numbers. With it, a layer
  that aggregates an already projected matrix is the layer that aggregates first (`combine_eq`, `combineRelu_eq`), also
  column by column when the head's columns sit inside a wider fused matrix (`combine_col`). A layer of real inputs has
  real entries (`layerQ_real`, `layer_real`), which carries the hypotheses through the stack (`stack_h1`, `stack_h2`,
  `stack`).
-/
import proofs.«122720_j47107201302764_2_alg».proof.Proof.GraphSpec
import proofs.«122720_j47107201302764_2_alg».proof.Proof.LibGraphAlg

noncomputable section

open scoped BigOperators

namespace Cert.GraphLaw

open Cert.GraphSpec Idealize.ShloMosaic Idealize.ShloMosaic.GraphAlg

section Laws
variable {n e k j : Type} [Fintype e] [Fintype k]

/-! ## No finiteness needed -/

/-- The two ways of writing the mean agree when every degree is at least one. -/
theorem meanP_eq_meanQ (dm : n → EReal) (hdm : ∀ r, 1 ≤ dm r) (A : n → k → EReal) : meanP dm A = meanQ dm A :=
  funext fun r => funext fun q => (div_eq_mul_one_div (A r q) (hdm r)).symm

/-- The layer with the bias added last, rectified, is the rectified layer with the bias added before the root term. -/
theorem convP_eq (sel : e → n → Prop) [∀ a r, Decidable (sel a r)] (g : e → n) (dm : n → EReal) (hdm : ∀ r, 1 ≤ dm r)
    (x : n → k → EReal) (Wrel : k → j → EReal) (b : j → EReal) (Wroot : k → j → EReal) :
    convP (meanP dm (agg sel g x)) x Wrel b Wroot = relu (layerQ (meanQ dm (agg sel g x)) x Wrel b Wroot) := by
  rw [meanP_eq_meanQ dm hdm]
  funext p q
  show max ((proj (meanQ dm (agg sel g x)) Wrel p q + proj x Wroot p q) + b q) 0
    = max ((proj (meanQ dm (agg sel g x)) Wrel p q + b q) + proj x Wroot p q) 0
  rw [add_right_comm]

/-! ## Projecting and averaging commute, for real entries -/

/-- At one entry: the mean of the projected rows is the projection of the mean row, when the rows and the projecting
    column are real. -/
theorem mean_proj_at (sel : e → n → Prop) [∀ a r, Decidable (sel a r)] (g : e → n) (dm : n → EReal) (hdm : ∀ r, 1 ≤ dm r)
    (X : n → k → EReal) (hX : ∀ p x, IsReal (X p x)) (W : k → j → EReal) (r : n) (q : j) (hW : ∀ x, IsReal (W x q)) :
    meanP dm (agg sel g (proj X W)) r q = proj (meanQ dm (agg sel g X)) W r q :=
  agg_proj_comm (fun a => sel a r) g X (fun x => W x q) (dm r) hX hW (hdm r)

/-- The mean of the projected matrix is the projection of the mean. -/
theorem mean_proj (sel : e → n → Prop) [∀ a r, Decidable (sel a r)] (g : e → n) (dm : n → EReal) (hdm : ∀ r, 1 ≤ dm r)
    (X : n → k → EReal) (hX : ∀ p x, IsReal (X p x)) (W : k → j → EReal) (hW : ∀ x q, IsReal (W x q)) :
    meanP dm (agg sel g (proj X W)) = proj (meanQ dm (agg sel g X)) W :=
  funext fun r => funext fun q => mean_proj_at sel g dm hdm X hX W r q fun x => hW x q

/-- At one entry: the layer that aggregates the projected matrix is the layer that aggregates first, when the rows and
    the entry's column of the relation weights are real. -/
theorem combine_at (sel : e → n → Prop) [∀ a r, Decidable (sel a r)] (g : e → n) (dm : n → EReal) (hdm : ∀ r, 1 ≤ dm r)
    (X : n → k → EReal) (hX : ∀ p x, IsReal (X p x)) (Wrel : k → j → EReal) (Wroot : k → j → EReal) (b : j → EReal)
    (p : n) (q : j) (hW : ∀ x, IsReal (Wrel x q)) :
    combine (meanP dm (agg sel g (proj X Wrel))) X Wroot b p q = layerQ (meanQ dm (agg sel g X)) X Wrel b Wroot p q := by
  show (proj X Wroot p q + meanP dm (agg sel g (proj X Wrel)) p q) + b q
    = (proj (meanQ dm (agg sel g X)) Wrel p q + b q) + proj X Wroot p q
  rw [mean_proj_at sel g dm hdm X hX Wrel p q hW, add_comm (proj X Wroot p q), add_right_comm]

/-- The layer that aggregates the projected matrix is the layer that aggregates first. -/
theorem combine_eq (sel : e → n → Prop) [∀ a r, Decidable (sel a r)] (g : e → n) (dm : n → EReal) (hdm : ∀ r, 1 ≤ dm r)
    (X : n → k → EReal) (hX : ∀ p x, IsReal (X p x)) (Wrel : k → j → EReal) (hW : ∀ x q, IsReal (Wrel x q))
    (Wroot : k → j → EReal) (b : j → EReal) :
    combine (meanP dm (agg sel g (proj X Wrel))) X Wroot b = layerQ (meanQ dm (agg sel g X)) X Wrel b Wroot :=
  funext fun p => funext fun q => combine_at sel g dm hdm X hX Wrel Wroot b p q fun x => hW x q

/-- The same, rectified. -/
theorem combineRelu_eq (sel : e → n → Prop) [∀ a r, Decidable (sel a r)] (g : e → n) (dm : n → EReal) (hdm : ∀ r, 1 ≤ dm r)
    (X : n → k → EReal) (hX : ∀ p x, IsReal (X p x)) (Wrel : k → j → EReal) (hW : ∀ x q, IsReal (Wrel x q))
    (Wroot : k → j → EReal) (b : j → EReal) :
    combineRelu (meanP dm (agg sel g (proj X Wrel))) X Wroot b = relu (layerQ (meanQ dm (agg sel g X)) X Wrel b Wroot) :=
  funext fun p => funext fun q =>
    congrArg (fun t => max t 0) (combine_at sel g dm hdm X hX Wrel Wroot b p q fun x => hW x q)

/-- COLUMN BY COLUMN: when the columns of a head sit inside wider fused matrices (column `q` of the head is column
    `ι q` of the fused relation weights, root weights and bias), the fused layer that aggregates the projected matrix,
    read at a head's column, is the head's layer that aggregates first. Only the head's relation weights need be real. -/
theorem combine_col {j' : Type} (sel : e → n → Prop) [∀ a r, Decidable (sel a r)] (g : e → n) (dm : n → EReal)
    (hdm : ∀ r, 1 ≤ dm r) (X : n → k → EReal) (hX : ∀ p x, IsReal (X p x)) (ι : j → j')
    (Wf Wrf : k → j' → EReal) (bf : j' → EReal) (Wh Whr : k → j → EReal) (bh : j → EReal)
    (hWf : ∀ x q, Wf x (ι q) = Wh x q) (hWr : ∀ x q, Wrf x (ι q) = Whr x q) (hb : ∀ q, bf (ι q) = bh q)
    (hWh : ∀ x q, IsReal (Wh x q)) (p : n) (q : j) :
    combine (meanP dm (agg sel g (proj X Wf))) X Wrf bf p (ι q) = layerQ (meanQ dm (agg sel g X)) X Wh bh Whr p q := by
  rw [combine_at sel g dm hdm X hX Wf Wrf bf p (ι q) fun x => by rw [hWf]; exact hWh x q]
  show (∑ x, meanQ dm (agg sel g X) p x * Wf x (ι q) + bf (ι q)) + ∑ x, X p x * Wrf x (ι q)
    = (∑ x, meanQ dm (agg sel g X) p x * Wh x q + bh q) + ∑ x, X p x * Whr x q
  simp only [hWf, hWr, hb]

/-! ## A layer of real inputs is real -/

/-- Every entry of a layer of real inputs is real. -/
theorem layerQ_real (sel : e → n → Prop) [∀ a r, Decidable (sel a r)] (g : e → n) (dm : n → EReal) (hdm : ∀ r, 1 ≤ dm r)
    (X : n → k → EReal) (hX : ∀ p x, IsReal (X p x)) (Wrel : k → j → EReal) (hWrel : ∀ x q, IsReal (Wrel x q))
    (b : j → EReal) (hb : ∀ q, IsReal (b q)) (Wroot : k → j → EReal) (hWroot : ∀ x q, IsReal (Wroot x q)) (p : n) (q : j) :
    IsReal (layerQ (meanQ dm (agg sel g X)) X Wrel b Wroot p q) := by
  show IsReal ((∑ x, Ideal.div (0 + ∑ a, if sel a p then X (g a) x else 0) (dm p) * Wrel x q + b q) + ∑ x, X p x * Wroot x q)
  exact ((IsReal.sum _ _ fun x _ =>
      ((IsReal.zero.add (IsReal.sum _ _ fun a _ => IsReal.ite (hX (g a) x) IsReal.zero)).div_of_one_le (hdm p)).mul
        (hWrel x q)).add (hb q)).add (IsReal.sum _ _ fun x _ => (hX p x).mul (hWroot x q))

/-- And so is every entry of the rectified layer. -/
theorem layer_real (sel : e → n → Prop) [∀ a r, Decidable (sel a r)] (g : e → n) (dm : n → EReal) (hdm : ∀ r, 1 ≤ dm r)
    (X : n → k → EReal) (hX : ∀ p x, IsReal (X p x)) (Wrel : k → j → EReal) (hWrel : ∀ x q, IsReal (Wrel x q))
    (b : j → EReal) (hb : ∀ q, IsReal (b q)) (Wroot : k → j → EReal) (hWroot : ∀ x q, IsReal (Wroot x q)) (p : n) (q : j) :
    IsReal (relu (layerQ (meanQ dm (agg sel g X)) X Wrel b Wroot) p q) :=
  (layerQ_real sel g dm hdm X hX Wrel hWrel b hb Wroot hWroot p q).max IsReal.zero

end Laws

/-! ## The stack: two rectified hidden layers and a head read inside a fused last layer -/

section Stack
variable {n e k0 k1 k2 j j' : Type} [Fintype e] [Fintype k0] [Fintype k1] [Fintype k2]

/-- The first hidden layer in the two arrangements. -/
theorem stack_h1 (sel : e → n → Prop) [∀ a r, Decidable (sel a r)] (g : e → n) (dm : n → EReal) (hdm : ∀ r, 1 ≤ dm r)
    (x : n → k0 → EReal) (W1 W1r : k0 → k1 → EReal) (b1 : k1 → EReal) :
    convP (meanP dm (agg sel g x)) x W1 b1 W1r = relu (layerQ (meanQ dm (agg sel g x)) x W1 b1 W1r) :=
  convP_eq sel g dm hdm x W1 b1 W1r

/-- The second hidden layer in the two arrangements. -/
theorem stack_h2 (sel : e → n → Prop) [∀ a r, Decidable (sel a r)] (g : e → n) (dm : n → EReal) (hdm : ∀ r, 1 ≤ dm r)
    (x : n → k0 → EReal) (hx : ∀ p c, IsReal (x p c))
    (W1 W1r : k0 → k1 → EReal) (b1 : k1 → EReal)
    (hW1 : ∀ c q, IsReal (W1 c q)) (hW1r : ∀ c q, IsReal (W1r c q)) (hb1 : ∀ q, IsReal (b1 q))
    (W2 W2r : k1 → k2 → EReal) (b2 : k2 → EReal) (hW2 : ∀ c q, IsReal (W2 c q)) :
    combineRelu (meanP dm (agg sel g (proj (convP (meanP dm (agg sel g x)) x W1 b1 W1r) W2)))
        (convP (meanP dm (agg sel g x)) x W1 b1 W1r) W2r b2
      = relu (layerQ (meanQ dm (agg sel g (relu (layerQ (meanQ dm (agg sel g x)) x W1 b1 W1r))))
          (relu (layerQ (meanQ dm (agg sel g x)) x W1 b1 W1r)) W2 b2 W2r) := by
  rw [convP_eq sel g dm hdm x W1 b1 W1r]
  exact combineRelu_eq sel g dm hdm _ (layer_real sel g dm hdm x hx W1 hW1 b1 hb1 W1r hW1r) W2 hW2 W2r b2

/-- THE STACK: the fused last layer of the arrangement that projects before it aggregates, read at a head's column,
    is the head's layer of the arrangement that aggregates first, on the same second hidden layer. -/
theorem stack (sel : e → n → Prop) [∀ a r, Decidable (sel a r)] (g : e → n) (dm : n → EReal) (hdm : ∀ r, 1 ≤ dm r)
    (x : n → k0 → EReal) (hx : ∀ p c, IsReal (x p c))
    (W1 W1r : k0 → k1 → EReal) (b1 : k1 → EReal)
    (hW1 : ∀ c q, IsReal (W1 c q)) (hW1r : ∀ c q, IsReal (W1r c q)) (hb1 : ∀ q, IsReal (b1 q))
    (W2 W2r : k1 → k2 → EReal) (b2 : k2 → EReal)
    (hW2 : ∀ c q, IsReal (W2 c q)) (hW2r : ∀ c q, IsReal (W2r c q)) (hb2 : ∀ q, IsReal (b2 q))
    (ι : j → j') (Wf Wrf : k2 → j' → EReal) (bf : j' → EReal) (Wh Whr : k2 → j → EReal) (bh : j → EReal)
    (hWf : ∀ c q, Wf c (ι q) = Wh c q) (hWr : ∀ c q, Wrf c (ι q) = Whr c q) (hb : ∀ q, bf (ι q) = bh q)
    (hWh : ∀ c q, IsReal (Wh c q)) (p : n) (q : j) :
    combine (meanP dm (agg sel g (proj
          (combineRelu (meanP dm (agg sel g (proj (convP (meanP dm (agg sel g x)) x W1 b1 W1r) W2)))
            (convP (meanP dm (agg sel g x)) x W1 b1 W1r) W2r b2) Wf)))
        (combineRelu (meanP dm (agg sel g (proj (convP (meanP dm (agg sel g x)) x W1 b1 W1r) W2)))
          (convP (meanP dm (agg sel g x)) x W1 b1 W1r) W2r b2) Wrf bf p (ι q)
      = layerQ (meanQ dm (agg sel g
            (relu (layerQ (meanQ dm (agg sel g (relu (layerQ (meanQ dm (agg sel g x)) x W1 b1 W1r))))
              (relu (layerQ (meanQ dm (agg sel g x)) x W1 b1 W1r)) W2 b2 W2r))))
          (relu (layerQ (meanQ dm (agg sel g (relu (layerQ (meanQ dm (agg sel g x)) x W1 b1 W1r))))
            (relu (layerQ (meanQ dm (agg sel g x)) x W1 b1 W1r)) W2 b2 W2r)) Wh bh Whr p q := by
  rw [stack_h2 sel g dm hdm x hx W1 W1r b1 hW1 hW1r hb1 W2 W2r b2 hW2]
  exact combine_col sel g dm hdm _
    (layer_real sel g dm hdm _ (layer_real sel g dm hdm x hx W1 hW1 b1 hb1 W1r hW1r) W2 hW2 b2 hb2 W2r hW2r)
    ι Wf Wrf bf Wh Whr bh hWf hWr hb hWh p q

end Stack

end Cert.GraphLaw

end
-- ==== Proof.Algebraic.lean ====
/-
  The kernel's two results are the reference's, as arrays, for real-valued float arguments.

  Read as matrices, the kernel's layers (KernelValue) are `convP` / `proj` / `combineRelu` / `combine` of the spec's
  `meanP` and `agg` over the edge relation, source rows and degree the edge list gives (HostBridge), and the reference's
  layers (RefValue) are `relu (layerQ (meanQ …))` over the same three. The program-free law (GraphLaw `stack`) says that,
  for real entries, aggregating after projecting equals projecting after aggregating, through both rectified layers and
  into each head's columns of the fused pair; the fused weights' and biases' left columns are `wmu`'s and the right
  ones `wls`'s (KernelLayout), which gives `mu` from the left half and `logstd` from the right half.
-/
import proofs.«122720_j47107201302764_2_alg».proof.Proof.KernelValue
import proofs.«122720_j47107201302764_2_alg».proof.Proof.HostBridge
import proofs.«122720_j47107201302764_2_alg».proof.Proof.KernelLayout
import proofs.«122720_j47107201302764_2_alg».proof.Proof.GraphLaw

set_option maxRecDepth 16384

noncomputable section

namespace Cert.Algebraic

open Idealize.ShloMosaic Idealize.ShloMosaic.ValueIdx Idealize.ShloMosaic.GraphAlg
open Cert.KernelIdeal Cert.KernelIdeal.HostValue Cert.KernelIdeal.Layout Cert.KernelIdeal.KernelValue
open Cert.GraphSpec Cert.HostBridge
open Cert.ReferenceIdeal.RefValue (H1 H2 head)

variable (a0 : FVec Ideal S20000x128 .f32) (a1 : IVec S2x160000 32)
  (a2 : FVec Ideal S128x1024 .f32) (a3 : FVec Ideal S1024 .f32) (a4 : FVec Ideal S128x1024 .f32)
  (a5 : FVec Ideal S1024x512 .f32) (a6 : FVec Ideal S512 .f32) (a7 : FVec Ideal S1024x512 .f32)
  (a8 : FVec Ideal S512x8 .f32) (a9 : FVec Ideal S8 .f32) (a10 : FVec Ideal S512x8 .f32)
  (a11 : FVec Ideal S512x8 .f32) (a12 : FVec Ideal S8 .f32) (a13 : FVec Ideal S512x8 .f32)

/-! ## The kernel's layers as matrices -/

theorem mat_h1 : mat (h1 a0 a1 a2 a3 a4)
    = convP (meanP (dm a1) (agg (sel a1) (g a1) (mat a0))) (mat a0) (mat a2) (vec a3) (mat a4) := by
  unfold h1; rw [mat_unmat, mat_mean128, row1_biasRow1024]

theorem mat_p2 : mat (p2 a0 a1 a2 a3 a4 a5) = proj (mat (h1 a0 a1 a2 a3 a4)) (mat a5) := by
  unfold p2; rw [mat_unmat]

theorem mat_h2 : mat (h2 a0 a1 a2 a3 a4 a5 a6 a7)
    = combineRelu (meanP (dm a1) (agg (sel a1) (g a1) (mat (p2 a0 a1 a2 a3 a4 a5)))) (mat (h1 a0 a1 a2 a3 a4)) (mat a7) (vec a6) := by
  unfold h2; rw [mat_unmat, mat_mean512, row1_biasRow512]

theorem mat_p3 (w w' : FVec Ideal S512x8 .f32) : mat (p3 a0 a1 a2 a3 a4 a5 a6 a7 w w')
    = proj (mat (h2 a0 a1 a2 a3 a4 a5 a6 a7)) (mat (cat2 w w')) := by
  unfold p3; rw [mat_unmat]

theorem mat_out : mat (out a0 a1 a2 a3 a4 a5 a6 a7 a8 a9 a10 a11 a12 a13)
    = combine (meanP (dm a1) (agg (sel a1) (g a1) (mat (p3 a0 a1 a2 a3 a4 a5 a6 a7 a8 a11)))) (mat (h2 a0 a1 a2 a3 a4 a5 a6 a7))
        (mat (cat2 a10 a13)) (vec (cat1 a9 a12)) := by
  unfold out; rw [mat_unmat, mat_mean16, row1_biasRow16]

/-! ## The reference's layers as matrices -/

theorem mat_H1 : mat (H1 a0 a1 a2 a3 a4)
    = relu (layerQ (meanQ (dm a1) (agg (sel a1) (g a1) (mat a0))) (mat a0) (mat a2) (vec a3) (mat a4)) := by
  unfold H1; rw [mat_unmat, vec_dmax, mat_agg128]

theorem mat_H2 : mat (H2 a0 a1 a2 a3 a4 a5 a6 a7)
    = relu (layerQ (meanQ (dm a1) (agg (sel a1) (g a1) (mat (H1 a0 a1 a2 a3 a4)))) (mat (H1 a0 a1 a2 a3 a4)) (mat a5) (vec a6) (mat a7)) := by
  unfold H2; rw [mat_unmat, vec_dmax, mat_agg1024]

theorem mat_head (w : FVec Ideal S512x8 .f32) (b : FVec Ideal S8 .f32) (wr : FVec Ideal S512x8 .f32) :
    mat (head a0 a1 a2 a3 a4 a5 a6 a7 w b wr)
    = layerQ (meanQ (dm a1) (agg (sel a1) (g a1) (mat (H2 a0 a1 a2 a3 a4 a5 a6 a7)))) (mat (H2 a0 a1 a2 a3 a4 a5 a6 a7)) (mat w) (vec b) (mat wr) := by
  unfold head; rw [mat_unmat, vec_dmax, mat_agg512]

/-! ## The two results -/

section Real
variable (r0 : ∀ i, IsReal (a0 i)) (r2 : ∀ i, IsReal (a2 i)) (r3 : ∀ i, IsReal (a3 i)) (r4 : ∀ i, IsReal (a4 i))
  (r5 : ∀ i, IsReal (a5 i)) (r6 : ∀ i, IsReal (a6 i)) (r7 : ∀ i, IsReal (a7 i))
include r0 r2 r3 r4 r5 r6 r7

/-- The left half of the fused heads is `mu`. -/
theorem mu_eq (r8 : ∀ i, IsReal (a8 i)) : leftHalf (out a0 a1 a2 a3 a4 a5 a6 a7 a8 a9 a10 a11 a12 a13) = head a0 a1 a2 a3 a4 a5 a6 a7 a8 a9 a10 := by
  funext i
  obtain ⟨p, q, rfl⟩ : ∃ (p : Fin 20000) (q : Fin 8), i = ix2 p q := ⟨i 0, i 1, eq_ix2 i⟩
  show mat (leftHalf (out a0 a1 a2 a3 a4 a5 a6 a7 a8 a9 a10 a11 a12 a13)) p q = mat (head a0 a1 a2 a3 a4 a5 a6 a7 a8 a9 a10) p q
  rw [mat_leftHalf, mat_out, mat_p3, mat_h2, mat_p2, mat_h1, mat_head, mat_H2, mat_H1]
  exact Cert.GraphLaw.stack (sel a1) (g a1) (dm a1) (one_le_dm a1) (mat a0) (fun p c => r0 (ix2 p c))
    (mat a2) (mat a4) (vec a3) (fun c q => r2 (ix2 c q)) (fun c q => r4 (ix2 c q)) (fun q => r3 (ix1 q))
    (mat a5) (mat a7) (vec a6) (fun c q => r5 (ix2 c q)) (fun c q => r7 (ix2 c q)) (fun q => r6 (ix1 q))
    lo (mat (cat2 a8 a11)) (mat (cat2 a10 a13)) (vec (cat1 a9 a12)) (mat a8) (mat a10) (vec a9)
    (mat_cat2_lo a8 a11) (mat_cat2_lo a10 a13) (vec_cat1_lo a9 a12) (fun c q => r8 (ix2 c q)) p q

/-- The right half of the fused heads is `logstd`. -/
theorem logstd_eq (r11 : ∀ i, IsReal (a11 i)) : rightHalf (out a0 a1 a2 a3 a4 a5 a6 a7 a8 a9 a10 a11 a12 a13) = head a0 a1 a2 a3 a4 a5 a6 a7 a11 a12 a13 := by
  funext i
  obtain ⟨p, q, rfl⟩ : ∃ (p : Fin 20000) (q : Fin 8), i = ix2 p q := ⟨i 0, i 1, eq_ix2 i⟩
  show mat (rightHalf (out a0 a1 a2 a3 a4 a5 a6 a7 a8 a9 a10 a11 a12 a13)) p q = mat (head a0 a1 a2 a3 a4 a5 a6 a7 a11 a12 a13) p q
  rw [mat_rightHalf, mat_out, mat_p3, mat_h2, mat_p2, mat_h1, mat_head, mat_H2, mat_H1]
  exact Cert.GraphLaw.stack (sel a1) (g a1) (dm a1) (one_le_dm a1) (mat a0) (fun p c => r0 (ix2 p c))
    (mat a2) (mat a4) (vec a3) (fun c q => r2 (ix2 c q)) (fun c q => r4 (ix2 c q)) (fun q => r3 (ix1 q))
    (mat a5) (mat a7) (vec a6) (fun c q => r5 (ix2 c q)) (fun c q => r7 (ix2 c q)) (fun q => r6 (ix1 q))
    hi (mat (cat2 a8 a11)) (mat (cat2 a10 a13)) (vec (cat1 a9 a12)) (mat a11) (mat a13) (vec a12)
    (mat_cat2_hi a8 a11) (mat_cat2_hi a10 a13) (vec_cat1_hi a9 a12) (fun c q => r11 (ix2 c q)) p q

end Real

end Cert.Algebraic

end
-- ==== Proof.FiniteInputs.lean ====
/-
  From the precondition to real inputs.

  The precondition evaluates, for each float argument x of the program, "every entry of |x| is below +∞", and the
  conjunction of these thirteen bits is required to be 1. Over the extended reals |x| = max x (−x), and this maximum is
  below ⊤ exactly when x is neither ⊤ nor ⊥, that is, when x is a real number. So under the precondition every entry
  of every float argument is a real number — which is what the algebraic laws that move a factor across a sum need.
-/
import proofs.«122720_j47107201302764_2_alg».proof.Defs
import proofs.«122720_j47107201302764_2_alg».proof.Proof.Gen.Pre_finite_inputs
import proofs.«122720_j47107201302764_2_alg».proof.Proof.LibGraphAlg
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.TcCoe Idealize.SL.Sem Idealize.ShloMosaic.GraphAlg
open Cert.Pre_finite_inputs

/-- The scalar shape has one index. -/
instance : Subsingleton S_.Idx := ⟨fun a b => funext fun d => d.elim0⟩

/-- An extended real whose absolute value max x (−x) is below the value of the bit pattern of +∞ is a real number:
    the pattern denotes ⊤, and both ⊤ and ⊥ have absolute value ⊤. -/
theorem isReal_of_abs_lt (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  have hb : BitVec.ofBool (decide (max x (-x) < ⊤)) = 1#1 := h
  have hlt : max x (-x) < ⊤ := by
    by_contra hn
    rw [decide_eq_false hn] at hb
    exact absurd hb (by decide)
  rw [max_lt_iff] at hlt
  induction x using EReal.rec with
  | bot => simp at hlt
  | coe r => exact ⟨r, rfl⟩
  | top => simp at hlt

/-- One argument's bit: if "all entries of |a| are below +∞" evaluates to 1, every entry of a is real. -/
theorem real_of_all {s : Shape} {axes : List (Fin s.rank)} (a : FVec Ideal s .f32)
    (hb : S_.BroadcastsInDim s (![] : Fin 0 → Fin s.rank)) (hr : s.ReducesTo axes S_) (hu : 0 < S_.numel) (init : IVec S_ 1)
    (e : Host.reduce IntOp.andi (cmpf .olt (Host.absf a) (broadcastInDim s ![] hb (constant (F := Ideal) S_ .f32 0x7F800000#32))) init hr hu ValueIdx.ix0 = 1#1)
    (i : s.Idx) : IsReal (a i) :=
  isReal_of_abs_lt (a i) (Host.reduce_andi_all _ init hr hu ValueIdx.ix0 e i)

/-- The precondition's function at arbitrary arrays: if it evaluates to 1, every entry of each of the thirteen float
    arrays is real. Its value is the conjunction, nested to the left, of the thirteen per-array bits. -/
theorem real_of_fn [hP : Cert.Pre_finite_inputs.Facts] (a0 : FVec Ideal S20000x128 .f32) (a1 : IVec S2x160000 32) (a2 : FVec Ideal S128x1024 .f32) (a3 : FVec Ideal S1024 .f32) (a4 : FVec Ideal S128x1024 .f32) (a5 : FVec Ideal S1024x512 .f32) (a6 : FVec Ideal S512 .f32) (a7 : FVec Ideal S1024x512 .f32) (a8 : FVec Ideal S512x8 .f32) (a9 : FVec Ideal S8 .f32) (a10 : FVec Ideal S512x8 .f32) (a11 : FVec Ideal S512x8 .f32) (a12 : FVec Ideal S8 .f32) (a13 : FVec Ideal S512x8 .f32)
    (h : fn (F := Ideal) a0 a1 a2 a3 a4 a5 a6 a7 a8 a9 a10 a11 a12 a13 = fun _ => 1#1) :
    (∀ i, IsReal (a0 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) := by
  have h0 := congrFun h ValueIdx.ix0
  dsimp only [fn, fn_part1, fn_part2, fn_part3, andi] at h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨fun i => real_of_all a0 _ _ _ _ e0 i,
    fun i => real_of_all a2 _ _ _ _ e2 i,
    fun i => real_of_all a3 _ _ _ _ e3 i,
    fun i => real_of_all a4 _ _ _ _ e4 i,
    fun i => real_of_all a5 _ _ _ _ e5 i,
    fun i => real_of_all a6 _ _ _ _ e6 i,
    fun i => real_of_all a7 _ _ _ _ e7 i,
    fun i => real_of_all a8 _ _ _ _ e8 i,
    fun i => real_of_all a9 _ _ _ _ e9 i,
    fun i => real_of_all a10 _ _ _ _ e10 i,
    fun i => real_of_all a11 _ _ _ _ e11 i,
    fun i => real_of_all a12 _ _ _ _ e12 i,
    fun i => real_of_all a13 _ _ _ _ e13 i⟩

/-- Under the precondition every entry of every float argument of the program is a real number. -/
theorem real_inputs [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg0)) i))
    ∧ (∀ i, IsReal ((m ((c.tc : Thread Cert.KernelIdeal.nD Cert.KernelIdeal.τ).loc Cert.KernelIdeal.main_arg2)) i))
    ∧ (∀ i, IsReal ((m ((c.tc : Thread Cert.KernelIdeal.nD Cert.KernelIdeal.τ).loc Cert.KernelIdeal.main_arg3)) i))
    ∧ (∀ i, IsReal ((m ((c.tc : Thread Cert.KernelIdeal.nD Cert.KernelIdeal.τ).loc Cert.KernelIdeal.main_arg4)) i))
    ∧ (∀ i, IsReal ((m ((c.tc : Thread Cert.KernelIdeal.nD Cert.KernelIdeal.τ).loc Cert.KernelIdeal.main_arg5)) i))
    ∧ (∀ i, IsReal ((m ((c.tc : Thread Cert.KernelIdeal.nD Cert.KernelIdeal.τ).loc Cert.KernelIdeal.main_arg6)) i))
    ∧ (∀ i, IsReal ((m ((c.tc : Thread Cert.KernelIdeal.nD Cert.KernelIdeal.τ).loc Cert.KernelIdeal.main_arg7)) i))
    ∧ (∀ i, IsReal ((m ((c.tc : Thread Cert.KernelIdeal.nD Cert.KernelIdeal.τ).loc Cert.KernelIdeal.main_arg8)) i))
    ∧ (∀ i, IsReal ((m ((c.tc : Thread Cert.KernelIdeal.nD Cert.KernelIdeal.τ).loc Cert.KernelIdeal.main_arg9)) i))
    ∧ (∀ i, IsReal ((m ((c.tc : Thread Cert.KernelIdeal.nD Cert.KernelIdeal.τ).loc Cert.KernelIdeal.main_arg10)) i))
    ∧ (∀ i, IsReal ((m ((c.tc : Thread Cert.KernelIdeal.nD Cert.KernelIdeal.τ).loc Cert.KernelIdeal.main_arg11)) i))
    ∧ (∀ i, IsReal ((m ((c.tc : Thread Cert.KernelIdeal.nD Cert.KernelIdeal.τ).loc Cert.KernelIdeal.main_arg12)) i))
    ∧ (∀ i, IsReal ((m ((c.tc : Thread Cert.KernelIdeal.nD Cert.KernelIdeal.τ).loc Cert.KernelIdeal.main_arg13)) i)) :=
  real_of_fn (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13)) (h c)

end Cert.FiniteInputs

end
-- ==== Proof.lean ====
/-
  A three-layer mean-aggregation graph convolution (two rectified hidden layers and two linear heads, `mu` and
  `logstd`, sharing the second hidden layer) computed two ways, equal on the extended reals for finite inputs.

  The reference computes each layer as  mean(X) · W_rel + b + X · W_root,  where mean(X) sums, for every node, the rows of
  `X` at the sources of the edges ending there and divides by the degree raised to at least one. The kernel computes the
  first layer the same way up to the order of the three terms, but for the second layer and for the heads it projects
  first and aggregates second — mean(X · W_rel) in place of mean(X) · W_rel —, multiplies by the reciprocal degree
  instead of dividing by the degree, and computes the two heads as one layer over the two weight pairs side by side,
  cutting the result in two. Over the reals these are the same numbers: a sum over edges commutes with a sum over
  columns, and a real factor distributes over a real sum. On the extended reals that distributivity needs the summands
  finite, which is what the precondition gives for the inputs and what each rectified layer preserves.

  The pieces: each pallas_call region's output array as one function of its input arrays (Region0 … Region4); the host
  stretches between them (KernelHostDefs, KernelHostReads); the kernel's whole run with every buffer named at the end
  (KernelRun) and the results walked back to the arguments (KernelValue); the reference's run read layer by layer
  (RefValue); both programs' gather-and-scatter aggregation read at an element as one sum over edges (LibGatherRows,
  LibSegmentSum, LibAggRows, HostBridge); the law itself over plain matrices (LibGraphAlg, GraphLaw); the fused weights'
  columns (KernelLayout); finiteness of the inputs from the precondition (FiniteInputs); the two results equal as
  arrays (Algebraic). The three frames are the generated ones; the idealization rewrote nothing, so `preserves` is
  `True`.
-/
import proofs.«122720_j47107201302764_2_alg».proof.Defs
import proofs.«122720_j47107201302764_2_alg».proof.Proof.Gen.Kernel
import proofs.«122720_j47107201302764_2_alg».proof.Proof.Gen.Kernel.Skeleton
import proofs.«122720_j47107201302764_2_alg».proof.Proof.Gen.Kernel.Launch
import proofs.«122720_j47107201302764_2_alg».proof.Proof.Gen.Kernel.Points
import proofs.«122720_j47107201302764_2_alg».proof.Proof.Gen.Kernel.Frame
import proofs.«122720_j47107201302764_2_alg».proof.Proof.Gen.KernelIdeal
import proofs.«122720_j47107201302764_2_alg».proof.Proof.Gen.KernelIdeal.Skeleton
import proofs.«122720_j47107201302764_2_alg».proof.Proof.Gen.KernelIdeal.Launch
import proofs.«122720_j47107201302764_2_alg».proof.Proof.Gen.KernelIdeal.Points
import proofs.«122720_j47107201302764_2_alg».proof.Proof.Gen.KernelIdeal.Frame
import proofs.«122720_j47107201302764_2_alg».proof.Proof.Gen.ReferenceIdeal
import proofs.«122720_j47107201302764_2_alg».proof.Proof.Gen.Pre_finite_inputs
import proofs.«122720_j47107201302764_2_alg».proof.Proof.Gen.ReferenceIdeal.Run
import proofs.«122720_j47107201302764_2_alg».proof.Proof.Gen.ReferenceIdeal.Read
import proofs.«122720_j47107201302764_2_alg».proof.Proof.Algebraic
import proofs.«122720_j47107201302764_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2) (Cert.ReferenceIdeal.RefValue.run m ρ)

/-- From memories that agree on the arguments both programs run, and `mu` and `logstd` come out equal: the kernel's are
    the two halves of its fused heads (KernelValue), the reference's its two heads (RefValue), and those are the same
    arrays when the float arguments are real (Algebraic), which the precondition says (FiniteInputs). -/
theorem algebraic : Cert.algebraic_KernelIdeal_ReferenceIdeal := by
  intro m ρ m' ρ' hpre hagree
  refine ⟨fun c => Cert.KernelIdeal.HostValue.leftHalf (Cert.KernelIdeal.KernelValue.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))),
    fun c => Cert.KernelIdeal.HostValue.rightHalf (Cert.KernelIdeal.KernelValue.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))),
    Cert.KernelIdeal.KernelValue.run m ρ, ?_⟩
  refine (θ_run Cert.ReferenceIdeal.defs _ _).mono (fun r h c => ?_) (Cert.ReferenceIdeal.RefValue.run m' ρ')
  obtain ⟨e0, e1, e2, e3, e4, e5, e6, e7, e8, e9, e10, e11, e12, e13⟩ := hagree c
  obtain ⟨r0, r2, r3, r4, r5, r6, r7, r8, r9, r10, r11, r12, r13⟩ := Cert.FiniteInputs.real_inputs m hpre c
  refine ⟨(h c).1.trans ?_, (h c).2.1.trans ?_, (h c).2.2⟩
  · rw [e0, e1, e2, e3, e4, e5, e6, e7, e8, e9, e10]
    exact (Cert.Algebraic.mu_eq _ _ _ _ _ _ _ _ _ _ _ _ _ _ r0 r2 r3 r4 r5 r6 r7 r8).symm
  · rw [e0, e1, e2, e3, e4, e5, e6, e7, e11, e12, e13]
    exact (Cert.Algebraic.logstd_eq _ _ _ _ _ _ _ _ _ _ _ _ _ _ r0 r2 r3 r4 r5 r6 r7 r11).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
